-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v13) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v8) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2048x100000 : Shape := ⟨2, ![2048, 100000]⟩
abbrev S100000x64 : Shape := ⟨2, ![100000, 64]⟩
abbrev S_ : Shape := ⟨0, ![]⟩

class Facts : Prop where
  bcast_S_S2048x100000 : S_.BroadcastsInDim S2048x100000 (![] : Fin 0 → Fin S2048x100000.rank)
  reducesTo_S2048x100000_S_d0_1 : S2048x100000.ReducesTo [0, 1] S_
  h_S_ : 0 < S_.numel
  bcast_S_S100000x64 : S_.BroadcastsInDim S100000x64 (![] : Fin 0 → Fin S100000x64.rank)
  reducesTo_S100000x64_S_d0_1 : S100000x64.ReducesTo [0, 1] S_

variable [Facts]

def fn {F : FTy → Type} [FloatOps F] (main_arg0 : FVec F S2048x100000 .f32) (main_arg1 : FVec F S100000x64 .f32) : IVec S_ 1 :=
  let main_v0 : FVec F S2048x100000 .f32 := Host.absf main_arg0
  let main_cst : FVec F S_ .f32 := constant S_ .f32 0x7F800000#32
  let main_v1 : FVec F S2048x100000 .f32 := broadcastInDim S2048x100000 ![] bcast_S_S2048x100000 main_cst
  let main_v2 : IVec S2048x100000 1 := cmpf .olt main_v0 main_v1
  let main_c : IVec S_ 1 := constantI S_ 1 1#1
  let main_v3 : IVec S_ 1 := (fun x v => Host.reduce IntOp.andi x v reducesTo_S2048x100000_S_d0_1 h_S_) main_v2 main_c
  let main_v4 : FVec F S100000x64 .f32 := Host.absf main_arg1
  let main_cst_0 : FVec F S_ .f32 := constant S_ .f32 0x7F800000#32
  let main_v5 : FVec F S100000x64 .f32 := broadcastInDim S100000x64 ![] bcast_S_S100000x64 main_cst_0
  let main_v6 : IVec S100000x64 1 := cmpf .olt main_v4 main_v5
  let main_c_1 : IVec S_ 1 := constantI S_ 1 1#1
  let main_v7 : IVec S_ 1 := (fun x v => Host.reduce IntOp.andi x v reducesTo_S100000x64_S_d0_1 h_S_) main_v6 main_c_1
  let main_v8 : IVec S_ 1 := andi main_v3 main_v7
  main_v8
-- ==== Kernel.lean ====
abbrev S2048x100000 : Shape := ⟨2, ![2048, 100000]⟩
abbrev S100000x64 : Shape := ⟨2, ![100000, 64]⟩
abbrev S2048x64 : Shape := ⟨2, ![2048, 64]⟩
abbrev S2048x1 : Shape := ⟨2, ![2048, 1]⟩
abbrev S1024x1408 : Shape := ⟨2, ![1024, 1408]⟩
abbrev S1408x64 : Shape := ⟨2, ![1408, 64]⟩
abbrev S1024x64 : Shape := ⟨2, ![1024, 64]⟩
abbrev S1024x1 : Shape := ⟨2, ![1024, 1]⟩
abbrev S1024 : Shape := ⟨1, ![1024]⟩
abbrev S2048x32 : Shape := ⟨2, ![2048, 32]⟩
abbrev S32x64 : Shape := ⟨2, ![32, 64]⟩
abbrev S_ : Shape := ⟨0, ![]⟩
abbrev S2048 : Shape := ⟨1, ![2048]⟩

abbrev nBuf : Space → Nat
  | .hbm => 21
  | .vmem => 10
  | .smem => 0
  | _ => 0

abbrev bufTy : (tb : Table) → Fin (tcTables nBuf tb) → BufTy
  | .hbm, ⟨0, _⟩ => ⟨S2048x100000, .f32⟩
  | .hbm, ⟨1, _⟩ => ⟨S100000x64, .f32⟩
  | .hbm, ⟨2, _⟩ => ⟨S2048x64, .f32⟩
  | .hbm, ⟨3, _⟩ => ⟨S2048x1, .f32⟩
  | .hbm, ⟨4, _⟩ => ⟨S2048x32, .f32⟩
  | .hbm, ⟨5, _⟩ => ⟨S32x64, .f32⟩
  | .hbm, ⟨6, _⟩ => ⟨S2048x64, .f32⟩
  | .hbm, ⟨7, _⟩ => ⟨S_, .f32⟩
  | .hbm, ⟨8, _⟩ => ⟨S2048, .f32⟩
  | .hbm, ⟨9, _⟩ => ⟨S2048x1, .f32⟩
  | .hbm, ⟨10, _⟩ => ⟨S2048x64, .f32⟩
  | .hbm, ⟨11, _⟩ => ⟨S2048x1, .f32⟩
  | .hbm, ⟨12, _⟩ => ⟨S_, .f32⟩
  | .hbm, ⟨13, _⟩ => ⟨S2048x1, .f32⟩
  | .hbm, ⟨14, _⟩ => ⟨S2048x1, .i1⟩
  | .hbm, ⟨15, _⟩ => ⟨S2048x64, .f32⟩
  | .hbm, ⟨16, _⟩ => ⟨S2048x64, .f32⟩
  | .hbm, ⟨17, _⟩ => ⟨S_, .f32⟩
  | .hbm, ⟨18, _⟩ => ⟨S2048x64, .f32⟩
  | .hbm, ⟨19, _⟩ => ⟨S2048x64, .i1⟩
  | .hbm, ⟨20, _⟩ => ⟨S2048x64, .f32⟩
  | .local _ .vmem, ⟨0, _⟩ => ⟨S1024x1408, .f32⟩
  | .local _ .vmem, ⟨1, _⟩ => ⟨S1024x1408, .f32⟩
  | .local _ .vmem, ⟨2, _⟩ => ⟨S1408x64, .f32⟩
  | .local _ .vmem, ⟨3, _⟩ => ⟨S1408x64, .f32⟩
  | .local _ .vmem, ⟨4, _⟩ => ⟨S1024x64, .f32⟩
  | .local _ .vmem, ⟨5, _⟩ => ⟨S1024x64, .f32⟩
  | .local _ .vmem, ⟨6, _⟩ => ⟨S1024x1, .f32⟩
  | .local _ .vmem, ⟨7, _⟩ => ⟨S1024x1, .f32⟩
  | .local _ .vmem, ⟨8, _⟩ => ⟨S1024x64, .f32⟩
  | .local _ .vmem, ⟨9, _⟩ => ⟨S1024x1, .f32⟩
  | _, _ => ⟨S2048x100000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst_0 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_cst_1 : Ref sig .tc := ⟨.hbm, 17, rfl⟩
abbrev main_v12 : Ref sig .tc := ⟨.hbm, 18, rfl⟩
abbrev main_call0_v0 : Ref sig .tc := ⟨.hbm, 19, rfl⟩
abbrev main_v13 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![2, 71], ![false, false]⟩

def k0_cond2 (i : grid0.Coords) : BitVec 1 :=
  let arg1 : BitVec 32 := BitVec.ofNat 32 (i 1).val
  let c70_i32 : BitVec 32 := 70#32
  let v20 : BitVec 1 := Scalar.cmpi .eq arg1 c70_i32
  let v21 : BitVec 32 := Scalar.extui v20
  let c0_i32_13 : BitVec 32 := 0#32
  let v22 : BitVec 1 := Scalar.cmpi .ne v21 c0_i32_13
  v22

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x1408 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1408x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1024x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

class Facts₀ : Prop where
  inb_S1024x64_S1024x64_0_0 : ∀ a, (![0, 0] : Fin 2 → Nat) a + S1024x64.size a ≤ S1024x64.size a
  h_S1024x64 : 0 < S1024x64.numel
  shapeCasts_S1024x64_S1024x64 : S1024x64.ShapeCasts S1024x64
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  inb_S1024x1408_S1024x1408_0_0 : ∀ a, (![0, 0] : Fin 2 → Nat) a + S1024x1408.size a ≤ S1024x1408.size a
  h_S1024x1408 : 0 < S1024x1408.numel
  inb_S1408x64_S1408x64_0_0 : ∀ a, (![0, 0] : Fin 2 → Nat) a + S1408x64.size a ≤ S1408x64.size a
  h_S1408x64 : 0 < S1408x64.numel
  bitsLt_bf16_f32 : FTy.bits .bf16 < FTy.bits .f32
  reduces_S1024x1408_S1024 : S1024x1408.Reduces [1] S1024
  shapeCasts_S1024_S1024x1 : S1024.ShapeCasts S1024x1
  slices_S2048x100000_S2048x32_0_99968 : S2048x100000.Slices ![0, 99968] S2048x32
  slices_S100000x64_S32x64_99968_0 : S100000x64.Slices ![99968, 0] S32x64
  reducesTo_S2048x32_S2048_d1 : S2048x32.ReducesTo [1] S2048
  h_S_ : 0 < S_.numel
  bcast_S2048_S2048x1_0 : S2048.BroadcastsInDim S2048x1 (![0] : Fin 1 → Fin S2048x1.rank)
  bcast_S_S2048x1 : S_.BroadcastsInDim S2048x1 (![] : Fin 0 → Fin S2048x1.rank)
  bcast_S2048x1_S2048x64_0_1 : S2048x1.BroadcastsInDim S2048x64 (![0, 1] : Fin 2 → Fin S2048x64.rank)
  bcast_S_S2048x64 : S_.BroadcastsInDim S2048x64 (![] : Fin 0 → Fin S2048x64.rank)
  dot_S1024x1408_S1408x64_S1024x64_1_0_0_1_n_n_wf : DotDims.WF S1024x1408 S1408x64 S1024x64 [1] [0] [0] [1] [] []
  dot_S2048x32_S32x64_S2048x64_1_0_0_1_n_n_wf : DotDims.WF S2048x32 S32x64 S2048x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hstart0_0 : ∀ (i : grid0.Coords) a, cc0_transform_0 i a * S1024x1408.size a < S2048x100000.size a
  hwx0_0 : ∀ i : grid0.Coords, EltTy.bits .f32 = 32 ∨ (Rect.unit (s := S2048x100000) (fun a => cc0_transform_0 i a * S1024x1408.size a) (fun a => (Pipeline.Clip.of (cc0_transform_0 i a) (S1024x1408.size a) (S2048x100000.size a)).extent (S1024x1408.size a)) fun a => Pipeline.Clip.inb (Pipeline.Clip.ok_of (hstart0_0 i a))).WholeWords (EltTy.packing .f32)
  hwxs0_0 : ∀ i : grid0.Coords, EltTy.bits .f32 = 32 ∨ (Rect.unit (s := S1024x1408) (fun _ => 0) (fun a => (Pipeline.Clip.of (cc0_transform_0 i a) (S1024x1408.size a) (S2048x100000.size a)).extent (S1024x1408.size a)) fun a => (Nat.zero_add _).trans_le (Pipeline.Clip.extent_le (Pipeline.Clip.ok_of (hstart0_0 i a)))).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hstart0_1 : ∀ (i : grid0.Coords) a, cc0_transform_1 i a * S1408x64.size a < S100000x64.size a
  hwx0_1 : ∀ i : grid0.Coords, EltTy.bits .f32 = 32 ∨ (Rect.unit (s := S100000x64) (fun a => cc0_transform_1 i a * S1408x64.size a) (fun a => (Pipeline.Clip.of (cc0_transform_1 i a) (S1408x64.size a) (S100000x64.size a)).extent (S1408x64.size a)) fun a => Pipeline.Clip.inb (Pipeline.Clip.ok_of (hstart0_1 i a))).WholeWords (EltTy.packing .f32)
  hwxs0_1 : ∀ i : grid0.Coords, EltTy.bits .f32 = 32 ∨ (Rect.unit (s := S1408x64) (fun _ => 0) (fun a => (Pipeline.Clip.of (cc0_transform_1 i a) (S1408x64.size a) (S100000x64.size a)).extent (S1408x64.size a)) fun a => (Nat.zero_add _).trans_le (Pipeline.Clip.extent_le (Pipeline.Clip.ok_of (hstart0_1 i a)))).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x64.size a ≤ S2048x64.size a
  hwx0_2 : ∀ i : grid0.Coords, EltTy.bits .f32 = 32 ∨ (Rect.block (s := S2048x64) S1024x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x1.size a ≤ S2048x1.size a
  hwx0_3 : ∀ i : grid0.Coords, EltTy.bits .f32 = 32 ∨ (Rect.block (s := S2048x1) S1024x1.size (cc0_transform_3 i) (hinb0_3 i)).WholeWords (EltTy.packing .f32)

variable [Facts₀]

def dot_S1024x1408_S1408x64_S1024x64_1_0_0_1_n_n : DotDims S1024x1408 S1408x64 S1024x64 where
  lhsContracting := [1]
  rhsContracting := [0]
  lhsNonContracting := [0]
  rhsNonContracting := [1]
  lhsBatch := []
  rhsBatch := []
  wf := dot_S1024x1408_S1408x64_S1024x64_1_0_0_1_n_n_wf
def dot_S2048x32_S32x64_S2048x64_1_0_0_1_n_n : DotDims S2048x32 S32x64 S2048x64 where
  lhsContracting := [1]
  rhsContracting := [0]
  lhsNonContracting := [0]
  rhsNonContracting := [1]
  lhsBatch := []
  rhsBatch := []
  wf := dot_S2048x32_S32x64_S2048x64_1_0_0_1_n_n_wf

abbrev win0_0 : Pipeline.Window sig grid0 :=
  Pipeline.Window.ofSpecClip (Memref.whole main_arg0) S1024x1408.size cc0_transform_0 reads0_0 false false 2 stage0_0 sem0_0
    hrank0 hreads0_0 hstart0_0 nbuf0_0 (Memref.isWhole_whole _) hwx0_0 hwxs0_0 hstage0_0

abbrev win0_1 : Pipeline.Window sig grid0 :=
  Pipeline.Window.ofSpecClip (Memref.whole main_arg1) S1408x64.size cc0_transform_1 reads0_1 false false 2 stage0_1 sem0_1
    hrank0 hreads0_1 hstart0_1 nbuf0_1 (Memref.isWhole_whole _) hwx0_1 hwxs0_1 hstage0_1

abbrev win0_2 : Pipeline.Window sig grid0 :=
  Pipeline.Window.ofSpec (Memref.whole main_v0_0) S1024x64.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0_1) S1024x1.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun i => !(k0_cond2 i == 1#1) | 3 => fun i => !(k0_cond2 i == 1#1) | ⟨_ + 4, h⟩ => absurd h (Nat.not_lt.2 (Nat.le_add_left _ _))

class Facts : Prop extends Facts₀ where

variable [Facts]
-- ==== ReferenceIdeal.lean ====
abbrev S2048x100000 : Shape := ⟨2, ![2048, 100000]⟩
abbrev S100000x64 : Shape := ⟨2, ![100000, 64]⟩
abbrev S2048x64 : Shape := ⟨2, ![2048, 64]⟩
abbrev S_ : Shape := ⟨0, ![]⟩
abbrev S2048 : Shape := ⟨1, ![2048]⟩
abbrev S2048x1 : Shape := ⟨2, ![2048, 1]⟩

abbrev nBuf : Space → Nat
  | .hbm => 15
  | .vmem => 0
  | .smem => 0
  | _ => 0

abbrev bufTy : (tb : Table) → Fin (tcTables nBuf tb) → BufTy
  | .hbm, ⟨0, _⟩ => ⟨S2048x100000, .f32⟩
  | .hbm, ⟨1, _⟩ => ⟨S100000x64, .f32⟩
  | .hbm, ⟨2, _⟩ => ⟨S2048x64, .f32⟩
  | .hbm, ⟨3, _⟩ => ⟨S_, .f32⟩
  | .hbm, ⟨4, _⟩ => ⟨S2048, .f32⟩
  | .hbm, ⟨5, _⟩ => ⟨S2048x1, .f32⟩
  | .hbm, ⟨6, _⟩ => ⟨S_, .f32⟩
  | .hbm, ⟨7, _⟩ => ⟨S2048x1, .f32⟩
  | .hbm, ⟨8, _⟩ => ⟨S2048x1, .i1⟩
  | .hbm, ⟨9, _⟩ => ⟨S2048x64, .f32⟩
  | .hbm, ⟨10, _⟩ => ⟨S2048x64, .f32⟩
  | .hbm, ⟨11, _⟩ => ⟨S_, .f32⟩
  | .hbm, ⟨12, _⟩ => ⟨S2048x64, .f32⟩
  | .hbm, ⟨13, _⟩ => ⟨S2048x64, .i1⟩
  | .hbm, ⟨14, _⟩ => ⟨S2048x64, .f32⟩
  | _, _ => ⟨S2048x100000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst_1 : Ref sig .tc := ⟨.hbm, 11, rfl⟩
abbrev main_v7 : Ref sig .tc := ⟨.hbm, 12, rfl⟩
abbrev main_call0_v0 : Ref sig .tc := ⟨.hbm, 13, rfl⟩
abbrev main_v8 : Ref sig .tc := ⟨.hbm, 14, rfl⟩

abbrev nD : Nat := 1
abbrev τ : Topo := Topo.v7x

variable {F : FTy → Type} [FloatOps F]

class Facts₀ : Prop where
  reducesTo_S2048x100000_S2048_d1 : S2048x100000.ReducesTo [1] S2048
  h_S_ : 0 < S_.numel
  bcast_S2048_S2048x1_0 : S2048.BroadcastsInDim S2048x1 (![0] : Fin 1 → Fin S2048x1.rank)
  bcast_S_S2048x1 : S_.BroadcastsInDim S2048x1 (![] : Fin 0 → Fin S2048x1.rank)
  bcast_S2048x1_S2048x64_0_1 : S2048x1.BroadcastsInDim S2048x64 (![0, 1] : Fin 2 → Fin S2048x64.rank)
  bcast_S_S2048x64 : S_.BroadcastsInDim S2048x64 (![] : Fin 0 → Fin S2048x64.rank)
  dot_S2048x100000_S100000x64_S2048x64_1_0_0_1_n_n_wf : DotDims.WF S2048x100000 S100000x64 S2048x64 [1] [0] [0] [1] [] []

variable [Facts₀]

def dot_S2048x100000_S100000x64_S2048x64_1_0_0_1_n_n : DotDims S2048x100000 S100000x64 S2048x64 where
  lhsContracting := [1]
  rhsContracting := [0]
  lhsNonContracting := [0]
  rhsNonContracting := [1]
  lhsBatch := []
  rhsBatch := []
  wf := dot_S2048x100000_S100000x64_S2048x64_1_0_0_1_n_n_wf

class Facts : Prop extends Facts₀ where

variable [Facts]
-- ==== Proof.KbCases.lean ====
/-
  The kernel's body at a grid point: which of its two conditionals run there, and what follows for its windows.

  The grid is 2 x 71; point `t` has the coordinates (t / 71, t % 71), the second one the index of the block of 1408 bucket
  columns. The body's first conditional (reset the two accumulators) runs exactly at the points with t % 71 = 0, its second
  (copy the accumulators to the two result blocks) exactly at those with t % 71 = 70. So every point is in one of three
  cases: first block, middle block, last block. The two result windows are stored into, and written back, only at the last
  block; the two input windows are read at every point, and no block of theirs reaches past the end of its array
  (71 * 1408 = 99968 <= 100000), so a fetch fills the whole staging buffer.
-/
import proofs.«114592_j12567074308161_1_alg».proof.Proof.Gen.Kernel.Frame
import proofs.«114592_j12567074308161_1_alg».proof.Proof.Gen.Kernel.Skeleton

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The two conditions, in closed form over the grid -/

/-- The condition of the first conditional: the bucket-block coordinate is 0. -/
abbrev cond0_0 (i : grid0.Coords) : Prop := (Scalar.cmpi .ne (Scalar.extui (Scalar.cmpi .eq (BitVec.ofNat 32 (i 1).val) 0#32)) 0#32) = 1#1
/-- It holds exactly at the points with `t % 71 = 0`. -/
theorem hcond0_0 : ∀ t : Fin cfg0.N, cond0_0 (grid0.coords t) ↔ t.val % 71 = 0 :=
  (by decide +kernel : ∀ t : Fin grid0.N, cond0_0 (grid0.coords t) ↔ t.val % 71 = 0)

/-- The condition of the second conditional: the bucket-block coordinate is 70, the last. -/
abbrev cond0_1 (i : grid0.Coords) : Prop := k0_cond2 i = 1#1
/-- It holds exactly at the points with `t % 71 = 70`. -/
theorem hcond0_1 : ∀ t : Fin cfg0.N, cond0_1 (grid0.coords t) ↔ t.val % 71 = 70 :=
  (by decide +kernel : ∀ t : Fin grid0.N, cond0_1 (grid0.coords t) ↔ t.val % 71 = 70)

/-! ## Where the windows are live, written back, and whole -/

/-- The two input windows are read at every point. -/
theorem liveAt0_0 : ∀ t : Fin cfg0.N, cfg0.idle 0 (grid0.coords t) = false := by decide +kernel
theorem liveAt0_1 : ∀ t : Fin cfg0.N, cfg0.idle 1 (grid0.coords t) = false := by decide +kernel
/-- Away from the last block the body stores nothing into the result windows, and they are not written back there. -/
theorem idleAt0_2 : ∀ t : Fin cfg0.N, ¬cond0_1 (grid0.coords t) → cfg0.idle 2 (grid0.coords t) = true := by decide +kernel
theorem noFlush0_2 : ∀ t : Fin cfg0.N, ¬cond0_1 (grid0.coords t) → (cfg0.win 2).flush t = false := by decide +kernel
theorem idleAt0_3 : ∀ t : Fin cfg0.N, ¬cond0_1 (grid0.coords t) → cfg0.idle 3 (grid0.coords t) = true := by decide +kernel
theorem noFlush0_3 : ∀ t : Fin cfg0.N, ¬cond0_1 (grid0.coords t) → (cfg0.win 3).flush t = false := by decide +kernel
/-- At the last block both result windows are stored into. -/
theorem liveAt0_2 : ∀ t : Fin cfg0.N, cond0_1 (grid0.coords t) → cfg0.idle 2 (grid0.coords t) = false := by decide +kernel
theorem liveAt0_3 : ∀ t : Fin cfg0.N, cond0_1 (grid0.coords t) → cfg0.idle 3 (grid0.coords t) = false := by decide +kernel
/-- No block of an input window reaches past the end of its array: no transfer is cut. -/
theorem clip0_0 : ∀ t : Fin cfg0.N, ∀ a, (cfg0.win 0).clip (grid0.coords t) a = none :=
  (by decide +kernel : ∀ t : Fin grid0.N, ∀ a, win0_0.clip (grid0.coords t) a = none)
theorem clip0_1 : ∀ t : Fin cfg0.N, ∀ a, (cfg0.win 1).clip (grid0.coords t) a = none :=
  (by decide +kernel : ∀ t : Fin grid0.N, ∀ a, win0_1.clip (grid0.coords t) a = none)

/-! ## The memrefs the body is called with -/

/-- One staging buffer of each result window, through which its contents are stated. -/
abbrev VO0_2 : View sig .tc .vmem S1024x64 .f32 := (Memref.whole cc0_stg2_0 : Memref sig .tc .vmem S1024x64 .f32).view
abbrev VO0_3 : View sig .tc .vmem S1024x1 .f32 := (Memref.whole cc0_stg3_0 : Memref sig .tc .vmem S1024x1 .f32).view
/-- Each window's current staging memref at point `t`, and its wholeness. -/
abbrev ms0_0 (t : Fin cfg0.N) : Memref sig .tc .vmem S1024x1408 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1408x64 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1024x64 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1024x1 .f32 := win0_3.stage (cfg0.slots t 3)
abbrev hs0_3 (t : Fin cfg0.N) : (ms0_3 t).IsWhole := hstage0_3 ((cfg0.slots t 3).cast nbuf0_3)
/-- The two accumulators: whole scoped buffers of the kernel's own, carried from point to point. -/
abbrev scM0_0 : Memref sig .tc .vmem S1024x64 .f32 := Memref.whole cc0_scratch0
abbrev scM0_1 : Memref sig .tc .vmem S1024x1 .f32 := Memref.whole cc0_scratch1
abbrev VS0_0 : View sig .tc .vmem S1024x64 .f32 := scM0_0.view
abbrev VS0_1 : View sig .tc .vmem S1024x1 .f32 := scM0_1.view

/-- The region's invariant with the two accumulators as memrefs owned at some contents. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d)) ∗ (∃ r, prngReg c r)) := by
  unfold Pipeline.ΦA; rw [scopedRest0_eq]; simp only [scM0_0, scM0_1, owns_whole]; try rfl

end Cert.Kernel.Body

end
-- ==== Proof.KbRunA.lean ====
/-
  The kernel's body run at the first bucket block (the accumulators are reset, then added to; the result windows are left alone).

  On whole staging buffers — the two input blocks at given contents, the result buffers at contents handed back untouched, the
  accumulators at anything — the body runs to its end without a fault and hands every buffer back: the inputs as
  they were, each buffer it stored into with its stores written, as a list of pieces (last store first) that the run itself
  finds.
-/
import proofs.«114592_j12567074308161_1_alg».proof.Proof.KbCases

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The body's run in this case, as the pieces its stores leave together with the proof that it runs. -/
noncomputable def kernelRun0_A (c : Dev nD) (i : grid0.Coords) (arg2 : Memref sig .tc .vmem S1024x1408 .f32) (harg2 : arg2.IsWhole) (arg3 : Memref sig .tc .vmem S1408x64 .f32) (harg3 : arg3.IsWhole) (arg4 : Memref sig .tc .vmem S1024x64 .f32) (harg4 : arg4.IsWhole) (arg5 : Memref sig .tc .vmem S1024x1 .f32) (harg5 : arg5.IsWhole) (arg6 : Memref sig .tc .vmem S1024x64 .f32) (harg6 : arg6.IsWhole) (arg7 : Memref sig .tc .vmem S1024x1 .f32) (harg7 : arg7.IsWhole) (hc0 : cond0_0 i) (hc1 : ¬cond0_1 i)
    (x0 : Vec F S1024x1408 .f32) (x1 : Vec F S1408x64 .f32) :
    Σ' (LS0 : List (View.Piece (Elt F) S1024x64 .f32)), { LS1 : List (View.Piece (Elt F) S1024x1 .f32) //
      ∀ (xi2 : Vec F S1024x64 .f32) (xi3 : Vec F S1024x1 .f32) (E : Set ℕ) (K : PUnit → sProp 𝕄),
        iprop(owns (c : Thread nD τ) arg2 fullShare x0
            ∗ owns (c : Thread nD τ) arg3 fullShare x1
            ∗ owns (c : Thread nD τ) arg4 fullShare xi2
            ∗ owns (c : Thread nD τ) arg5 fullShare xi3
            ∗ (∃ d, owns (c : Thread nD τ) arg6 fullShare d)
            ∗ (∃ d, owns (c : Thread nD τ) arg7 fullShare d)
            ∗ (iprop(owns (c : Thread nD τ) arg2 fullShare x0
                ∗ owns (c : Thread nD τ) arg3 fullShare x1
                ∗ owns (c : Thread nD τ) arg4 fullShare xi2
                ∗ owns (c : Thread nD τ) arg5 fullShare xi3
                ∗ (∃ f, arg6.view.loc (c : Thread nD τ) ↦[arg6.view.set]{fullShare} arg6.view.writes (Elt F) f LS0)
                ∗ (∃ f, arg7.view.loc (c : Thread nD τ) ↦[arg7.view.set]{fullShare} arg7.view.writes (Elt F) f LS1)) -∗ K ⟨⟩))
          ⊢ wp frame (wpE (defs₀ (F := F)) Variants.none c none) E (cc0__pool_kernel i arg2 harg2 arg3 harg3 arg4 harg4 arg5 harg5 arg6 harg6 arg7 harg7) K } := by
  refine ⟨?_, ?_, fun xi2 xi3 E K => ?run⟩
  case run =>
    simp only [cc0__pool_kernel_eq_skeleton]; unfold cc0__pool_kernel_skel
    unfold owns
    iintro ⟨⟨%f0, %hf0, H0⟩, ⟨%f1, %hf1, H1⟩, ⟨%f2, %hf2, H2⟩, ⟨%f3, %hf3, H3⟩, ⟨%ds0, %fs0, -, HS0⟩, ⟨%ds1, %fs1, -, HS1⟩, Hk⟩
    obtain rfl := harg2.eq_unread hf0; obtain rfl := harg3.eq_unread hf1; obtain rfl := harg4.eq_unread hf2; obtain rfl := harg5.eq_unread hf3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [HS0]; · iexists _; iexact HS0
    iexists _; iexact HS1

end Cert.Kernel.Body

end
-- ==== Proof.KbRunB.lean ====
/-
  The kernel's body run at a middle bucket block (the accumulators are added to; the result windows are left alone).

  On whole staging buffers — the two input blocks at given contents, the result buffers at contents handed back untouched, the
  accumulators at what the point before left — the body runs to its end without a fault and hands every buffer back: the inputs as
  they were, each buffer it stored into with its stores written, as a list of pieces (last store first) that the run itself
  finds.
-/
import proofs.«114592_j12567074308161_1_alg».proof.Proof.KbRunA

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The body's run in this case, as the pieces its stores leave together with the proof that it runs. -/
noncomputable def kernelRun0_B (c : Dev nD) (i : grid0.Coords) (arg2 : Memref sig .tc .vmem S1024x1408 .f32) (harg2 : arg2.IsWhole) (arg3 : Memref sig .tc .vmem S1408x64 .f32) (harg3 : arg3.IsWhole) (arg4 : Memref sig .tc .vmem S1024x64 .f32) (harg4 : arg4.IsWhole) (arg5 : Memref sig .tc .vmem S1024x1 .f32) (harg5 : arg5.IsWhole) (arg6 : Memref sig .tc .vmem S1024x64 .f32) (harg6 : arg6.IsWhole) (arg7 : Memref sig .tc .vmem S1024x1 .f32) (harg7 : arg7.IsWhole) (hc0 : ¬cond0_0 i) (hc1 : ¬cond0_1 i)
    (x0 : Vec F S1024x1408 .f32) (x1 : Vec F S1408x64 .f32) (xs0 : Vec F S1024x64 .f32) (xs1 : Vec F S1024x1 .f32) :
    Σ' (LS0 : List (View.Piece (Elt F) S1024x64 .f32)), { LS1 : List (View.Piece (Elt F) S1024x1 .f32) //
      ∀ (xi2 : Vec F S1024x64 .f32) (xi3 : Vec F S1024x1 .f32) (E : Set ℕ) (K : PUnit → sProp 𝕄),
        iprop(owns (c : Thread nD τ) arg2 fullShare x0
            ∗ owns (c : Thread nD τ) arg3 fullShare x1
            ∗ owns (c : Thread nD τ) arg4 fullShare xi2
            ∗ owns (c : Thread nD τ) arg5 fullShare xi3
            ∗ owns (c : Thread nD τ) arg6 fullShare xs0
            ∗ owns (c : Thread nD τ) arg7 fullShare xs1
            ∗ (iprop(owns (c : Thread nD τ) arg2 fullShare x0
                ∗ owns (c : Thread nD τ) arg3 fullShare x1
                ∗ owns (c : Thread nD τ) arg4 fullShare xi2
                ∗ owns (c : Thread nD τ) arg5 fullShare xi3
                ∗ (∃ f, arg6.view.loc (c : Thread nD τ) ↦[arg6.view.set]{fullShare} arg6.view.writes (Elt F) f LS0)
                ∗ (∃ f, arg7.view.loc (c : Thread nD τ) ↦[arg7.view.set]{fullShare} arg7.view.writes (Elt F) f LS1)) -∗ K ⟨⟩))
          ⊢ wp frame (wpE (defs₀ (F := F)) Variants.none c none) E (cc0__pool_kernel i arg2 harg2 arg3 harg3 arg4 harg4 arg5 harg5 arg6 harg6 arg7 harg7) K } := by
  refine ⟨?_, ?_, fun xi2 xi3 E K => ?run⟩
  case run =>
    simp only [cc0__pool_kernel_eq_skeleton]; unfold cc0__pool_kernel_skel
    unfold owns
    iintro ⟨⟨%f0, %hf0, H0⟩, ⟨%f1, %hf1, H1⟩, ⟨%f2, %hf2, H2⟩, ⟨%f3, %hf3, H3⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hf3; obtain rfl := harg6.eq_unread hfs0; obtain rfl := harg7.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [HS0]; · iexists _; iexact HS0
    iexists _; iexact HS1

end Cert.Kernel.Body

end
-- ==== Proof.KbRunC.lean ====
/-
  The kernel's body run at the last bucket block (the accumulators are added to, then copied into the two result blocks).

  On whole staging buffers — the two input blocks at given contents, the result buffers at anything, the
  accumulators at what the point before left — the body runs to its end without a fault and hands every buffer back: the inputs as
  they were, each buffer it stored into with its stores written, as a list of pieces (last store first) that the run itself
  finds.
-/
import proofs.«114592_j12567074308161_1_alg».proof.Proof.KbRunB

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The body's run in this case, as the pieces its stores leave together with the proof that it runs. -/
noncomputable def kernelRun0_C (c : Dev nD) (i : grid0.Coords) (arg2 : Memref sig .tc .vmem S1024x1408 .f32) (harg2 : arg2.IsWhole) (arg3 : Memref sig .tc .vmem S1408x64 .f32) (harg3 : arg3.IsWhole) (arg4 : Memref sig .tc .vmem S1024x64 .f32) (harg4 : arg4.IsWhole) (arg5 : Memref sig .tc .vmem S1024x1 .f32) (harg5 : arg5.IsWhole) (arg6 : Memref sig .tc .vmem S1024x64 .f32) (harg6 : arg6.IsWhole) (arg7 : Memref sig .tc .vmem S1024x1 .f32) (harg7 : arg7.IsWhole) (hc0 : ¬cond0_0 i) (hc1 : cond0_1 i)
    (x0 : Vec F S1024x1408 .f32) (x1 : Vec F S1408x64 .f32) (xs0 : Vec F S1024x64 .f32) (xs1 : Vec F S1024x1 .f32) :
    Σ' (L2 : List (View.Piece (Elt F) S1024x64 .f32)) (L3 : List (View.Piece (Elt F) S1024x1 .f32)) (LS0 : List (View.Piece (Elt F) S1024x64 .f32)), { LS1 : List (View.Piece (Elt F) S1024x1 .f32) //
      ∀ (E : Set ℕ) (K : PUnit → sProp 𝕄),
        iprop(owns (c : Thread nD τ) arg2 fullShare x0
            ∗ owns (c : Thread nD τ) arg3 fullShare x1
            ∗ (∃ d, owns (c : Thread nD τ) arg4 fullShare d)
            ∗ (∃ d, owns (c : Thread nD τ) arg5 fullShare d)
            ∗ owns (c : Thread nD τ) arg6 fullShare xs0
            ∗ owns (c : Thread nD τ) arg7 fullShare xs1
            ∗ (iprop(owns (c : Thread nD τ) arg2 fullShare x0
                ∗ owns (c : Thread nD τ) arg3 fullShare x1
                ∗ (∃ f, arg4.view.loc (c : Thread nD τ) ↦[arg4.view.set]{fullShare} arg4.view.writes (Elt F) f L2)
                ∗ (∃ f, arg5.view.loc (c : Thread nD τ) ↦[arg5.view.set]{fullShare} arg5.view.writes (Elt F) f L3)
                ∗ (∃ f, arg6.view.loc (c : Thread nD τ) ↦[arg6.view.set]{fullShare} arg6.view.writes (Elt F) f LS0)
                ∗ (∃ f, arg7.view.loc (c : Thread nD τ) ↦[arg7.view.set]{fullShare} arg7.view.writes (Elt F) f LS1)) -∗ K ⟨⟩))
          ⊢ wp frame (wpE (defs₀ (F := F)) Variants.none c none) E (cc0__pool_kernel i arg2 harg2 arg3 harg3 arg4 harg4 arg5 harg5 arg6 harg6 arg7 harg7) K } := by
  refine ⟨?_, ?_, ?_, ?_, fun E K => ?run⟩
  case run =>
    simp only [cc0__pool_kernel_eq_skeleton]; unfold cc0__pool_kernel_skel
    unfold owns
    iintro ⟨⟨%f0, %hf0, H0⟩, ⟨%f1, %hf1, H1⟩, ⟨%d2, %f2, -, H2⟩, ⟨%d3, %f3, -, H3⟩, ⟨%fs0, %hfs0, HS0⟩, ⟨%fs1, %hfs1, HS1⟩, Hk⟩
    obtain rfl := harg2.eq_unread hf0; obtain rfl := harg3.eq_unread hf1; obtain rfl := harg6.eq_unread hfs0; obtain rfl := harg7.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    isplitl [H3]; · iexists _; iexact H3
    isplitl [HS0]; · iexists _; iexact HS0
    iexists _; iexact HS1

end Cert.Kernel.Body

end
-- ==== Proof.KbFrame.lean ====
/-
  The frame of the program: it runs to its end, nothing faults, and its two argument arrays end unchanged.

  The Pallas call is a pipeline over the 2 x 71 grid. What has to be said about its body is said point by point: each
  input's staging buffer holds the input's block at the point (no block is cut at the array's end, so the fetch fills the
  whole buffer); the two accumulators hold, after point `t`, what the body's stores left there (`outsAt0`: at a first bucket
  block computed from the reset value, otherwise from what the point before left); the two result blocks are stored only
  at a last bucket block, and are left alone and not written back elsewhere. With these as the proof data, the body's run in
  each of the three cases is the body's obligation at every point, and the library's launch theorem for a pipeline followed
  by host operations gives the run of the whole program.
-/
import proofs.«114592_j12567074308161_1_alg».proof.Proof.KbRunC

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What each case leaves in the buffers it stores into -/

/-- At the first bucket block the stores into the matrix accumulator tile it, so they cover it. -/
theorem scover0_A_0 (c : Dev nD) (i : grid0.Coords) (arg2 : Memref sig .tc .vmem S1024x1408 .f32) (harg2 : arg2.IsWhole) (arg3 : Memref sig .tc .vmem S1408x64 .f32) (harg3 : arg3.IsWhole) (arg4 : Memref sig .tc .vmem S1024x64 .f32) (harg4 : arg4.IsWhole) (arg5 : Memref sig .tc .vmem S1024x1 .f32) (harg5 : arg5.IsWhole) (arg6 : Memref sig .tc .vmem S1024x64 .f32) (harg6 : arg6.IsWhole) (arg7 : Memref sig .tc .vmem S1024x1 .f32) (harg7 : arg7.IsWhole) (hc0 : cond0_0 i) (hc1 : ¬cond0_1 i)
    (x0 : Vec F S1024x1408 .f32) (x1 : Vec F S1408x64 .f32) (y : S1024x64.Idx) :
    ∃ pc ∈ (kernelRun0_A c i arg2 harg2 arg3 harg3 arg4 harg4 arg5 harg5 arg6 harg6 arg7 harg7 hc0 hc1 x0 x1).1, y ∈ pc.1.set :=
  View.cover_of_tiledL (kernelRun0_A c i arg2 harg2 arg3 harg3 arg4 harg4 arg5 harg5 arg6 harg6 arg7 harg7 hc0 hc1 x0 x1).1 S1024x64.size (by sl_kernel_rfl) y
/-- What that point leaves in the matrix accumulator: its stores read back. -/
def sout0_A_0 (c : Dev nD) (i : grid0.Coords) (arg2 : Memref sig .tc .vmem S1024x1408 .f32) (harg2 : arg2.IsWhole) (arg3 : Memref sig .tc .vmem S1408x64 .f32) (harg3 : arg3.IsWhole) (arg4 : Memref sig .tc .vmem S1024x64 .f32) (harg4 : arg4.IsWhole) (arg5 : Memref sig .tc .vmem S1024x1 .f32) (harg5 : arg5.IsWhole) (arg6 : Memref sig .tc .vmem S1024x64 .f32) (harg6 : arg6.IsWhole) (arg7 : Memref sig .tc .vmem S1024x1 .f32) (harg7 : arg7.IsWhole) (hc0 : cond0_0 i) (hc1 : ¬cond0_1 i)
    (x0 : Vec F S1024x1408 .f32) (x1 : Vec F S1408x64 .f32) : Vec F S1024x64 .f32 :=
  VS0_0.read (Elt F) (VS0_0.writes (Elt F) VS0_0.junk (kernelRun0_A c i arg2 harg2 arg3 harg3 arg4 harg4 arg5 harg5 arg6 harg6 arg7 harg7 hc0 hc1 x0 x1).1)
/-- The same for the column accumulator of row sums. -/
theorem scover0_A_1 (c : Dev nD) (i : grid0.Coords) (arg2 : Memref sig .tc .vmem S1024x1408 .f32) (harg2 : arg2.IsWhole) (arg3 : Memref sig .tc .vmem S1408x64 .f32) (harg3 : arg3.IsWhole) (arg4 : Memref sig .tc .vmem S1024x64 .f32) (harg4 : arg4.IsWhole) (arg5 : Memref sig .tc .vmem S1024x1 .f32) (harg5 : arg5.IsWhole) (arg6 : Memref sig .tc .vmem S1024x64 .f32) (harg6 : arg6.IsWhole) (arg7 : Memref sig .tc .vmem S1024x1 .f32) (harg7 : arg7.IsWhole) (hc0 : cond0_0 i) (hc1 : ¬cond0_1 i)
    (x0 : Vec F S1024x1408 .f32) (x1 : Vec F S1408x64 .f32) (y : S1024x1.Idx) :
    ∃ pc ∈ (kernelRun0_A c i arg2 harg2 arg3 harg3 arg4 harg4 arg5 harg5 arg6 harg6 arg7 harg7 hc0 hc1 x0 x1).2.1, y ∈ pc.1.set :=
  View.cover_of_tiledL (kernelRun0_A c i arg2 harg2 arg3 harg3 arg4 harg4 arg5 harg5 arg6 harg6 arg7 harg7 hc0 hc1 x0 x1).2.1 S1024x1.size (by sl_kernel_rfl) y
def sout0_A_1 (c : Dev nD) (i : grid0.Coords) (arg2 : Memref sig .tc .vmem S1024x1408 .f32) (harg2 : arg2.IsWhole) (arg3 : Memref sig .tc .vmem S1408x64 .f32) (harg3 : arg3.IsWhole) (arg4 : Memref sig .tc .vmem S1024x64 .f32) (harg4 : arg4.IsWhole) (arg5 : Memref sig .tc .vmem S1024x1 .f32) (harg5 : arg5.IsWhole) (arg6 : Memref sig .tc .vmem S1024x64 .f32) (harg6 : arg6.IsWhole) (arg7 : Memref sig .tc .vmem S1024x1 .f32) (harg7 : arg7.IsWhole) (hc0 : cond0_0 i) (hc1 : ¬cond0_1 i)
    (x0 : Vec F S1024x1408 .f32) (x1 : Vec F S1408x64 .f32) : Vec F S1024x1 .f32 :=
  VS0_1.read (Elt F) (VS0_1.writes (Elt F) VS0_1.junk (kernelRun0_A c i arg2 harg2 arg3 harg3 arg4 harg4 arg5 harg5 arg6 harg6 arg7 harg7 hc0 hc1 x0 x1).2.1)

/-- At a middle bucket block the stores into the matrix accumulator tile it, so they cover it. -/
theorem scover0_B_0 (c : Dev nD) (i : grid0.Coords) (arg2 : Memref sig .tc .vmem S1024x1408 .f32) (harg2 : arg2.IsWhole) (arg3 : Memref sig .tc .vmem S1408x64 .f32) (harg3 : arg3.IsWhole) (arg4 : Memref sig .tc .vmem S1024x64 .f32) (harg4 : arg4.IsWhole) (arg5 : Memref sig .tc .vmem S1024x1 .f32) (harg5 : arg5.IsWhole) (arg6 : Memref sig .tc .vmem S1024x64 .f32) (harg6 : arg6.IsWhole) (arg7 : Memref sig .tc .vmem S1024x1 .f32) (harg7 : arg7.IsWhole) (hc0 : ¬cond0_0 i) (hc1 : ¬cond0_1 i)
    (x0 : Vec F S1024x1408 .f32) (x1 : Vec F S1408x64 .f32) (xs0 : Vec F S1024x64 .f32) (xs1 : Vec F S1024x1 .f32) (y : S1024x64.Idx) :
    ∃ pc ∈ (kernelRun0_B c i arg2 harg2 arg3 harg3 arg4 harg4 arg5 harg5 arg6 harg6 arg7 harg7 hc0 hc1 x0 x1 xs0 xs1).1, y ∈ pc.1.set :=
  View.cover_of_tiledL (kernelRun0_B c i arg2 harg2 arg3 harg3 arg4 harg4 arg5 harg5 arg6 harg6 arg7 harg7 hc0 hc1 x0 x1 xs0 xs1).1 S1024x64.size (by sl_kernel_rfl) y
/-- What that point leaves in the matrix accumulator: its stores read back. -/
def sout0_B_0 (c : Dev nD) (i : grid0.Coords) (arg2 : Memref sig .tc .vmem S1024x1408 .f32) (harg2 : arg2.IsWhole) (arg3 : Memref sig .tc .vmem S1408x64 .f32) (harg3 : arg3.IsWhole) (arg4 : Memref sig .tc .vmem S1024x64 .f32) (harg4 : arg4.IsWhole) (arg5 : Memref sig .tc .vmem S1024x1 .f32) (harg5 : arg5.IsWhole) (arg6 : Memref sig .tc .vmem S1024x64 .f32) (harg6 : arg6.IsWhole) (arg7 : Memref sig .tc .vmem S1024x1 .f32) (harg7 : arg7.IsWhole) (hc0 : ¬cond0_0 i) (hc1 : ¬cond0_1 i)
    (x0 : Vec F S1024x1408 .f32) (x1 : Vec F S1408x64 .f32) (xs0 : Vec F S1024x64 .f32) (xs1 : Vec F S1024x1 .f32) : Vec F S1024x64 .f32 :=
  VS0_0.read (Elt F) (VS0_0.writes (Elt F) VS0_0.junk (kernelRun0_B c i arg2 harg2 arg3 harg3 arg4 harg4 arg5 harg5 arg6 harg6 arg7 harg7 hc0 hc1 x0 x1 xs0 xs1).1)
/-- The same for the column accumulator of row sums. -/
theorem scover0_B_1 (c : Dev nD) (i : grid0.Coords) (arg2 : Memref sig .tc .vmem S1024x1408 .f32) (harg2 : arg2.IsWhole) (arg3 : Memref sig .tc .vmem S1408x64 .f32) (harg3 : arg3.IsWhole) (arg4 : Memref sig .tc .vmem S1024x64 .f32) (harg4 : arg4.IsWhole) (arg5 : Memref sig .tc .vmem S1024x1 .f32) (harg5 : arg5.IsWhole) (arg6 : Memref sig .tc .vmem S1024x64 .f32) (harg6 : arg6.IsWhole) (arg7 : Memref sig .tc .vmem S1024x1 .f32) (harg7 : arg7.IsWhole) (hc0 : ¬cond0_0 i) (hc1 : ¬cond0_1 i)
    (x0 : Vec F S1024x1408 .f32) (x1 : Vec F S1408x64 .f32) (xs0 : Vec F S1024x64 .f32) (xs1 : Vec F S1024x1 .f32) (y : S1024x1.Idx) :
    ∃ pc ∈ (kernelRun0_B c i arg2 harg2 arg3 harg3 arg4 harg4 arg5 harg5 arg6 harg6 arg7 harg7 hc0 hc1 x0 x1 xs0 xs1).2.1, y ∈ pc.1.set :=
  View.cover_of_tiledL (kernelRun0_B c i arg2 harg2 arg3 harg3 arg4 harg4 arg5 harg5 arg6 harg6 arg7 harg7 hc0 hc1 x0 x1 xs0 xs1).2.1 S1024x1.size (by sl_kernel_rfl) y
def sout0_B_1 (c : Dev nD) (i : grid0.Coords) (arg2 : Memref sig .tc .vmem S1024x1408 .f32) (harg2 : arg2.IsWhole) (arg3 : Memref sig .tc .vmem S1408x64 .f32) (harg3 : arg3.IsWhole) (arg4 : Memref sig .tc .vmem S1024x64 .f32) (harg4 : arg4.IsWhole) (arg5 : Memref sig .tc .vmem S1024x1 .f32) (harg5 : arg5.IsWhole) (arg6 : Memref sig .tc .vmem S1024x64 .f32) (harg6 : arg6.IsWhole) (arg7 : Memref sig .tc .vmem S1024x1 .f32) (harg7 : arg7.IsWhole) (hc0 : ¬cond0_0 i) (hc1 : ¬cond0_1 i)
    (x0 : Vec F S1024x1408 .f32) (x1 : Vec F S1408x64 .f32) (xs0 : Vec F S1024x64 .f32) (xs1 : Vec F S1024x1 .f32) : Vec F S1024x1 .f32 :=
  VS0_1.read (Elt F) (VS0_1.writes (Elt F) VS0_1.junk (kernelRun0_B c i arg2 harg2 arg3 harg3 arg4 harg4 arg5 harg5 arg6 harg6 arg7 harg7 hc0 hc1 x0 x1 xs0 xs1).2.1)

/-- At the last bucket block the stores into the matrix accumulator tile it, so they cover it. -/
theorem scover0_C_0 (c : Dev nD) (i : grid0.Coords) (arg2 : Memref sig .tc .vmem S1024x1408 .f32) (harg2 : arg2.IsWhole) (arg3 : Memref sig .tc .vmem S1408x64 .f32) (harg3 : arg3.IsWhole) (arg4 : Memref sig .tc .vmem S1024x64 .f32) (harg4 : arg4.IsWhole) (arg5 : Memref sig .tc .vmem S1024x1 .f32) (harg5 : arg5.IsWhole) (arg6 : Memref sig .tc .vmem S1024x64 .f32) (harg6 : arg6.IsWhole) (arg7 : Memref sig .tc .vmem S1024x1 .f32) (harg7 : arg7.IsWhole) (hc0 : ¬cond0_0 i) (hc1 : cond0_1 i)
    (x0 : Vec F S1024x1408 .f32) (x1 : Vec F S1408x64 .f32) (xs0 : Vec F S1024x64 .f32) (xs1 : Vec F S1024x1 .f32) (y : S1024x64.Idx) :
    ∃ pc ∈ (kernelRun0_C c i arg2 harg2 arg3 harg3 arg4 harg4 arg5 harg5 arg6 harg6 arg7 harg7 hc0 hc1 x0 x1 xs0 xs1).2.2.1, y ∈ pc.1.set :=
  View.cover_of_tiledL (kernelRun0_C c i arg2 harg2 arg3 harg3 arg4 harg4 arg5 harg5 arg6 harg6 arg7 harg7 hc0 hc1 x0 x1 xs0 xs1).2.2.1 S1024x64.size (by sl_kernel_rfl) y
/-- What that point leaves in the matrix accumulator: its stores read back. -/
def sout0_C_0 (c : Dev nD) (i : grid0.Coords) (arg2 : Memref sig .tc .vmem S1024x1408 .f32) (harg2 : arg2.IsWhole) (arg3 : Memref sig .tc .vmem S1408x64 .f32) (harg3 : arg3.IsWhole) (arg4 : Memref sig .tc .vmem S1024x64 .f32) (harg4 : arg4.IsWhole) (arg5 : Memref sig .tc .vmem S1024x1 .f32) (harg5 : arg5.IsWhole) (arg6 : Memref sig .tc .vmem S1024x64 .f32) (harg6 : arg6.IsWhole) (arg7 : Memref sig .tc .vmem S1024x1 .f32) (harg7 : arg7.IsWhole) (hc0 : ¬cond0_0 i) (hc1 : cond0_1 i)
    (x0 : Vec F S1024x1408 .f32) (x1 : Vec F S1408x64 .f32) (xs0 : Vec F S1024x64 .f32) (xs1 : Vec F S1024x1 .f32) : Vec F S1024x64 .f32 :=
  VS0_0.read (Elt F) (VS0_0.writes (Elt F) VS0_0.junk (kernelRun0_C c i arg2 harg2 arg3 harg3 arg4 harg4 arg5 harg5 arg6 harg6 arg7 harg7 hc0 hc1 x0 x1 xs0 xs1).2.2.1)
/-- The same for the column accumulator of row sums. -/
theorem scover0_C_1 (c : Dev nD) (i : grid0.Coords) (arg2 : Memref sig .tc .vmem S1024x1408 .f32) (harg2 : arg2.IsWhole) (arg3 : Memref sig .tc .vmem S1408x64 .f32) (harg3 : arg3.IsWhole) (arg4 : Memref sig .tc .vmem S1024x64 .f32) (harg4 : arg4.IsWhole) (arg5 : Memref sig .tc .vmem S1024x1 .f32) (harg5 : arg5.IsWhole) (arg6 : Memref sig .tc .vmem S1024x64 .f32) (harg6 : arg6.IsWhole) (arg7 : Memref sig .tc .vmem S1024x1 .f32) (harg7 : arg7.IsWhole) (hc0 : ¬cond0_0 i) (hc1 : cond0_1 i)
    (x0 : Vec F S1024x1408 .f32) (x1 : Vec F S1408x64 .f32) (xs0 : Vec F S1024x64 .f32) (xs1 : Vec F S1024x1 .f32) (y : S1024x1.Idx) :
    ∃ pc ∈ (kernelRun0_C c i arg2 harg2 arg3 harg3 arg4 harg4 arg5 harg5 arg6 harg6 arg7 harg7 hc0 hc1 x0 x1 xs0 xs1).2.2.2.1, y ∈ pc.1.set :=
  View.cover_of_tiledL (kernelRun0_C c i arg2 harg2 arg3 harg3 arg4 harg4 arg5 harg5 arg6 harg6 arg7 harg7 hc0 hc1 x0 x1 xs0 xs1).2.2.2.1 S1024x1.size (by sl_kernel_rfl) y
def sout0_C_1 (c : Dev nD) (i : grid0.Coords) (arg2 : Memref sig .tc .vmem S1024x1408 .f32) (harg2 : arg2.IsWhole) (arg3 : Memref sig .tc .vmem S1408x64 .f32) (harg3 : arg3.IsWhole) (arg4 : Memref sig .tc .vmem S1024x64 .f32) (harg4 : arg4.IsWhole) (arg5 : Memref sig .tc .vmem S1024x1 .f32) (harg5 : arg5.IsWhole) (arg6 : Memref sig .tc .vmem S1024x64 .f32) (harg6 : arg6.IsWhole) (arg7 : Memref sig .tc .vmem S1024x1 .f32) (harg7 : arg7.IsWhole) (hc0 : ¬cond0_0 i) (hc1 : cond0_1 i)
    (x0 : Vec F S1024x1408 .f32) (x1 : Vec F S1408x64 .f32) (xs0 : Vec F S1024x64 .f32) (xs1 : Vec F S1024x1 .f32) : Vec F S1024x1 .f32 :=
  VS0_1.read (Elt F) (VS0_1.writes (Elt F) VS0_1.junk (kernelRun0_C c i arg2 harg2 arg3 harg3 arg4 harg4 arg5 harg5 arg6 harg6 arg7 harg7 hc0 hc1 x0 x1 xs0 xs1).2.2.2.1)

/-- At the last bucket block the store into each result block covers it. -/
theorem cover0_C_2 (c : Dev nD) (i : grid0.Coords) (arg2 : Memref sig .tc .vmem S1024x1408 .f32) (harg2 : arg2.IsWhole) (arg3 : Memref sig .tc .vmem S1408x64 .f32) (harg3 : arg3.IsWhole) (arg4 : Memref sig .tc .vmem S1024x64 .f32) (harg4 : arg4.IsWhole) (arg5 : Memref sig .tc .vmem S1024x1 .f32) (harg5 : arg5.IsWhole) (arg6 : Memref sig .tc .vmem S1024x64 .f32) (harg6 : arg6.IsWhole) (arg7 : Memref sig .tc .vmem S1024x1 .f32) (harg7 : arg7.IsWhole) (hc0 : ¬cond0_0 i) (hc1 : cond0_1 i)
    (x0 : Vec F S1024x1408 .f32) (x1 : Vec F S1408x64 .f32) (xs0 : Vec F S1024x64 .f32) (xs1 : Vec F S1024x1 .f32) (y : S1024x64.Idx) :
    ∃ pc ∈ (kernelRun0_C c i arg2 harg2 arg3 harg3 arg4 harg4 arg5 harg5 arg6 harg6 arg7 harg7 hc0 hc1 x0 x1 xs0 xs1).1, y ∈ pc.1.set :=
  View.cover_of_tiledL (kernelRun0_C c i arg2 harg2 arg3 harg3 arg4 harg4 arg5 harg5 arg6 harg6 arg7 harg7 hc0 hc1 x0 x1 xs0 xs1).1 S1024x64.size (by sl_kernel_rfl) y
/-- What it leaves in the pooled result's block. -/
def out0_C_2 (c : Dev nD) (i : grid0.Coords) (arg2 : Memref sig .tc .vmem S1024x1408 .f32) (harg2 : arg2.IsWhole) (arg3 : Memref sig .tc .vmem S1408x64 .f32) (harg3 : arg3.IsWhole) (arg4 : Memref sig .tc .vmem S1024x64 .f32) (harg4 : arg4.IsWhole) (arg5 : Memref sig .tc .vmem S1024x1 .f32) (harg5 : arg5.IsWhole) (arg6 : Memref sig .tc .vmem S1024x64 .f32) (harg6 : arg6.IsWhole) (arg7 : Memref sig .tc .vmem S1024x1 .f32) (harg7 : arg7.IsWhole) (hc0 : ¬cond0_0 i) (hc1 : cond0_1 i)
    (x0 : Vec F S1024x1408 .f32) (x1 : Vec F S1408x64 .f32) (xs0 : Vec F S1024x64 .f32) (xs1 : Vec F S1024x1 .f32) : Vec F S1024x64 .f32 :=
  VO0_2.read (Elt F) (VO0_2.writes (Elt F) VO0_2.junk (kernelRun0_C c i arg2 harg2 arg3 harg3 arg4 harg4 arg5 harg5 arg6 harg6 arg7 harg7 hc0 hc1 x0 x1 xs0 xs1).1)
theorem cover0_C_3 (c : Dev nD) (i : grid0.Coords) (arg2 : Memref sig .tc .vmem S1024x1408 .f32) (harg2 : arg2.IsWhole) (arg3 : Memref sig .tc .vmem S1408x64 .f32) (harg3 : arg3.IsWhole) (arg4 : Memref sig .tc .vmem S1024x64 .f32) (harg4 : arg4.IsWhole) (arg5 : Memref sig .tc .vmem S1024x1 .f32) (harg5 : arg5.IsWhole) (arg6 : Memref sig .tc .vmem S1024x64 .f32) (harg6 : arg6.IsWhole) (arg7 : Memref sig .tc .vmem S1024x1 .f32) (harg7 : arg7.IsWhole) (hc0 : ¬cond0_0 i) (hc1 : cond0_1 i)
    (x0 : Vec F S1024x1408 .f32) (x1 : Vec F S1408x64 .f32) (xs0 : Vec F S1024x64 .f32) (xs1 : Vec F S1024x1 .f32) (y : S1024x1.Idx) :
    ∃ pc ∈ (kernelRun0_C c i arg2 harg2 arg3 harg3 arg4 harg4 arg5 harg5 arg6 harg6 arg7 harg7 hc0 hc1 x0 x1 xs0 xs1).2.1, y ∈ pc.1.set :=
  View.cover_of_tiledL (kernelRun0_C c i arg2 harg2 arg3 harg3 arg4 harg4 arg5 harg5 arg6 harg6 arg7 harg7 hc0 hc1 x0 x1 xs0 xs1).2.1 S1024x1.size (by sl_kernel_rfl) y
/-- What it leaves in the row sums' block. -/
def out0_C_3 (c : Dev nD) (i : grid0.Coords) (arg2 : Memref sig .tc .vmem S1024x1408 .f32) (harg2 : arg2.IsWhole) (arg3 : Memref sig .tc .vmem S1408x64 .f32) (harg3 : arg3.IsWhole) (arg4 : Memref sig .tc .vmem S1024x64 .f32) (harg4 : arg4.IsWhole) (arg5 : Memref sig .tc .vmem S1024x1 .f32) (harg5 : arg5.IsWhole) (arg6 : Memref sig .tc .vmem S1024x64 .f32) (harg6 : arg6.IsWhole) (arg7 : Memref sig .tc .vmem S1024x1 .f32) (harg7 : arg7.IsWhole) (hc0 : ¬cond0_0 i) (hc1 : cond0_1 i)
    (x0 : Vec F S1024x1408 .f32) (x1 : Vec F S1408x64 .f32) (xs0 : Vec F S1024x64 .f32) (xs1 : Vec F S1024x1 .f32) : Vec F S1024x1 .f32 :=
  VO0_3.read (Elt F) (VO0_3.writes (Elt F) VO0_3.junk (kernelRun0_C c i arg2 harg2 arg3 harg3 arg4 harg4 arg5 harg5 arg6 harg6 arg7 harg7 hc0 hc1 x0 x1 xs0 xs1).2.1)

/-! ## The input blocks -/

/-- The block of the first argument (the multi-hot inputs) that point `t` reads: rows 1024·(t/71)…, columns 1408·(t%71)…,
    as the staging buffer holds it after the fetch. (The fetch fills the whole buffer; the filler is never seen.) -/
def xb0 (c : Dev nD) (t : Fin cfg0.N) : Vec F S1024x1408 .f32 :=
  (cfg0.win 0).fill (grid0.coords t) (fun _ => Classical.choice (Elt.nonempty F .f32)) (iblk m c 0 t)
/-- The block of the second argument (the embedding table) that point `t` reads: rows 1408·(t%71)…. -/
def xb1 (c : Dev nD) (t : Fin cfg0.N) : Vec F S1408x64 .f32 :=
  (cfg0.win 1).fill (grid0.coords t) (fun _ => Classical.choice (Elt.nonempty F .f32)) (iblk m c 1 t)

/-! ## What the buffers hold after each point -/

/-- After point `n`: the pooled result's staging buffer, the row sums' staging buffer, the matrix accumulator, the column
    accumulator. (Away from a last bucket block the first two components are placeholders: the result windows are idle
    there and nothing reads them.) -/
def outsAt0 (c : Dev nD) : (n : ℕ) → n < cfg0.N → Vec F S1024x64 .f32 × Vec F S1024x1 .f32 × Vec F S1024x64 .f32 × Vec F S1024x1 .f32
  | 0, hn => (sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) scM0_0 (Memref.isWhole_whole _) scM0_1 (Memref.isWhole_whole _) ((hcond0_0 ⟨0, hn⟩).mpr (Nat.zero_mod _)) (fun h => (fun h => by (try dsimp only at h); omega) ((hcond0_1 ⟨0, hn⟩).mp h)) (xb0 m c ⟨0, hn⟩) (xb1 m c ⟨0, hn⟩), sout0_A_1 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) scM0_0 (Memref.isWhole_whole _) scM0_1 (Memref.isWhole_whole _) ((hcond0_0 ⟨0, hn⟩).mpr (Nat.zero_mod _)) (fun h => (fun h => by (try dsimp only at h); omega) ((hcond0_1 ⟨0, hn⟩).mp h)) (xb0 m c ⟨0, hn⟩) (xb1 m c ⟨0, hn⟩), sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) scM0_0 (Memref.isWhole_whole _) scM0_1 (Memref.isWhole_whole _) ((hcond0_0 ⟨0, hn⟩).mpr (Nat.zero_mod _)) (fun h => (fun h => by (try dsimp only at h); omega) ((hcond0_1 ⟨0, hn⟩).mp h)) (xb0 m c ⟨0, hn⟩) (xb1 m c ⟨0, hn⟩), sout0_A_1 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) scM0_0 (Memref.isWhole_whole _) scM0_1 (Memref.isWhole_whole _) ((hcond0_0 ⟨0, hn⟩).mpr (Nat.zero_mod _)) (fun h => (fun h => by (try dsimp only at h); omega) ((hcond0_1 ⟨0, hn⟩).mp h)) (xb0 m c ⟨0, hn⟩) (xb1 m c ⟨0, hn⟩))
  | n + 1, hn =>
    if h0 : (n + 1) % 71 = 0 then
      if h1 : (n + 1) % 71 = 70 then
        False.elim (by omega)
      else
        (sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) scM0_1 (Memref.isWhole_whole _) ((hcond0_0 ⟨n + 1, hn⟩).mpr h0) (fun h => h1 ((hcond0_1 ⟨n + 1, hn⟩).mp h)) (xb0 m c ⟨n + 1, hn⟩) (xb1 m c ⟨n + 1, hn⟩), sout0_A_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) scM0_1 (Memref.isWhole_whole _) ((hcond0_0 ⟨n + 1, hn⟩).mpr h0) (fun h => h1 ((hcond0_1 ⟨n + 1, hn⟩).mp h)) (xb0 m c ⟨n + 1, hn⟩) (xb1 m c ⟨n + 1, hn⟩), sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) scM0_1 (Memref.isWhole_whole _) ((hcond0_0 ⟨n + 1, hn⟩).mpr h0) (fun h => h1 ((hcond0_1 ⟨n + 1, hn⟩).mp h)) (xb0 m c ⟨n + 1, hn⟩) (xb1 m c ⟨n + 1, hn⟩), sout0_A_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) scM0_1 (Memref.isWhole_whole _) ((hcond0_0 ⟨n + 1, hn⟩).mpr h0) (fun h => h1 ((hcond0_1 ⟨n + 1, hn⟩).mp h)) (xb0 m c ⟨n + 1, hn⟩) (xb1 m c ⟨n + 1, hn⟩))
    else
      if h1 : (n + 1) % 71 = 70 then
        (out0_C_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) scM0_1 (Memref.isWhole_whole _) (fun h => h0 ((hcond0_0 ⟨n + 1, hn⟩).mp h)) ((hcond0_1 ⟨n + 1, hn⟩).mpr h1) (xb0 m c ⟨n + 1, hn⟩) (xb1 m c ⟨n + 1, hn⟩) (outsAt0 c n (Nat.lt_of_succ_lt hn)).2.2.1 (outsAt0 c n (Nat.lt_of_succ_lt hn)).2.2.2, out0_C_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) scM0_1 (Memref.isWhole_whole _) (fun h => h0 ((hcond0_0 ⟨n + 1, hn⟩).mp h)) ((hcond0_1 ⟨n + 1, hn⟩).mpr h1) (xb0 m c ⟨n + 1, hn⟩) (xb1 m c ⟨n + 1, hn⟩) (outsAt0 c n (Nat.lt_of_succ_lt hn)).2.2.1 (outsAt0 c n (Nat.lt_of_succ_lt hn)).2.2.2, sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) scM0_1 (Memref.isWhole_whole _) (fun h => h0 ((hcond0_0 ⟨n + 1, hn⟩).mp h)) ((hcond0_1 ⟨n + 1, hn⟩).mpr h1) (xb0 m c ⟨n + 1, hn⟩) (xb1 m c ⟨n + 1, hn⟩) (outsAt0 c n (Nat.lt_of_succ_lt hn)).2.2.1 (outsAt0 c n (Nat.lt_of_succ_lt hn)).2.2.2, sout0_C_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) scM0_1 (Memref.isWhole_whole _) (fun h => h0 ((hcond0_0 ⟨n + 1, hn⟩).mp h)) ((hcond0_1 ⟨n + 1, hn⟩).mpr h1) (xb0 m c ⟨n + 1, hn⟩) (xb1 m c ⟨n + 1, hn⟩) (outsAt0 c n (Nat.lt_of_succ_lt hn)).2.2.1 (outsAt0 c n (Nat.lt_of_succ_lt hn)).2.2.2)
      else
        (sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) scM0_1 (Memref.isWhole_whole _) (fun h => h0 ((hcond0_0 ⟨n + 1, hn⟩).mp h)) (fun h => h1 ((hcond0_1 ⟨n + 1, hn⟩).mp h)) (xb0 m c ⟨n + 1, hn⟩) (xb1 m c ⟨n + 1, hn⟩) (outsAt0 c n (Nat.lt_of_succ_lt hn)).2.2.1 (outsAt0 c n (Nat.lt_of_succ_lt hn)).2.2.2, sout0_B_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) scM0_1 (Memref.isWhole_whole _) (fun h => h0 ((hcond0_0 ⟨n + 1, hn⟩).mp h)) (fun h => h1 ((hcond0_1 ⟨n + 1, hn⟩).mp h)) (xb0 m c ⟨n + 1, hn⟩) (xb1 m c ⟨n + 1, hn⟩) (outsAt0 c n (Nat.lt_of_succ_lt hn)).2.2.1 (outsAt0 c n (Nat.lt_of_succ_lt hn)).2.2.2, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) scM0_1 (Memref.isWhole_whole _) (fun h => h0 ((hcond0_0 ⟨n + 1, hn⟩).mp h)) (fun h => h1 ((hcond0_1 ⟨n + 1, hn⟩).mp h)) (xb0 m c ⟨n + 1, hn⟩) (xb1 m c ⟨n + 1, hn⟩) (outsAt0 c n (Nat.lt_of_succ_lt hn)).2.2.1 (outsAt0 c n (Nat.lt_of_succ_lt hn)).2.2.2, sout0_B_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) scM0_1 (Memref.isWhole_whole _) (fun h => h0 ((hcond0_0 ⟨n + 1, hn⟩).mp h)) (fun h => h1 ((hcond0_1 ⟨n + 1, hn⟩).mp h)) (xb0 m c ⟨n + 1, hn⟩) (xb1 m c ⟨n + 1, hn⟩) (outsAt0 c n (Nat.lt_of_succ_lt hn)).2.2.1 (outsAt0 c n (Nat.lt_of_succ_lt hn)).2.2.2)

theorem outsAt0_A (c : Dev nD) (t : Fin cfg0.N) (h0 : t.val % 71 = 0) (h1 : ¬t.val % 71 = 70) :
    outsAt0 m c t.val t.isLt = (sout0_A_0 c (grid0.coords t) (ms0_0 t) (hs0_0 t) (ms0_1 t) (hs0_1 t) (ms0_2 t) (hs0_2 t) (ms0_3 t) (hs0_3 t) scM0_0 (Memref.isWhole_whole _) scM0_1 (Memref.isWhole_whole _) ((hcond0_0 t).mpr h0) (fun h => h1 ((hcond0_1 t).mp h)) (xb0 m c t) (xb1 m c t), sout0_A_1 c (grid0.coords t) (ms0_0 t) (hs0_0 t) (ms0_1 t) (hs0_1 t) (ms0_2 t) (hs0_2 t) (ms0_3 t) (hs0_3 t) scM0_0 (Memref.isWhole_whole _) scM0_1 (Memref.isWhole_whole _) ((hcond0_0 t).mpr h0) (fun h => h1 ((hcond0_1 t).mp h)) (xb0 m c t) (xb1 m c t), sout0_A_0 c (grid0.coords t) (ms0_0 t) (hs0_0 t) (ms0_1 t) (hs0_1 t) (ms0_2 t) (hs0_2 t) (ms0_3 t) (hs0_3 t) scM0_0 (Memref.isWhole_whole _) scM0_1 (Memref.isWhole_whole _) ((hcond0_0 t).mpr h0) (fun h => h1 ((hcond0_1 t).mp h)) (xb0 m c t) (xb1 m c t), sout0_A_1 c (grid0.coords t) (ms0_0 t) (hs0_0 t) (ms0_1 t) (hs0_1 t) (ms0_2 t) (hs0_2 t) (ms0_3 t) (hs0_3 t) scM0_0 (Memref.isWhole_whole _) scM0_1 (Memref.isWhole_whole _) ((hcond0_0 t).mpr h0) (fun h => h1 ((hcond0_1 t).mp h)) (xb0 m c t) (xb1 m c t)) := by
  obtain ⟨n, hn⟩ := t
  cases n with
  | zero => exact rfl
  | succ n => exact (dif_pos h0).trans ((dif_neg h1).trans rfl)

theorem outsAt0_B (c : Dev nD) (t : Fin cfg0.N) (h0 : ¬t.val % 71 = 0) (h1 : ¬t.val % 71 = 70) :
    outsAt0 m c t.val t.isLt = (sout0_B_0 c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) (fun h => h1 ((hcond0_1 t).mp h)) (xb0 m c t) (xb1 m c t) (outsAt0 m c (t.val - 1) (Nat.lt_of_le_of_lt (Nat.sub_le _ _) t.isLt)).2.2.1 (outsAt0 m c (t.val - 1) (Nat.lt_of_le_of_lt (Nat.sub_le _ _) t.isLt)).2.2.2, sout0_B_1 c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) (fun h => h1 ((hcond0_1 t).mp h)) (xb0 m c t) (xb1 m c t) (outsAt0 m c (t.val - 1) (Nat.lt_of_le_of_lt (Nat.sub_le _ _) t.isLt)).2.2.1 (outsAt0 m c (t.val - 1) (Nat.lt_of_le_of_lt (Nat.sub_le _ _) t.isLt)).2.2.2, sout0_B_0 c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) (fun h => h1 ((hcond0_1 t).mp h)) (xb0 m c t) (xb1 m c t) (outsAt0 m c (t.val - 1) (Nat.lt_of_le_of_lt (Nat.sub_le _ _) t.isLt)).2.2.1 (outsAt0 m c (t.val - 1) (Nat.lt_of_le_of_lt (Nat.sub_le _ _) t.isLt)).2.2.2, sout0_B_1 c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) (fun h => h1 ((hcond0_1 t).mp h)) (xb0 m c t) (xb1 m c t) (outsAt0 m c (t.val - 1) (Nat.lt_of_le_of_lt (Nat.sub_le _ _) t.isLt)).2.2.1 (outsAt0 m c (t.val - 1) (Nat.lt_of_le_of_lt (Nat.sub_le _ _) t.isLt)).2.2.2) := by
  obtain ⟨n, hn⟩ := t
  cases n with
  | zero => exact (by exfalso; (try dsimp only at h0); exact absurd (Nat.zero_mod _) h0)
  | succ n => exact (dif_neg h0).trans ((dif_neg h1).trans rfl)

theorem outsAt0_C (c : Dev nD) (t : Fin cfg0.N) (h0 : ¬t.val % 71 = 0) (h1 : t.val % 71 = 70) :
    outsAt0 m c t.val t.isLt = (out0_C_2 c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) ((hcond0_1 t).mpr h1) (xb0 m c t) (xb1 m c t) (outsAt0 m c (t.val - 1) (Nat.lt_of_le_of_lt (Nat.sub_le _ _) t.isLt)).2.2.1 (outsAt0 m c (t.val - 1) (Nat.lt_of_le_of_lt (Nat.sub_le _ _) t.isLt)).2.2.2, out0_C_3 c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) ((hcond0_1 t).mpr h1) (xb0 m c t) (xb1 m c t) (outsAt0 m c (t.val - 1) (Nat.lt_of_le_of_lt (Nat.sub_le _ _) t.isLt)).2.2.1 (outsAt0 m c (t.val - 1) (Nat.lt_of_le_of_lt (Nat.sub_le _ _) t.isLt)).2.2.2, sout0_C_0 c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) ((hcond0_1 t).mpr h1) (xb0 m c t) (xb1 m c t) (outsAt0 m c (t.val - 1) (Nat.lt_of_le_of_lt (Nat.sub_le _ _) t.isLt)).2.2.1 (outsAt0 m c (t.val - 1) (Nat.lt_of_le_of_lt (Nat.sub_le _ _) t.isLt)).2.2.2, sout0_C_1 c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) ((hcond0_1 t).mpr h1) (xb0 m c t) (xb1 m c t) (outsAt0 m c (t.val - 1) (Nat.lt_of_le_of_lt (Nat.sub_le _ _) t.isLt)).2.2.1 (outsAt0 m c (t.val - 1) (Nat.lt_of_le_of_lt (Nat.sub_le _ _) t.isLt)).2.2.2) := by
  obtain ⟨n, hn⟩ := t
  cases n with
  | zero => exact (by exfalso; (try dsimp only at h0); exact absurd (Nat.zero_mod _) h0)
  | succ n => exact (dif_neg h0).trans ((dif_pos h1).trans rfl)

/-! ## The region's invariant, point by point -/

/-- Before the first point: the two accumulators at anything. Afterwards: each at what the point before left. -/
def PhiS (c : Dev nD) : (n : ℕ) → n ≤ cfg0.N → sProp 𝕄
  | 0, _ => Pipeline.ΦA spec0 c
  | n + 1, hn => iprop(iprop(owns (c : Thread nD τ) scM0_0 fullShare ((outsAt0 m c n hn).2.2.1) ∗ owns (c : Thread nD τ) scM0_1 fullShare ((outsAt0 m c n hn).2.2.2)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM0_0 fullShare ((outsAt0 m c n hn).2.2.1) ∗ owns (c : Thread nD τ) scM0_1 fullShare ((outsAt0 m c n hn).2.2.2)) ∗ (∃ r, prngReg c r)) := rfl

theorem PhiS_pos (c : Dev nD) (n : ℕ) (h : n ≤ cfg0.N) (hz : n ≠ 0) :
    PhiS m c n h = iprop(iprop(owns (c : Thread nD τ) scM0_0 fullShare ((outsAt0 m c (n - 1) (by omega)).2.2.1) ∗ owns (c : Thread nD τ) scM0_1 fullShare ((outsAt0 m c (n - 1) (by omega)).2.2.2)) ∗ (∃ r, prngReg c r)) := by
  cases n with
  | zero => exact absurd rfl hz
  | succ n => rfl

/-! ## The pipeline's proof data -/

/-- The arrays as the region finds them; after the body at point `t` each input's buffer still at its block, the result
    buffers and the accumulators at `outsAt0`; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => xb0 m c t
    | ⟨1, _⟩ => xb1 m c t
    | ⟨2, _⟩ => (outsAt0 m c t.val t.isLt).1
    | ⟨3, _⟩ => (outsAt0 m c t.val t.isLt).2.1
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0_0 (c : Dev nD) (t : Fin cfg0.N) : (dats m 0 c).after 0 t = xb0 m c t := by dsimp only [dats]
theorem after0_1 (c : Dev nD) (t : Fin cfg0.N) : (dats m 0 c).after 1 t = xb1 m c t := by dsimp only [dats]
theorem after0_2 (c : Dev nD) (t : Fin cfg0.N) : (dats m 0 c).after 2 t = (outsAt0 m c t.val t.isLt).1 := by dsimp only [dats]
theorem after0_3 (c : Dev nD) (t : Fin cfg0.N) : (dats m 0 c).after 3 t = (outsAt0 m c t.val t.isLt).2.1 := by dsimp only [dats]

/-- Each input's staging buffer holds its block when the body runs: it is fetched at every point, and the fetch, which no
    array's end cuts, fills the buffer whatever it held. -/
theorem before0_0 (c : Dev nD) (t : Fin cfg0.N) (d) : (dats m 0 c).before 0 t d = xb0 m c t := by
  rw [(dats m 0 c).before_fetched 0 t (fetch0_0 t)]
  unfold Dat.fetched Dat.blockOf xb0 iblk
  rw [A_eq m c 0]
  exact Pipeline.fill_of_clip_none (cfg := cfg0) 0 (grid0.coords t) (clip0_0 t) _ _ _
theorem before0_1 (c : Dev nD) (t : Fin cfg0.N) (d) : (dats m 0 c).before 1 t d = xb1 m c t := by
  rw [(dats m 0 c).before_fetched 1 t (fetch0_1 t)]
  unfold Dat.fetched Dat.blockOf xb1 iblk
  rw [A_eq m c 1]
  exact Pipeline.fill_of_clip_none (cfg := cfg0) 1 (grid0.coords t) (clip0_1 t) _ _ _

/-! ## The body obligation, at a generic point -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t)

set_option maxHeartbeats 4800000 in
/-- The body at any point: the inputs' buffers hold their blocks; the closed forms say which case the point is in; the
    invariant hands the body the accumulators at what the point before left (at anything before the first point) and takes
    them back at this point's contents. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1]
  rw [show (dats m 0 c).owesAt () t.succ = (dats m 0 c).owesAt () t.castSucc from rfl]
  rw [show (dats m 0 c).Φ t.succ = PhiS m c (t.val + 1) t.isLt from rfl, PhiS_succ]
  have hN : t.val < 142 := lt_of_lt_of_eq t.isLt (show cfg0.N = 142 from N_0)
  by_cases h0 : t.val % 71 = 0
  · by_cases h1 : t.val % 71 = 70
    · exfalso; omega
    ·
      rw [show (dats m 0 c).leavesExact 0 t = owns (c : Thread nD τ) (ms0_0 t) fullShare ((dats m 0 c).after 0 t) from by
        unfold Dat.leavesExact; rw [liveAt0_0 t], after0_0]
      rw [show (dats m 0 c).leavesExact 1 t = owns (c : Thread nD τ) (ms0_1 t) fullShare ((dats m 0 c).after 1 t) from by
        unfold Dat.leavesExact; rw [liveAt0_1 t], after0_1]
      rw [Dat.leavesExact_idle (dats m 0 c) 2 t (idleAt0_2 t (fun h => h1 ((hcond0_1 t).mp h))) (noFlush0_2 t (fun h => h1 ((hcond0_1 t).mp h)))]
      rw [Dat.leavesExact_idle (dats m 0 c) 3 t (idleAt0_3 t (fun h => h1 ((hcond0_1 t).mp h))) (noFlush0_3 t (fun h => h1 ((hcond0_1 t).mp h)))]
      rw [outsAt0_A m c t h0 h1]
      unfold sout0_A_0 sout0_A_1; (try dsimp only)
      by_cases hz : t.val = 0
      · rw [PhiS_castSucc m c t, PhiS_zero m c _ _ hz, PhiA0_eq]
        iintro ⟨⟨⟨HS0, HS1⟩, Hg⟩, Ho, ⟨%d0, H0⟩, ⟨%d1, H1⟩, ⟨%d2, H2⟩, ⟨%d3, H3⟩⟩
        iapply ((kernelRun0_A c (grid0.coords t) (ms0_0 t) (hs0_0 t) (ms0_1 t) (hs0_1 t) (ms0_2 t) (hs0_2 t) (ms0_3 t) (hs0_3 t) scM0_0 (Memref.isWhole_whole _) scM0_1 (Memref.isWhole_whole _) ((hcond0_0 t).mpr h0) (fun h => h1 ((hcond0_1 t).mp h)) (xb0 m c t) (xb1 m c t)).2.2 _ _ Set.univ _)
        isplitl [H0]; · iexact H0
        isplitl [H1]; · iexact H1
        isplitl [H2]; · iexact H2
        isplitl [H3]; · iexact H3
        isplitl [HS0]; · iexact HS0
        isplitl [HS1]; · iexact HS1
        iintro ⟨H0, H1, H2, H3, ⟨%es0, HS0⟩, ⟨%es1, HS1⟩⟩
        isplitl [HS0 HS1 Hg]
        · isplitl [HS0 HS1]
          · isplitl [HS0]
            · unfold owns; iexists _; isplitr
              swap; · iexact HS0
              ipureintro; exact View.read_writes_of_cover _ _ _ _ _ (scover0_A_0 c (grid0.coords t) (ms0_0 t) (hs0_0 t) (ms0_1 t) (hs0_1 t) (ms0_2 t) (hs0_2 t) (ms0_3 t) (hs0_3 t) scM0_0 (Memref.isWhole_whole _) scM0_1 (Memref.isWhole_whole _) ((hcond0_0 t).mpr h0) (fun h => h1 ((hcond0_1 t).mp h)) (xb0 m c t) (xb1 m c t))
            · unfold owns; iexists _; isplitr
              swap; · iexact HS1
              ipureintro; exact View.read_writes_of_cover _ _ _ _ _ (scover0_A_1 c (grid0.coords t) (ms0_0 t) (hs0_0 t) (ms0_1 t) (hs0_1 t) (ms0_2 t) (hs0_2 t) (ms0_3 t) (hs0_3 t) scM0_0 (Memref.isWhole_whole _) scM0_1 (Memref.isWhole_whole _) ((hcond0_0 t).mpr h0) (fun h => h1 ((hcond0_1 t).mp h)) (xb0 m c t) (xb1 m c t))
          iexact Hg
        isplitl [Ho]; · iexact Ho
        isplitl [H0]; · iexact H0
        isplitl [H1]; · iexact H1
        isplitl [H2]; · iexists _; iexact H2
        iexists _; iexact H3

      · rw [PhiS_castSucc m c t, PhiS_pos m c _ _ hz]
        iintro ⟨⟨⟨HS0, HS1⟩, Hg⟩, Ho, ⟨%d0, H0⟩, ⟨%d1, H1⟩, ⟨%d2, H2⟩, ⟨%d3, H3⟩⟩
        iapply ((kernelRun0_A c (grid0.coords t) (ms0_0 t) (hs0_0 t) (ms0_1 t) (hs0_1 t) (ms0_2 t) (hs0_2 t) (ms0_3 t) (hs0_3 t) scM0_0 (Memref.isWhole_whole _) scM0_1 (Memref.isWhole_whole _) ((hcond0_0 t).mpr h0) (fun h => h1 ((hcond0_1 t).mp h)) (xb0 m c t) (xb1 m c t)).2.2 _ _ Set.univ _)
        isplitl [H0]; · iexact H0
        isplitl [H1]; · iexact H1
        isplitl [H2]; · iexact H2
        isplitl [H3]; · iexact H3
        isplitl [HS0]; · iexists _; iexact HS0
        isplitl [HS1]; · iexists _; iexact HS1
        iintro ⟨H0, H1, H2, H3, ⟨%es0, HS0⟩, ⟨%es1, HS1⟩⟩
        isplitl [HS0 HS1 Hg]
        · isplitl [HS0 HS1]
          · isplitl [HS0]
            · unfold owns; iexists _; isplitr
              swap; · iexact HS0
              ipureintro; exact View.read_writes_of_cover _ _ _ _ _ (scover0_A_0 c (grid0.coords t) (ms0_0 t) (hs0_0 t) (ms0_1 t) (hs0_1 t) (ms0_2 t) (hs0_2 t) (ms0_3 t) (hs0_3 t) scM0_0 (Memref.isWhole_whole _) scM0_1 (Memref.isWhole_whole _) ((hcond0_0 t).mpr h0) (fun h => h1 ((hcond0_1 t).mp h)) (xb0 m c t) (xb1 m c t))
            · unfold owns; iexists _; isplitr
              swap; · iexact HS1
              ipureintro; exact View.read_writes_of_cover _ _ _ _ _ (scover0_A_1 c (grid0.coords t) (ms0_0 t) (hs0_0 t) (ms0_1 t) (hs0_1 t) (ms0_2 t) (hs0_2 t) (ms0_3 t) (hs0_3 t) scM0_0 (Memref.isWhole_whole _) scM0_1 (Memref.isWhole_whole _) ((hcond0_0 t).mpr h0) (fun h => h1 ((hcond0_1 t).mp h)) (xb0 m c t) (xb1 m c t))
          iexact Hg
        isplitl [Ho]; · iexact Ho
        isplitl [H0]; · iexact H0
        isplitl [H1]; · iexact H1
        isplitl [H2]; · iexists _; iexact H2
        iexists _; iexact H3

  · by_cases h1 : t.val % 71 = 70
    ·
      rw [show (dats m 0 c).leavesExact 0 t = owns (c : Thread nD τ) (ms0_0 t) fullShare ((dats m 0 c).after 0 t) from by
        unfold Dat.leavesExact; rw [liveAt0_0 t], after0_0]
      rw [show (dats m 0 c).leavesExact 1 t = owns (c : Thread nD τ) (ms0_1 t) fullShare ((dats m 0 c).after 1 t) from by
        unfold Dat.leavesExact; rw [liveAt0_1 t], after0_1]
      rw [show (dats m 0 c).leavesExact 2 t = owns (c : Thread nD τ) (ms0_2 t) fullShare ((dats m 0 c).after 2 t) from by
        unfold Dat.leavesExact; rw [liveAt0_2 t ((hcond0_1 t).mpr h1)], after0_2]
      rw [show (dats m 0 c).leavesExact 3 t = owns (c : Thread nD τ) (ms0_3 t) fullShare ((dats m 0 c).after 3 t) from by
        unfold Dat.leavesExact; rw [liveAt0_3 t ((hcond0_1 t).mpr h1)], after0_3]
      rw [outsAt0_C m c t h0 h1]
      unfold out0_C_2 out0_C_3 sout0_C_0 sout0_C_1; (try dsimp only)
      by_cases hz : t.val = 0
      · exfalso; exact h0 (by rw [hz])
      · rw [PhiS_castSucc m c t, PhiS_pos m c _ _ hz]
        iintro ⟨⟨⟨HS0, HS1⟩, Hg⟩, Ho, ⟨%d0, H0⟩, ⟨%d1, H1⟩, ⟨%d2, H2⟩, ⟨%d3, H3⟩⟩
        iapply ((kernelRun0_C c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) ((hcond0_1 t).mpr h1) (xb0 m c t) (xb1 m c t) _ _).2.2.2.2 Set.univ _)
        isplitl [H0]; · iexact H0
        isplitl [H1]; · iexact H1
        isplitl [H2]; · iexists _; iexact H2
        isplitl [H3]; · iexists _; iexact H3
        isplitl [HS0]; · iexact HS0
        isplitl [HS1]; · iexact HS1
        iintro ⟨H0, H1, ⟨%e2, H2⟩, ⟨%e3, H3⟩, ⟨%es0, HS0⟩, ⟨%es1, HS1⟩⟩
        isplitl [HS0 HS1 Hg]
        · isplitl [HS0 HS1]
          · isplitl [HS0]
            · unfold owns; iexists _; isplitr
              swap; · iexact HS0
              ipureintro; exact View.read_writes_of_cover _ _ _ _ _ (scover0_C_0 c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) ((hcond0_1 t).mpr h1) (xb0 m c t) (xb1 m c t) (outsAt0 m c (t.val - 1) (Nat.lt_of_le_of_lt (Nat.sub_le _ _) t.isLt)).2.2.1 (outsAt0 m c (t.val - 1) (Nat.lt_of_le_of_lt (Nat.sub_le _ _) t.isLt)).2.2.2)
            · unfold owns; iexists _; isplitr
              swap; · iexact HS1
              ipureintro; exact View.read_writes_of_cover _ _ _ _ _ (scover0_C_1 c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) ((hcond0_1 t).mpr h1) (xb0 m c t) (xb1 m c t) (outsAt0 m c (t.val - 1) (Nat.lt_of_le_of_lt (Nat.sub_le _ _) t.isLt)).2.2.1 (outsAt0 m c (t.val - 1) (Nat.lt_of_le_of_lt (Nat.sub_le _ _) t.isLt)).2.2.2)
          iexact Hg
        isplitl [Ho]; · iexact Ho
        isplitl [H0]; · iexact H0
        isplitl [H1]; · iexact H1
        isplitl [H2]
        · unfold owns; iexists _; isplitr
          swap; · iexact H2
          ipureintro; exact View.read_writes_of_cover _ _ _ _ _ (cover0_C_2 c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) ((hcond0_1 t).mpr h1) (xb0 m c t) (xb1 m c t) (outsAt0 m c (t.val - 1) (Nat.lt_of_le_of_lt (Nat.sub_le _ _) t.isLt)).2.2.1 (outsAt0 m c (t.val - 1) (Nat.lt_of_le_of_lt (Nat.sub_le _ _) t.isLt)).2.2.2)
        · unfold owns; iexists _; isplitr
          swap; · iexact H3
          ipureintro; exact View.read_writes_of_cover _ _ _ _ _ (cover0_C_3 c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) ((hcond0_1 t).mpr h1) (xb0 m c t) (xb1 m c t) (outsAt0 m c (t.val - 1) (Nat.lt_of_le_of_lt (Nat.sub_le _ _) t.isLt)).2.2.1 (outsAt0 m c (t.val - 1) (Nat.lt_of_le_of_lt (Nat.sub_le _ _) t.isLt)).2.2.2)

    ·
      rw [show (dats m 0 c).leavesExact 0 t = owns (c : Thread nD τ) (ms0_0 t) fullShare ((dats m 0 c).after 0 t) from by
        unfold Dat.leavesExact; rw [liveAt0_0 t], after0_0]
      rw [show (dats m 0 c).leavesExact 1 t = owns (c : Thread nD τ) (ms0_1 t) fullShare ((dats m 0 c).after 1 t) from by
        unfold Dat.leavesExact; rw [liveAt0_1 t], after0_1]
      rw [Dat.leavesExact_idle (dats m 0 c) 2 t (idleAt0_2 t (fun h => h1 ((hcond0_1 t).mp h))) (noFlush0_2 t (fun h => h1 ((hcond0_1 t).mp h)))]
      rw [Dat.leavesExact_idle (dats m 0 c) 3 t (idleAt0_3 t (fun h => h1 ((hcond0_1 t).mp h))) (noFlush0_3 t (fun h => h1 ((hcond0_1 t).mp h)))]
      rw [outsAt0_B m c t h0 h1]
      unfold sout0_B_0 sout0_B_1; (try dsimp only)
      by_cases hz : t.val = 0
      · exfalso; exact h0 (by rw [hz])
      · rw [PhiS_castSucc m c t, PhiS_pos m c _ _ hz]
        iintro ⟨⟨⟨HS0, HS1⟩, Hg⟩, Ho, ⟨%d0, H0⟩, ⟨%d1, H1⟩, ⟨%d2, H2⟩, ⟨%d3, H3⟩⟩
        iapply ((kernelRun0_B c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) (fun h => h1 ((hcond0_1 t).mp h)) (xb0 m c t) (xb1 m c t) _ _).2.2 _ _ Set.univ _)
        isplitl [H0]; · iexact H0
        isplitl [H1]; · iexact H1
        isplitl [H2]; · iexact H2
        isplitl [H3]; · iexact H3
        isplitl [HS0]; · iexact HS0
        isplitl [HS1]; · iexact HS1
        iintro ⟨H0, H1, H2, H3, ⟨%es0, HS0⟩, ⟨%es1, HS1⟩⟩
        isplitl [HS0 HS1 Hg]
        · isplitl [HS0 HS1]
          · isplitl [HS0]
            · unfold owns; iexists _; isplitr
              swap; · iexact HS0
              ipureintro; exact View.read_writes_of_cover _ _ _ _ _ (scover0_B_0 c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) (fun h => h1 ((hcond0_1 t).mp h)) (xb0 m c t) (xb1 m c t) (outsAt0 m c (t.val - 1) (Nat.lt_of_le_of_lt (Nat.sub_le _ _) t.isLt)).2.2.1 (outsAt0 m c (t.val - 1) (Nat.lt_of_le_of_lt (Nat.sub_le _ _) t.isLt)).2.2.2)
            · unfold owns; iexists _; isplitr
              swap; · iexact HS1
              ipureintro; exact View.read_writes_of_cover _ _ _ _ _ (scover0_B_1 c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) (fun h => h1 ((hcond0_1 t).mp h)) (xb0 m c t) (xb1 m c t) (outsAt0 m c (t.val - 1) (Nat.lt_of_le_of_lt (Nat.sub_le _ _) t.isLt)).2.2.1 (outsAt0 m c (t.val - 1) (Nat.lt_of_le_of_lt (Nat.sub_le _ _) t.isLt)).2.2.2)
          iexact Hg
        isplitl [Ho]; · iexact Ho
        isplitl [H0]; · iexact H0
        isplitl [H1]; · iexact H1
        isplitl [H2]; · iexists _; iexact H2
        iexists _; iexact H3

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point the invariant gives the region's back: the accumulators' named contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨⟨HS0, HS1⟩, Hg⟩
  isplitl [HS0 HS1]
  · isplitl [HS0]
    · iexists _; iexact HS0
    · iexists _; iexact HS1
  iexact Hg

theorem hout (c : Dev nD) : (dats m 0 c).Φ (Fin.last cfg0.N) ⊢ Pipeline.ΦA spec0 c :=
  Phi_out m c _ (by rw [Fin.val_last]; have : cfg0.N = 142 := N_0; omega)

/-! ## The run and the frame -/

set_option backward.isDefEq.respectTransparency.types false in
/-- For any values, from any memory with zero counters: every weakly fair execution of the program terminates, and every
    final state has each array of the pipeline at what the proof data compute, every other unscoped buffer as the host
    operations after the call leave it. -/
theorem run_main : θ_run defs (onTc (τ := τ) (main (F := F))) (s₀ m ρ) (Pipeline.FramePost cfgs (dats m) 0 (Pipeline.afterTail₀ cfgs (dats m) 0 (V0 m) [hostOps1, hostOps1_1])) :=
  Pipeline.θ_run_frame_around_track cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1, hostOps1_1]) (hsub := sfx_sub) (hfresh := sfx_fresh) (hkeep := sfx_keeps)
    (hmain := hmain m Variants.none) (hA := A_eq m) (hin := hin m) (hout := hout m)

/-- The program runs to its end without a fault and its two argument arrays end as they were. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_of m ρ (dats m) (A_eq m) (run_main m ρ)

end Cert.Kernel.Body

end
-- ==== Proof.KiCases.lean ====
/-
  The kernel's body at a grid point: which of its two conditionals run there, and what follows for its windows.

  The grid is 2 x 71; point `t` has the coordinates (t / 71, t % 71), the second one the index of the block of 1408 bucket
  columns. The body's first conditional (reset the two accumulators) runs exactly at the points with t % 71 = 0, its second
  (copy the accumulators to the two result blocks) exactly at those with t % 71 = 70. So every point is in one of three
  cases: first block, middle block, last block. The two result windows are stored into, and written back, only at the last
  block; the two input windows are read at every point, and no block of theirs reaches past the end of its array
  (71 * 1408 = 99968 <= 100000), so a fetch fills the whole staging buffer.
-/
import proofs.«114592_j12567074308161_1_alg».proof.Proof.Gen.KernelIdeal.Frame
import proofs.«114592_j12567074308161_1_alg».proof.Proof.Gen.KernelIdeal.Skeleton

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The two conditions, in closed form over the grid -/

/-- The condition of the first conditional: the bucket-block coordinate is 0. -/
abbrev cond0_0 (i : grid0.Coords) : Prop := (Scalar.cmpi .ne (Scalar.extui (Scalar.cmpi .eq (BitVec.ofNat 32 (i 1).val) 0#32)) 0#32) = 1#1
/-- It holds exactly at the points with `t % 71 = 0`. -/
theorem hcond0_0 : ∀ t : Fin cfg0.N, cond0_0 (grid0.coords t) ↔ t.val % 71 = 0 :=
  (by decide +kernel : ∀ t : Fin grid0.N, cond0_0 (grid0.coords t) ↔ t.val % 71 = 0)

/-- The condition of the second conditional: the bucket-block coordinate is 70, the last. -/
abbrev cond0_1 (i : grid0.Coords) : Prop := k0_cond2 i = 1#1
/-- It holds exactly at the points with `t % 71 = 70`. -/
theorem hcond0_1 : ∀ t : Fin cfg0.N, cond0_1 (grid0.coords t) ↔ t.val % 71 = 70 :=
  (by decide +kernel : ∀ t : Fin grid0.N, cond0_1 (grid0.coords t) ↔ t.val % 71 = 70)

/-! ## Where the windows are live, written back, and whole -/

/-- The two input windows are read at every point. -/
theorem liveAt0_0 : ∀ t : Fin cfg0.N, cfg0.idle 0 (grid0.coords t) = false := by decide +kernel
theorem liveAt0_1 : ∀ t : Fin cfg0.N, cfg0.idle 1 (grid0.coords t) = false := by decide +kernel
/-- Away from the last block the body stores nothing into the result windows, and they are not written back there. -/
theorem idleAt0_2 : ∀ t : Fin cfg0.N, ¬cond0_1 (grid0.coords t) → cfg0.idle 2 (grid0.coords t) = true := by decide +kernel
theorem noFlush0_2 : ∀ t : Fin cfg0.N, ¬cond0_1 (grid0.coords t) → (cfg0.win 2).flush t = false := by decide +kernel
theorem idleAt0_3 : ∀ t : Fin cfg0.N, ¬cond0_1 (grid0.coords t) → cfg0.idle 3 (grid0.coords t) = true := by decide +kernel
theorem noFlush0_3 : ∀ t : Fin cfg0.N, ¬cond0_1 (grid0.coords t) → (cfg0.win 3).flush t = false := by decide +kernel
/-- At the last block both result windows are stored into. -/
theorem liveAt0_2 : ∀ t : Fin cfg0.N, cond0_1 (grid0.coords t) → cfg0.idle 2 (grid0.coords t) = false := by decide +kernel
theorem liveAt0_3 : ∀ t : Fin cfg0.N, cond0_1 (grid0.coords t) → cfg0.idle 3 (grid0.coords t) = false := by decide +kernel
/-- No block of an input window reaches past the end of its array: no transfer is cut. -/
theorem clip0_0 : ∀ t : Fin cfg0.N, ∀ a, (cfg0.win 0).clip (grid0.coords t) a = none :=
  (by decide +kernel : ∀ t : Fin grid0.N, ∀ a, win0_0.clip (grid0.coords t) a = none)
theorem clip0_1 : ∀ t : Fin cfg0.N, ∀ a, (cfg0.win 1).clip (grid0.coords t) a = none :=
  (by decide +kernel : ∀ t : Fin grid0.N, ∀ a, win0_1.clip (grid0.coords t) a = none)

/-! ## The memrefs the body is called with -/

/-- One staging buffer of each result window, through which its contents are stated. -/
abbrev VO0_2 : View sig .tc .vmem S1024x64 .f32 := (Memref.whole cc0_stg2_0 : Memref sig .tc .vmem S1024x64 .f32).view
abbrev VO0_3 : View sig .tc .vmem S1024x1 .f32 := (Memref.whole cc0_stg3_0 : Memref sig .tc .vmem S1024x1 .f32).view
/-- Each window's current staging memref at point `t`, and its wholeness. -/
abbrev ms0_0 (t : Fin cfg0.N) : Memref sig .tc .vmem S1024x1408 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1408x64 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1024x64 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1024x1 .f32 := win0_3.stage (cfg0.slots t 3)
abbrev hs0_3 (t : Fin cfg0.N) : (ms0_3 t).IsWhole := hstage0_3 ((cfg0.slots t 3).cast nbuf0_3)
/-- The two accumulators: whole scoped buffers of the kernel's own, carried from point to point. -/
abbrev scM0_0 : Memref sig .tc .vmem S1024x64 .f32 := Memref.whole cc0_scratch0
abbrev scM0_1 : Memref sig .tc .vmem S1024x1 .f32 := Memref.whole cc0_scratch1
abbrev VS0_0 : View sig .tc .vmem S1024x64 .f32 := scM0_0.view
abbrev VS0_1 : View sig .tc .vmem S1024x1 .f32 := scM0_1.view

/-- The region's invariant with the two accumulators as memrefs owned at some contents. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d)) ∗ (∃ r, prngReg c r)) := by
  unfold Pipeline.ΦA; rw [scopedRest0_eq]; simp only [scM0_0, scM0_1, owns_whole]; try rfl

end Cert.KernelIdeal.Body

end
-- ==== Proof.KiRunA.lean ====
/-
  The kernel's body run at the first bucket block (the accumulators are reset, then added to; the result windows are left alone).

  On whole staging buffers — the two input blocks at given contents, the result buffers at contents handed back untouched, the
  accumulators at anything — the body runs to its end without a fault and hands every buffer back: the inputs as
  they were, each buffer it stored into with its stores written, as a list of pieces (last store first) that the run itself
  finds.
-/
import proofs.«114592_j12567074308161_1_alg».proof.Proof.KiCases

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The body's run in this case, as the pieces its stores leave together with the proof that it runs. -/
noncomputable def kernelRun0_A (c : Dev nD) (i : grid0.Coords) (arg2 : Memref sig .tc .vmem S1024x1408 .f32) (harg2 : arg2.IsWhole) (arg3 : Memref sig .tc .vmem S1408x64 .f32) (harg3 : arg3.IsWhole) (arg4 : Memref sig .tc .vmem S1024x64 .f32) (harg4 : arg4.IsWhole) (arg5 : Memref sig .tc .vmem S1024x1 .f32) (harg5 : arg5.IsWhole) (arg6 : Memref sig .tc .vmem S1024x64 .f32) (harg6 : arg6.IsWhole) (arg7 : Memref sig .tc .vmem S1024x1 .f32) (harg7 : arg7.IsWhole) (hc0 : cond0_0 i) (hc1 : ¬cond0_1 i)
    (x0 : Vec F S1024x1408 .f32) (x1 : Vec F S1408x64 .f32) :
    Σ' (LS0 : List (View.Piece (Elt F) S1024x64 .f32)), { LS1 : List (View.Piece (Elt F) S1024x1 .f32) //
      ∀ (xi2 : Vec F S1024x64 .f32) (xi3 : Vec F S1024x1 .f32) (E : Set ℕ) (K : PUnit → sProp 𝕄),
        iprop(owns (c : Thread nD τ) arg2 fullShare x0
            ∗ owns (c : Thread nD τ) arg3 fullShare x1
            ∗ owns (c : Thread nD τ) arg4 fullShare xi2
            ∗ owns (c : Thread nD τ) arg5 fullShare xi3
            ∗ (∃ d, owns (c : Thread nD τ) arg6 fullShare d)
            ∗ (∃ d, owns (c : Thread nD τ) arg7 fullShare d)
            ∗ (iprop(owns (c : Thread nD τ) arg2 fullShare x0
                ∗ owns (c : Thread nD τ) arg3 fullShare x1
                ∗ owns (c : Thread nD τ) arg4 fullShare xi2
                ∗ owns (c : Thread nD τ) arg5 fullShare xi3
                ∗ (∃ f, arg6.view.loc (c : Thread nD τ) ↦[arg6.view.set]{fullShare} arg6.view.writes (Elt F) f LS0)
                ∗ (∃ f, arg7.view.loc (c : Thread nD τ) ↦[arg7.view.set]{fullShare} arg7.view.writes (Elt F) f LS1)) -∗ K ⟨⟩))
          ⊢ wp frame (wpE (defs₀ (F := F)) Variants.none c none) E (cc0__pool_kernel i arg2 harg2 arg3 harg3 arg4 harg4 arg5 harg5 arg6 harg6 arg7 harg7) K } := by
  refine ⟨?_, ?_, fun xi2 xi3 E K => ?run⟩
  case run =>
    simp only [cc0__pool_kernel_eq_skeleton]; unfold cc0__pool_kernel_skel
    unfold owns
    iintro ⟨⟨%f0, %hf0, H0⟩, ⟨%f1, %hf1, H1⟩, ⟨%f2, %hf2, H2⟩, ⟨%f3, %hf3, H3⟩, ⟨%ds0, %fs0, -, HS0⟩, ⟨%ds1, %fs1, -, HS1⟩, Hk⟩
    obtain rfl := harg2.eq_unread hf0; obtain rfl := harg3.eq_unread hf1; obtain rfl := harg4.eq_unread hf2; obtain rfl := harg5.eq_unread hf3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [HS0]; · iexists _; iexact HS0
    iexists _; iexact HS1

end Cert.KernelIdeal.Body

end
-- ==== Proof.KiRunB.lean ====
/-
  The kernel's body run at a middle bucket block (the accumulators are added to; the result windows are left alone).

  On whole staging buffers — the two input blocks at given contents, the result buffers at contents handed back untouched, the
  accumulators at what the point before left — the body runs to its end without a fault and hands every buffer back: the inputs as
  they were, each buffer it stored into with its stores written, as a list of pieces (last store first) that the run itself
  finds.
-/
import proofs.«114592_j12567074308161_1_alg».proof.Proof.KiRunA

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The body's run in this case, as the pieces its stores leave together with the proof that it runs. -/
noncomputable def kernelRun0_B (c : Dev nD) (i : grid0.Coords) (arg2 : Memref sig .tc .vmem S1024x1408 .f32) (harg2 : arg2.IsWhole) (arg3 : Memref sig .tc .vmem S1408x64 .f32) (harg3 : arg3.IsWhole) (arg4 : Memref sig .tc .vmem S1024x64 .f32) (harg4 : arg4.IsWhole) (arg5 : Memref sig .tc .vmem S1024x1 .f32) (harg5 : arg5.IsWhole) (arg6 : Memref sig .tc .vmem S1024x64 .f32) (harg6 : arg6.IsWhole) (arg7 : Memref sig .tc .vmem S1024x1 .f32) (harg7 : arg7.IsWhole) (hc0 : ¬cond0_0 i) (hc1 : ¬cond0_1 i)
    (x0 : Vec F S1024x1408 .f32) (x1 : Vec F S1408x64 .f32) (xs0 : Vec F S1024x64 .f32) (xs1 : Vec F S1024x1 .f32) :
    Σ' (LS0 : List (View.Piece (Elt F) S1024x64 .f32)), { LS1 : List (View.Piece (Elt F) S1024x1 .f32) //
      ∀ (xi2 : Vec F S1024x64 .f32) (xi3 : Vec F S1024x1 .f32) (E : Set ℕ) (K : PUnit → sProp 𝕄),
        iprop(owns (c : Thread nD τ) arg2 fullShare x0
            ∗ owns (c : Thread nD τ) arg3 fullShare x1
            ∗ owns (c : Thread nD τ) arg4 fullShare xi2
            ∗ owns (c : Thread nD τ) arg5 fullShare xi3
            ∗ owns (c : Thread nD τ) arg6 fullShare xs0
            ∗ owns (c : Thread nD τ) arg7 fullShare xs1
            ∗ (iprop(owns (c : Thread nD τ) arg2 fullShare x0
                ∗ owns (c : Thread nD τ) arg3 fullShare x1
                ∗ owns (c : Thread nD τ) arg4 fullShare xi2
                ∗ owns (c : Thread nD τ) arg5 fullShare xi3
                ∗ (∃ f, arg6.view.loc (c : Thread nD τ) ↦[arg6.view.set]{fullShare} arg6.view.writes (Elt F) f LS0)
                ∗ (∃ f, arg7.view.loc (c : Thread nD τ) ↦[arg7.view.set]{fullShare} arg7.view.writes (Elt F) f LS1)) -∗ K ⟨⟩))
          ⊢ wp frame (wpE (defs₀ (F := F)) Variants.none c none) E (cc0__pool_kernel i arg2 harg2 arg3 harg3 arg4 harg4 arg5 harg5 arg6 harg6 arg7 harg7) K } := by
  refine ⟨?_, ?_, fun xi2 xi3 E K => ?run⟩
  case run =>
    simp only [cc0__pool_kernel_eq_skeleton]; unfold cc0__pool_kernel_skel
    unfold owns
    iintro ⟨⟨%f0, %hf0, H0⟩, ⟨%f1, %hf1, H1⟩, ⟨%f2, %hf2, H2⟩, ⟨%f3, %hf3, H3⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hf3; obtain rfl := harg6.eq_unread hfs0; obtain rfl := harg7.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [HS0]; · iexists _; iexact HS0
    iexists _; iexact HS1

end Cert.KernelIdeal.Body

end
-- ==== Proof.KiRunC.lean ====
/-
  The kernel's body run at the last bucket block (the accumulators are added to, then copied into the two result blocks).

  On whole staging buffers — the two input blocks at given contents, the result buffers at anything, the
  accumulators at what the point before left — the body runs to its end without a fault and hands every buffer back: the inputs as
  they were, each buffer it stored into with its stores written, as a list of pieces (last store first) that the run itself
  finds.
-/
import proofs.«114592_j12567074308161_1_alg».proof.Proof.KiRunB

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The body's run in this case, as the pieces its stores leave together with the proof that it runs. -/
noncomputable def kernelRun0_C (c : Dev nD) (i : grid0.Coords) (arg2 : Memref sig .tc .vmem S1024x1408 .f32) (harg2 : arg2.IsWhole) (arg3 : Memref sig .tc .vmem S1408x64 .f32) (harg3 : arg3.IsWhole) (arg4 : Memref sig .tc .vmem S1024x64 .f32) (harg4 : arg4.IsWhole) (arg5 : Memref sig .tc .vmem S1024x1 .f32) (harg5 : arg5.IsWhole) (arg6 : Memref sig .tc .vmem S1024x64 .f32) (harg6 : arg6.IsWhole) (arg7 : Memref sig .tc .vmem S1024x1 .f32) (harg7 : arg7.IsWhole) (hc0 : ¬cond0_0 i) (hc1 : cond0_1 i)
    (x0 : Vec F S1024x1408 .f32) (x1 : Vec F S1408x64 .f32) (xs0 : Vec F S1024x64 .f32) (xs1 : Vec F S1024x1 .f32) :
    Σ' (L2 : List (View.Piece (Elt F) S1024x64 .f32)) (L3 : List (View.Piece (Elt F) S1024x1 .f32)) (LS0 : List (View.Piece (Elt F) S1024x64 .f32)), { LS1 : List (View.Piece (Elt F) S1024x1 .f32) //
      ∀ (E : Set ℕ) (K : PUnit → sProp 𝕄),
        iprop(owns (c : Thread nD τ) arg2 fullShare x0
            ∗ owns (c : Thread nD τ) arg3 fullShare x1
            ∗ (∃ d, owns (c : Thread nD τ) arg4 fullShare d)
            ∗ (∃ d, owns (c : Thread nD τ) arg5 fullShare d)
            ∗ owns (c : Thread nD τ) arg6 fullShare xs0
            ∗ owns (c : Thread nD τ) arg7 fullShare xs1
            ∗ (iprop(owns (c : Thread nD τ) arg2 fullShare x0
                ∗ owns (c : Thread nD τ) arg3 fullShare x1
                ∗ (∃ f, arg4.view.loc (c : Thread nD τ) ↦[arg4.view.set]{fullShare} arg4.view.writes (Elt F) f L2)
                ∗ (∃ f, arg5.view.loc (c : Thread nD τ) ↦[arg5.view.set]{fullShare} arg5.view.writes (Elt F) f L3)
                ∗ (∃ f, arg6.view.loc (c : Thread nD τ) ↦[arg6.view.set]{fullShare} arg6.view.writes (Elt F) f LS0)
                ∗ (∃ f, arg7.view.loc (c : Thread nD τ) ↦[arg7.view.set]{fullShare} arg7.view.writes (Elt F) f LS1)) -∗ K ⟨⟩))
          ⊢ wp frame (wpE (defs₀ (F := F)) Variants.none c none) E (cc0__pool_kernel i arg2 harg2 arg3 harg3 arg4 harg4 arg5 harg5 arg6 harg6 arg7 harg7) K } := by
  refine ⟨?_, ?_, ?_, ?_, fun E K => ?run⟩
  case run =>
    simp only [cc0__pool_kernel_eq_skeleton]; unfold cc0__pool_kernel_skel
    unfold owns
    iintro ⟨⟨%f0, %hf0, H0⟩, ⟨%f1, %hf1, H1⟩, ⟨%d2, %f2, -, H2⟩, ⟨%d3, %f3, -, H3⟩, ⟨%fs0, %hfs0, HS0⟩, ⟨%fs1, %hfs1, HS1⟩, Hk⟩
    obtain rfl := harg2.eq_unread hf0; obtain rfl := harg3.eq_unread hf1; obtain rfl := harg6.eq_unread hfs0; obtain rfl := harg7.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    isplitl [H3]; · iexists _; iexact H3
    isplitl [HS0]; · iexists _; iexact HS0
    iexists _; iexact HS1

end Cert.KernelIdeal.Body

end
-- ==== Proof.KiFrame.lean ====
/-
  The frame of the program: it runs to its end, nothing faults, and its two argument arrays end unchanged.

  The Pallas call is a pipeline over the 2 x 71 grid. What has to be said about its body is said point by point: each
  input's staging buffer holds the input's block at the point (no block is cut at the array's end, so the fetch fills the
  whole buffer); the two accumulators hold, after point `t`, what the body's stores left there (`outsAt0`: at a first bucket
  block computed from the reset value, otherwise from what the point before left); the two result blocks are stored only
  at a last bucket block, and are left alone and not written back elsewhere. With these as the proof data, the body's run in
  each of the three cases is the body's obligation at every point, and the library's launch theorem for a pipeline followed
  by host operations gives the run of the whole program.
-/
import proofs.«114592_j12567074308161_1_alg».proof.Proof.KiRunC

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What each case leaves in the buffers it stores into -/

/-- At the first bucket block the stores into the matrix accumulator tile it, so they cover it. -/
theorem scover0_A_0 (c : Dev nD) (i : grid0.Coords) (arg2 : Memref sig .tc .vmem S1024x1408 .f32) (harg2 : arg2.IsWhole) (arg3 : Memref sig .tc .vmem S1408x64 .f32) (harg3 : arg3.IsWhole) (arg4 : Memref sig .tc .vmem S1024x64 .f32) (harg4 : arg4.IsWhole) (arg5 : Memref sig .tc .vmem S1024x1 .f32) (harg5 : arg5.IsWhole) (arg6 : Memref sig .tc .vmem S1024x64 .f32) (harg6 : arg6.IsWhole) (arg7 : Memref sig .tc .vmem S1024x1 .f32) (harg7 : arg7.IsWhole) (hc0 : cond0_0 i) (hc1 : ¬cond0_1 i)
    (x0 : Vec F S1024x1408 .f32) (x1 : Vec F S1408x64 .f32) (y : S1024x64.Idx) :
    ∃ pc ∈ (kernelRun0_A c i arg2 harg2 arg3 harg3 arg4 harg4 arg5 harg5 arg6 harg6 arg7 harg7 hc0 hc1 x0 x1).1, y ∈ pc.1.set :=
  View.cover_of_tiledL (kernelRun0_A c i arg2 harg2 arg3 harg3 arg4 harg4 arg5 harg5 arg6 harg6 arg7 harg7 hc0 hc1 x0 x1).1 S1024x64.size (by sl_kernel_rfl) y
/-- What that point leaves in the matrix accumulator: its stores read back. -/
def sout0_A_0 (c : Dev nD) (i : grid0.Coords) (arg2 : Memref sig .tc .vmem S1024x1408 .f32) (harg2 : arg2.IsWhole) (arg3 : Memref sig .tc .vmem S1408x64 .f32) (harg3 : arg3.IsWhole) (arg4 : Memref sig .tc .vmem S1024x64 .f32) (harg4 : arg4.IsWhole) (arg5 : Memref sig .tc .vmem S1024x1 .f32) (harg5 : arg5.IsWhole) (arg6 : Memref sig .tc .vmem S1024x64 .f32) (harg6 : arg6.IsWhole) (arg7 : Memref sig .tc .vmem S1024x1 .f32) (harg7 : arg7.IsWhole) (hc0 : cond0_0 i) (hc1 : ¬cond0_1 i)
    (x0 : Vec F S1024x1408 .f32) (x1 : Vec F S1408x64 .f32) : Vec F S1024x64 .f32 :=
  VS0_0.read (Elt F) (VS0_0.writes (Elt F) VS0_0.junk (kernelRun0_A c i arg2 harg2 arg3 harg3 arg4 harg4 arg5 harg5 arg6 harg6 arg7 harg7 hc0 hc1 x0 x1).1)
/-- The same for the column accumulator of row sums. -/
theorem scover0_A_1 (c : Dev nD) (i : grid0.Coords) (arg2 : Memref sig .tc .vmem S1024x1408 .f32) (harg2 : arg2.IsWhole) (arg3 : Memref sig .tc .vmem S1408x64 .f32) (harg3 : arg3.IsWhole) (arg4 : Memref sig .tc .vmem S1024x64 .f32) (harg4 : arg4.IsWhole) (arg5 : Memref sig .tc .vmem S1024x1 .f32) (harg5 : arg5.IsWhole) (arg6 : Memref sig .tc .vmem S1024x64 .f32) (harg6 : arg6.IsWhole) (arg7 : Memref sig .tc .vmem S1024x1 .f32) (harg7 : arg7.IsWhole) (hc0 : cond0_0 i) (hc1 : ¬cond0_1 i)
    (x0 : Vec F S1024x1408 .f32) (x1 : Vec F S1408x64 .f32) (y : S1024x1.Idx) :
    ∃ pc ∈ (kernelRun0_A c i arg2 harg2 arg3 harg3 arg4 harg4 arg5 harg5 arg6 harg6 arg7 harg7 hc0 hc1 x0 x1).2.1, y ∈ pc.1.set :=
  View.cover_of_tiledL (kernelRun0_A c i arg2 harg2 arg3 harg3 arg4 harg4 arg5 harg5 arg6 harg6 arg7 harg7 hc0 hc1 x0 x1).2.1 S1024x1.size (by sl_kernel_rfl) y
def sout0_A_1 (c : Dev nD) (i : grid0.Coords) (arg2 : Memref sig .tc .vmem S1024x1408 .f32) (harg2 : arg2.IsWhole) (arg3 : Memref sig .tc .vmem S1408x64 .f32) (harg3 : arg3.IsWhole) (arg4 : Memref sig .tc .vmem S1024x64 .f32) (harg4 : arg4.IsWhole) (arg5 : Memref sig .tc .vmem S1024x1 .f32) (harg5 : arg5.IsWhole) (arg6 : Memref sig .tc .vmem S1024x64 .f32) (harg6 : arg6.IsWhole) (arg7 : Memref sig .tc .vmem S1024x1 .f32) (harg7 : arg7.IsWhole) (hc0 : cond0_0 i) (hc1 : ¬cond0_1 i)
    (x0 : Vec F S1024x1408 .f32) (x1 : Vec F S1408x64 .f32) : Vec F S1024x1 .f32 :=
  VS0_1.read (Elt F) (VS0_1.writes (Elt F) VS0_1.junk (kernelRun0_A c i arg2 harg2 arg3 harg3 arg4 harg4 arg5 harg5 arg6 harg6 arg7 harg7 hc0 hc1 x0 x1).2.1)

/-- At a middle bucket block the stores into the matrix accumulator tile it, so they cover it. -/
theorem scover0_B_0 (c : Dev nD) (i : grid0.Coords) (arg2 : Memref sig .tc .vmem S1024x1408 .f32) (harg2 : arg2.IsWhole) (arg3 : Memref sig .tc .vmem S1408x64 .f32) (harg3 : arg3.IsWhole) (arg4 : Memref sig .tc .vmem S1024x64 .f32) (harg4 : arg4.IsWhole) (arg5 : Memref sig .tc .vmem S1024x1 .f32) (harg5 : arg5.IsWhole) (arg6 : Memref sig .tc .vmem S1024x64 .f32) (harg6 : arg6.IsWhole) (arg7 : Memref sig .tc .vmem S1024x1 .f32) (harg7 : arg7.IsWhole) (hc0 : ¬cond0_0 i) (hc1 : ¬cond0_1 i)
    (x0 : Vec F S1024x1408 .f32) (x1 : Vec F S1408x64 .f32) (xs0 : Vec F S1024x64 .f32) (xs1 : Vec F S1024x1 .f32) (y : S1024x64.Idx) :
    ∃ pc ∈ (kernelRun0_B c i arg2 harg2 arg3 harg3 arg4 harg4 arg5 harg5 arg6 harg6 arg7 harg7 hc0 hc1 x0 x1 xs0 xs1).1, y ∈ pc.1.set :=
  View.cover_of_tiledL (kernelRun0_B c i arg2 harg2 arg3 harg3 arg4 harg4 arg5 harg5 arg6 harg6 arg7 harg7 hc0 hc1 x0 x1 xs0 xs1).1 S1024x64.size (by sl_kernel_rfl) y
/-- What that point leaves in the matrix accumulator: its stores read back. -/
def sout0_B_0 (c : Dev nD) (i : grid0.Coords) (arg2 : Memref sig .tc .vmem S1024x1408 .f32) (harg2 : arg2.IsWhole) (arg3 : Memref sig .tc .vmem S1408x64 .f32) (harg3 : arg3.IsWhole) (arg4 : Memref sig .tc .vmem S1024x64 .f32) (harg4 : arg4.IsWhole) (arg5 : Memref sig .tc .vmem S1024x1 .f32) (harg5 : arg5.IsWhole) (arg6 : Memref sig .tc .vmem S1024x64 .f32) (harg6 : arg6.IsWhole) (arg7 : Memref sig .tc .vmem S1024x1 .f32) (harg7 : arg7.IsWhole) (hc0 : ¬cond0_0 i) (hc1 : ¬cond0_1 i)
    (x0 : Vec F S1024x1408 .f32) (x1 : Vec F S1408x64 .f32) (xs0 : Vec F S1024x64 .f32) (xs1 : Vec F S1024x1 .f32) : Vec F S1024x64 .f32 :=
  VS0_0.read (Elt F) (VS0_0.writes (Elt F) VS0_0.junk (kernelRun0_B c i arg2 harg2 arg3 harg3 arg4 harg4 arg5 harg5 arg6 harg6 arg7 harg7 hc0 hc1 x0 x1 xs0 xs1).1)
/-- The same for the column accumulator of row sums. -/
theorem scover0_B_1 (c : Dev nD) (i : grid0.Coords) (arg2 : Memref sig .tc .vmem S1024x1408 .f32) (harg2 : arg2.IsWhole) (arg3 : Memref sig .tc .vmem S1408x64 .f32) (harg3 : arg3.IsWhole) (arg4 : Memref sig .tc .vmem S1024x64 .f32) (harg4 : arg4.IsWhole) (arg5 : Memref sig .tc .vmem S1024x1 .f32) (harg5 : arg5.IsWhole) (arg6 : Memref sig .tc .vmem S1024x64 .f32) (harg6 : arg6.IsWhole) (arg7 : Memref sig .tc .vmem S1024x1 .f32) (harg7 : arg7.IsWhole) (hc0 : ¬cond0_0 i) (hc1 : ¬cond0_1 i)
    (x0 : Vec F S1024x1408 .f32) (x1 : Vec F S1408x64 .f32) (xs0 : Vec F S1024x64 .f32) (xs1 : Vec F S1024x1 .f32) (y : S1024x1.Idx) :
    ∃ pc ∈ (kernelRun0_B c i arg2 harg2 arg3 harg3 arg4 harg4 arg5 harg5 arg6 harg6 arg7 harg7 hc0 hc1 x0 x1 xs0 xs1).2.1, y ∈ pc.1.set :=
  View.cover_of_tiledL (kernelRun0_B c i arg2 harg2 arg3 harg3 arg4 harg4 arg5 harg5 arg6 harg6 arg7 harg7 hc0 hc1 x0 x1 xs0 xs1).2.1 S1024x1.size (by sl_kernel_rfl) y
def sout0_B_1 (c : Dev nD) (i : grid0.Coords) (arg2 : Memref sig .tc .vmem S1024x1408 .f32) (harg2 : arg2.IsWhole) (arg3 : Memref sig .tc .vmem S1408x64 .f32) (harg3 : arg3.IsWhole) (arg4 : Memref sig .tc .vmem S1024x64 .f32) (harg4 : arg4.IsWhole) (arg5 : Memref sig .tc .vmem S1024x1 .f32) (harg5 : arg5.IsWhole) (arg6 : Memref sig .tc .vmem S1024x64 .f32) (harg6 : arg6.IsWhole) (arg7 : Memref sig .tc .vmem S1024x1 .f32) (harg7 : arg7.IsWhole) (hc0 : ¬cond0_0 i) (hc1 : ¬cond0_1 i)
    (x0 : Vec F S1024x1408 .f32) (x1 : Vec F S1408x64 .f32) (xs0 : Vec F S1024x64 .f32) (xs1 : Vec F S1024x1 .f32) : Vec F S1024x1 .f32 :=
  VS0_1.read (Elt F) (VS0_1.writes (Elt F) VS0_1.junk (kernelRun0_B c i arg2 harg2 arg3 harg3 arg4 harg4 arg5 harg5 arg6 harg6 arg7 harg7 hc0 hc1 x0 x1 xs0 xs1).2.1)

/-- At the last bucket block the stores into the matrix accumulator tile it, so they cover it. -/
theorem scover0_C_0 (c : Dev nD) (i : grid0.Coords) (arg2 : Memref sig .tc .vmem S1024x1408 .f32) (harg2 : arg2.IsWhole) (arg3 : Memref sig .tc .vmem S1408x64 .f32) (harg3 : arg3.IsWhole) (arg4 : Memref sig .tc .vmem S1024x64 .f32) (harg4 : arg4.IsWhole) (arg5 : Memref sig .tc .vmem S1024x1 .f32) (harg5 : arg5.IsWhole) (arg6 : Memref sig .tc .vmem S1024x64 .f32) (harg6 : arg6.IsWhole) (arg7 : Memref sig .tc .vmem S1024x1 .f32) (harg7 : arg7.IsWhole) (hc0 : ¬cond0_0 i) (hc1 : cond0_1 i)
    (x0 : Vec F S1024x1408 .f32) (x1 : Vec F S1408x64 .f32) (xs0 : Vec F S1024x64 .f32) (xs1 : Vec F S1024x1 .f32) (y : S1024x64.Idx) :
    ∃ pc ∈ (kernelRun0_C c i arg2 harg2 arg3 harg3 arg4 harg4 arg5 harg5 arg6 harg6 arg7 harg7 hc0 hc1 x0 x1 xs0 xs1).2.2.1, y ∈ pc.1.set :=
  View.cover_of_tiledL (kernelRun0_C c i arg2 harg2 arg3 harg3 arg4 harg4 arg5 harg5 arg6 harg6 arg7 harg7 hc0 hc1 x0 x1 xs0 xs1).2.2.1 S1024x64.size (by sl_kernel_rfl) y
/-- What that point leaves in the matrix accumulator: its stores read back. -/
def sout0_C_0 (c : Dev nD) (i : grid0.Coords) (arg2 : Memref sig .tc .vmem S1024x1408 .f32) (harg2 : arg2.IsWhole) (arg3 : Memref sig .tc .vmem S1408x64 .f32) (harg3 : arg3.IsWhole) (arg4 : Memref sig .tc .vmem S1024x64 .f32) (harg4 : arg4.IsWhole) (arg5 : Memref sig .tc .vmem S1024x1 .f32) (harg5 : arg5.IsWhole) (arg6 : Memref sig .tc .vmem S1024x64 .f32) (harg6 : arg6.IsWhole) (arg7 : Memref sig .tc .vmem S1024x1 .f32) (harg7 : arg7.IsWhole) (hc0 : ¬cond0_0 i) (hc1 : cond0_1 i)
    (x0 : Vec F S1024x1408 .f32) (x1 : Vec F S1408x64 .f32) (xs0 : Vec F S1024x64 .f32) (xs1 : Vec F S1024x1 .f32) : Vec F S1024x64 .f32 :=
  VS0_0.read (Elt F) (VS0_0.writes (Elt F) VS0_0.junk (kernelRun0_C c i arg2 harg2 arg3 harg3 arg4 harg4 arg5 harg5 arg6 harg6 arg7 harg7 hc0 hc1 x0 x1 xs0 xs1).2.2.1)
/-- The same for the column accumulator of row sums. -/
theorem scover0_C_1 (c : Dev nD) (i : grid0.Coords) (arg2 : Memref sig .tc .vmem S1024x1408 .f32) (harg2 : arg2.IsWhole) (arg3 : Memref sig .tc .vmem S1408x64 .f32) (harg3 : arg3.IsWhole) (arg4 : Memref sig .tc .vmem S1024x64 .f32) (harg4 : arg4.IsWhole) (arg5 : Memref sig .tc .vmem S1024x1 .f32) (harg5 : arg5.IsWhole) (arg6 : Memref sig .tc .vmem S1024x64 .f32) (harg6 : arg6.IsWhole) (arg7 : Memref sig .tc .vmem S1024x1 .f32) (harg7 : arg7.IsWhole) (hc0 : ¬cond0_0 i) (hc1 : cond0_1 i)
    (x0 : Vec F S1024x1408 .f32) (x1 : Vec F S1408x64 .f32) (xs0 : Vec F S1024x64 .f32) (xs1 : Vec F S1024x1 .f32) (y : S1024x1.Idx) :
    ∃ pc ∈ (kernelRun0_C c i arg2 harg2 arg3 harg3 arg4 harg4 arg5 harg5 arg6 harg6 arg7 harg7 hc0 hc1 x0 x1 xs0 xs1).2.2.2.1, y ∈ pc.1.set :=
  View.cover_of_tiledL (kernelRun0_C c i arg2 harg2 arg3 harg3 arg4 harg4 arg5 harg5 arg6 harg6 arg7 harg7 hc0 hc1 x0 x1 xs0 xs1).2.2.2.1 S1024x1.size (by sl_kernel_rfl) y
def sout0_C_1 (c : Dev nD) (i : grid0.Coords) (arg2 : Memref sig .tc .vmem S1024x1408 .f32) (harg2 : arg2.IsWhole) (arg3 : Memref sig .tc .vmem S1408x64 .f32) (harg3 : arg3.IsWhole) (arg4 : Memref sig .tc .vmem S1024x64 .f32) (harg4 : arg4.IsWhole) (arg5 : Memref sig .tc .vmem S1024x1 .f32) (harg5 : arg5.IsWhole) (arg6 : Memref sig .tc .vmem S1024x64 .f32) (harg6 : arg6.IsWhole) (arg7 : Memref sig .tc .vmem S1024x1 .f32) (harg7 : arg7.IsWhole) (hc0 : ¬cond0_0 i) (hc1 : cond0_1 i)
    (x0 : Vec F S1024x1408 .f32) (x1 : Vec F S1408x64 .f32) (xs0 : Vec F S1024x64 .f32) (xs1 : Vec F S1024x1 .f32) : Vec F S1024x1 .f32 :=
  VS0_1.read (Elt F) (VS0_1.writes (Elt F) VS0_1.junk (kernelRun0_C c i arg2 harg2 arg3 harg3 arg4 harg4 arg5 harg5 arg6 harg6 arg7 harg7 hc0 hc1 x0 x1 xs0 xs1).2.2.2.1)

/-- At the last bucket block the store into each result block covers it. -/
theorem cover0_C_2 (c : Dev nD) (i : grid0.Coords) (arg2 : Memref sig .tc .vmem S1024x1408 .f32) (harg2 : arg2.IsWhole) (arg3 : Memref sig .tc .vmem S1408x64 .f32) (harg3 : arg3.IsWhole) (arg4 : Memref sig .tc .vmem S1024x64 .f32) (harg4 : arg4.IsWhole) (arg5 : Memref sig .tc .vmem S1024x1 .f32) (harg5 : arg5.IsWhole) (arg6 : Memref sig .tc .vmem S1024x64 .f32) (harg6 : arg6.IsWhole) (arg7 : Memref sig .tc .vmem S1024x1 .f32) (harg7 : arg7.IsWhole) (hc0 : ¬cond0_0 i) (hc1 : cond0_1 i)
    (x0 : Vec F S1024x1408 .f32) (x1 : Vec F S1408x64 .f32) (xs0 : Vec F S1024x64 .f32) (xs1 : Vec F S1024x1 .f32) (y : S1024x64.Idx) :
    ∃ pc ∈ (kernelRun0_C c i arg2 harg2 arg3 harg3 arg4 harg4 arg5 harg5 arg6 harg6 arg7 harg7 hc0 hc1 x0 x1 xs0 xs1).1, y ∈ pc.1.set :=
  View.cover_of_tiledL (kernelRun0_C c i arg2 harg2 arg3 harg3 arg4 harg4 arg5 harg5 arg6 harg6 arg7 harg7 hc0 hc1 x0 x1 xs0 xs1).1 S1024x64.size (by sl_kernel_rfl) y
/-- What it leaves in the pooled result's block. -/
def out0_C_2 (c : Dev nD) (i : grid0.Coords) (arg2 : Memref sig .tc .vmem S1024x1408 .f32) (harg2 : arg2.IsWhole) (arg3 : Memref sig .tc .vmem S1408x64 .f32) (harg3 : arg3.IsWhole) (arg4 : Memref sig .tc .vmem S1024x64 .f32) (harg4 : arg4.IsWhole) (arg5 : Memref sig .tc .vmem S1024x1 .f32) (harg5 : arg5.IsWhole) (arg6 : Memref sig .tc .vmem S1024x64 .f32) (harg6 : arg6.IsWhole) (arg7 : Memref sig .tc .vmem S1024x1 .f32) (harg7 : arg7.IsWhole) (hc0 : ¬cond0_0 i) (hc1 : cond0_1 i)
    (x0 : Vec F S1024x1408 .f32) (x1 : Vec F S1408x64 .f32) (xs0 : Vec F S1024x64 .f32) (xs1 : Vec F S1024x1 .f32) : Vec F S1024x64 .f32 :=
  VO0_2.read (Elt F) (VO0_2.writes (Elt F) VO0_2.junk (kernelRun0_C c i arg2 harg2 arg3 harg3 arg4 harg4 arg5 harg5 arg6 harg6 arg7 harg7 hc0 hc1 x0 x1 xs0 xs1).1)
theorem cover0_C_3 (c : Dev nD) (i : grid0.Coords) (arg2 : Memref sig .tc .vmem S1024x1408 .f32) (harg2 : arg2.IsWhole) (arg3 : Memref sig .tc .vmem S1408x64 .f32) (harg3 : arg3.IsWhole) (arg4 : Memref sig .tc .vmem S1024x64 .f32) (harg4 : arg4.IsWhole) (arg5 : Memref sig .tc .vmem S1024x1 .f32) (harg5 : arg5.IsWhole) (arg6 : Memref sig .tc .vmem S1024x64 .f32) (harg6 : arg6.IsWhole) (arg7 : Memref sig .tc .vmem S1024x1 .f32) (harg7 : arg7.IsWhole) (hc0 : ¬cond0_0 i) (hc1 : cond0_1 i)
    (x0 : Vec F S1024x1408 .f32) (x1 : Vec F S1408x64 .f32) (xs0 : Vec F S1024x64 .f32) (xs1 : Vec F S1024x1 .f32) (y : S1024x1.Idx) :
    ∃ pc ∈ (kernelRun0_C c i arg2 harg2 arg3 harg3 arg4 harg4 arg5 harg5 arg6 harg6 arg7 harg7 hc0 hc1 x0 x1 xs0 xs1).2.1, y ∈ pc.1.set :=
  View.cover_of_tiledL (kernelRun0_C c i arg2 harg2 arg3 harg3 arg4 harg4 arg5 harg5 arg6 harg6 arg7 harg7 hc0 hc1 x0 x1 xs0 xs1).2.1 S1024x1.size (by sl_kernel_rfl) y
/-- What it leaves in the row sums' block. -/
def out0_C_3 (c : Dev nD) (i : grid0.Coords) (arg2 : Memref sig .tc .vmem S1024x1408 .f32) (harg2 : arg2.IsWhole) (arg3 : Memref sig .tc .vmem S1408x64 .f32) (harg3 : arg3.IsWhole) (arg4 : Memref sig .tc .vmem S1024x64 .f32) (harg4 : arg4.IsWhole) (arg5 : Memref sig .tc .vmem S1024x1 .f32) (harg5 : arg5.IsWhole) (arg6 : Memref sig .tc .vmem S1024x64 .f32) (harg6 : arg6.IsWhole) (arg7 : Memref sig .tc .vmem S1024x1 .f32) (harg7 : arg7.IsWhole) (hc0 : ¬cond0_0 i) (hc1 : cond0_1 i)
    (x0 : Vec F S1024x1408 .f32) (x1 : Vec F S1408x64 .f32) (xs0 : Vec F S1024x64 .f32) (xs1 : Vec F S1024x1 .f32) : Vec F S1024x1 .f32 :=
  VO0_3.read (Elt F) (VO0_3.writes (Elt F) VO0_3.junk (kernelRun0_C c i arg2 harg2 arg3 harg3 arg4 harg4 arg5 harg5 arg6 harg6 arg7 harg7 hc0 hc1 x0 x1 xs0 xs1).2.1)

/-! ## The input blocks -/

/-- The block of the first argument (the multi-hot inputs) that point `t` reads: rows 1024·(t/71)…, columns 1408·(t%71)…,
    as the staging buffer holds it after the fetch. (The fetch fills the whole buffer; the filler is never seen.) -/
def xb0 (c : Dev nD) (t : Fin cfg0.N) : Vec F S1024x1408 .f32 :=
  (cfg0.win 0).fill (grid0.coords t) (fun _ => Classical.choice (Elt.nonempty F .f32)) (iblk m c 0 t)
/-- The block of the second argument (the embedding table) that point `t` reads: rows 1408·(t%71)…. -/
def xb1 (c : Dev nD) (t : Fin cfg0.N) : Vec F S1408x64 .f32 :=
  (cfg0.win 1).fill (grid0.coords t) (fun _ => Classical.choice (Elt.nonempty F .f32)) (iblk m c 1 t)

/-! ## What the buffers hold after each point -/

/-- After point `n`: the pooled result's staging buffer, the row sums' staging buffer, the matrix accumulator, the column
    accumulator. (Away from a last bucket block the first two components are placeholders: the result windows are idle
    there and nothing reads them.) -/
def outsAt0 (c : Dev nD) : (n : ℕ) → n < cfg0.N → Vec F S1024x64 .f32 × Vec F S1024x1 .f32 × Vec F S1024x64 .f32 × Vec F S1024x1 .f32
  | 0, hn => (sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) scM0_0 (Memref.isWhole_whole _) scM0_1 (Memref.isWhole_whole _) ((hcond0_0 ⟨0, hn⟩).mpr (Nat.zero_mod _)) (fun h => (fun h => by (try dsimp only at h); omega) ((hcond0_1 ⟨0, hn⟩).mp h)) (xb0 m c ⟨0, hn⟩) (xb1 m c ⟨0, hn⟩), sout0_A_1 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) scM0_0 (Memref.isWhole_whole _) scM0_1 (Memref.isWhole_whole _) ((hcond0_0 ⟨0, hn⟩).mpr (Nat.zero_mod _)) (fun h => (fun h => by (try dsimp only at h); omega) ((hcond0_1 ⟨0, hn⟩).mp h)) (xb0 m c ⟨0, hn⟩) (xb1 m c ⟨0, hn⟩), sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) scM0_0 (Memref.isWhole_whole _) scM0_1 (Memref.isWhole_whole _) ((hcond0_0 ⟨0, hn⟩).mpr (Nat.zero_mod _)) (fun h => (fun h => by (try dsimp only at h); omega) ((hcond0_1 ⟨0, hn⟩).mp h)) (xb0 m c ⟨0, hn⟩) (xb1 m c ⟨0, hn⟩), sout0_A_1 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) scM0_0 (Memref.isWhole_whole _) scM0_1 (Memref.isWhole_whole _) ((hcond0_0 ⟨0, hn⟩).mpr (Nat.zero_mod _)) (fun h => (fun h => by (try dsimp only at h); omega) ((hcond0_1 ⟨0, hn⟩).mp h)) (xb0 m c ⟨0, hn⟩) (xb1 m c ⟨0, hn⟩))
  | n + 1, hn =>
    if h0 : (n + 1) % 71 = 0 then
      if h1 : (n + 1) % 71 = 70 then
        False.elim (by omega)
      else
        (sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) scM0_1 (Memref.isWhole_whole _) ((hcond0_0 ⟨n + 1, hn⟩).mpr h0) (fun h => h1 ((hcond0_1 ⟨n + 1, hn⟩).mp h)) (xb0 m c ⟨n + 1, hn⟩) (xb1 m c ⟨n + 1, hn⟩), sout0_A_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) scM0_1 (Memref.isWhole_whole _) ((hcond0_0 ⟨n + 1, hn⟩).mpr h0) (fun h => h1 ((hcond0_1 ⟨n + 1, hn⟩).mp h)) (xb0 m c ⟨n + 1, hn⟩) (xb1 m c ⟨n + 1, hn⟩), sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) scM0_1 (Memref.isWhole_whole _) ((hcond0_0 ⟨n + 1, hn⟩).mpr h0) (fun h => h1 ((hcond0_1 ⟨n + 1, hn⟩).mp h)) (xb0 m c ⟨n + 1, hn⟩) (xb1 m c ⟨n + 1, hn⟩), sout0_A_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) scM0_1 (Memref.isWhole_whole _) ((hcond0_0 ⟨n + 1, hn⟩).mpr h0) (fun h => h1 ((hcond0_1 ⟨n + 1, hn⟩).mp h)) (xb0 m c ⟨n + 1, hn⟩) (xb1 m c ⟨n + 1, hn⟩))
    else
      if h1 : (n + 1) % 71 = 70 then
        (out0_C_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) scM0_1 (Memref.isWhole_whole _) (fun h => h0 ((hcond0_0 ⟨n + 1, hn⟩).mp h)) ((hcond0_1 ⟨n + 1, hn⟩).mpr h1) (xb0 m c ⟨n + 1, hn⟩) (xb1 m c ⟨n + 1, hn⟩) (outsAt0 c n (Nat.lt_of_succ_lt hn)).2.2.1 (outsAt0 c n (Nat.lt_of_succ_lt hn)).2.2.2, out0_C_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) scM0_1 (Memref.isWhole_whole _) (fun h => h0 ((hcond0_0 ⟨n + 1, hn⟩).mp h)) ((hcond0_1 ⟨n + 1, hn⟩).mpr h1) (xb0 m c ⟨n + 1, hn⟩) (xb1 m c ⟨n + 1, hn⟩) (outsAt0 c n (Nat.lt_of_succ_lt hn)).2.2.1 (outsAt0 c n (Nat.lt_of_succ_lt hn)).2.2.2, sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) scM0_1 (Memref.isWhole_whole _) (fun h => h0 ((hcond0_0 ⟨n + 1, hn⟩).mp h)) ((hcond0_1 ⟨n + 1, hn⟩).mpr h1) (xb0 m c ⟨n + 1, hn⟩) (xb1 m c ⟨n + 1, hn⟩) (outsAt0 c n (Nat.lt_of_succ_lt hn)).2.2.1 (outsAt0 c n (Nat.lt_of_succ_lt hn)).2.2.2, sout0_C_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) scM0_1 (Memref.isWhole_whole _) (fun h => h0 ((hcond0_0 ⟨n + 1, hn⟩).mp h)) ((hcond0_1 ⟨n + 1, hn⟩).mpr h1) (xb0 m c ⟨n + 1, hn⟩) (xb1 m c ⟨n + 1, hn⟩) (outsAt0 c n (Nat.lt_of_succ_lt hn)).2.2.1 (outsAt0 c n (Nat.lt_of_succ_lt hn)).2.2.2)
      else
        (sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) scM0_1 (Memref.isWhole_whole _) (fun h => h0 ((hcond0_0 ⟨n + 1, hn⟩).mp h)) (fun h => h1 ((hcond0_1 ⟨n + 1, hn⟩).mp h)) (xb0 m c ⟨n + 1, hn⟩) (xb1 m c ⟨n + 1, hn⟩) (outsAt0 c n (Nat.lt_of_succ_lt hn)).2.2.1 (outsAt0 c n (Nat.lt_of_succ_lt hn)).2.2.2, sout0_B_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) scM0_1 (Memref.isWhole_whole _) (fun h => h0 ((hcond0_0 ⟨n + 1, hn⟩).mp h)) (fun h => h1 ((hcond0_1 ⟨n + 1, hn⟩).mp h)) (xb0 m c ⟨n + 1, hn⟩) (xb1 m c ⟨n + 1, hn⟩) (outsAt0 c n (Nat.lt_of_succ_lt hn)).2.2.1 (outsAt0 c n (Nat.lt_of_succ_lt hn)).2.2.2, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) scM0_1 (Memref.isWhole_whole _) (fun h => h0 ((hcond0_0 ⟨n + 1, hn⟩).mp h)) (fun h => h1 ((hcond0_1 ⟨n + 1, hn⟩).mp h)) (xb0 m c ⟨n + 1, hn⟩) (xb1 m c ⟨n + 1, hn⟩) (outsAt0 c n (Nat.lt_of_succ_lt hn)).2.2.1 (outsAt0 c n (Nat.lt_of_succ_lt hn)).2.2.2, sout0_B_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) scM0_1 (Memref.isWhole_whole _) (fun h => h0 ((hcond0_0 ⟨n + 1, hn⟩).mp h)) (fun h => h1 ((hcond0_1 ⟨n + 1, hn⟩).mp h)) (xb0 m c ⟨n + 1, hn⟩) (xb1 m c ⟨n + 1, hn⟩) (outsAt0 c n (Nat.lt_of_succ_lt hn)).2.2.1 (outsAt0 c n (Nat.lt_of_succ_lt hn)).2.2.2)

theorem outsAt0_A (c : Dev nD) (t : Fin cfg0.N) (h0 : t.val % 71 = 0) (h1 : ¬t.val % 71 = 70) :
    outsAt0 m c t.val t.isLt = (sout0_A_0 c (grid0.coords t) (ms0_0 t) (hs0_0 t) (ms0_1 t) (hs0_1 t) (ms0_2 t) (hs0_2 t) (ms0_3 t) (hs0_3 t) scM0_0 (Memref.isWhole_whole _) scM0_1 (Memref.isWhole_whole _) ((hcond0_0 t).mpr h0) (fun h => h1 ((hcond0_1 t).mp h)) (xb0 m c t) (xb1 m c t), sout0_A_1 c (grid0.coords t) (ms0_0 t) (hs0_0 t) (ms0_1 t) (hs0_1 t) (ms0_2 t) (hs0_2 t) (ms0_3 t) (hs0_3 t) scM0_0 (Memref.isWhole_whole _) scM0_1 (Memref.isWhole_whole _) ((hcond0_0 t).mpr h0) (fun h => h1 ((hcond0_1 t).mp h)) (xb0 m c t) (xb1 m c t), sout0_A_0 c (grid0.coords t) (ms0_0 t) (hs0_0 t) (ms0_1 t) (hs0_1 t) (ms0_2 t) (hs0_2 t) (ms0_3 t) (hs0_3 t) scM0_0 (Memref.isWhole_whole _) scM0_1 (Memref.isWhole_whole _) ((hcond0_0 t).mpr h0) (fun h => h1 ((hcond0_1 t).mp h)) (xb0 m c t) (xb1 m c t), sout0_A_1 c (grid0.coords t) (ms0_0 t) (hs0_0 t) (ms0_1 t) (hs0_1 t) (ms0_2 t) (hs0_2 t) (ms0_3 t) (hs0_3 t) scM0_0 (Memref.isWhole_whole _) scM0_1 (Memref.isWhole_whole _) ((hcond0_0 t).mpr h0) (fun h => h1 ((hcond0_1 t).mp h)) (xb0 m c t) (xb1 m c t)) := by
  obtain ⟨n, hn⟩ := t
  cases n with
  | zero => exact rfl
  | succ n => exact (dif_pos h0).trans ((dif_neg h1).trans rfl)

theorem outsAt0_B (c : Dev nD) (t : Fin cfg0.N) (h0 : ¬t.val % 71 = 0) (h1 : ¬t.val % 71 = 70) :
    outsAt0 m c t.val t.isLt = (sout0_B_0 c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) (fun h => h1 ((hcond0_1 t).mp h)) (xb0 m c t) (xb1 m c t) (outsAt0 m c (t.val - 1) (Nat.lt_of_le_of_lt (Nat.sub_le _ _) t.isLt)).2.2.1 (outsAt0 m c (t.val - 1) (Nat.lt_of_le_of_lt (Nat.sub_le _ _) t.isLt)).2.2.2, sout0_B_1 c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) (fun h => h1 ((hcond0_1 t).mp h)) (xb0 m c t) (xb1 m c t) (outsAt0 m c (t.val - 1) (Nat.lt_of_le_of_lt (Nat.sub_le _ _) t.isLt)).2.2.1 (outsAt0 m c (t.val - 1) (Nat.lt_of_le_of_lt (Nat.sub_le _ _) t.isLt)).2.2.2, sout0_B_0 c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) (fun h => h1 ((hcond0_1 t).mp h)) (xb0 m c t) (xb1 m c t) (outsAt0 m c (t.val - 1) (Nat.lt_of_le_of_lt (Nat.sub_le _ _) t.isLt)).2.2.1 (outsAt0 m c (t.val - 1) (Nat.lt_of_le_of_lt (Nat.sub_le _ _) t.isLt)).2.2.2, sout0_B_1 c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) (fun h => h1 ((hcond0_1 t).mp h)) (xb0 m c t) (xb1 m c t) (outsAt0 m c (t.val - 1) (Nat.lt_of_le_of_lt (Nat.sub_le _ _) t.isLt)).2.2.1 (outsAt0 m c (t.val - 1) (Nat.lt_of_le_of_lt (Nat.sub_le _ _) t.isLt)).2.2.2) := by
  obtain ⟨n, hn⟩ := t
  cases n with
  | zero => exact (by exfalso; (try dsimp only at h0); exact absurd (Nat.zero_mod _) h0)
  | succ n => exact (dif_neg h0).trans ((dif_neg h1).trans rfl)

theorem outsAt0_C (c : Dev nD) (t : Fin cfg0.N) (h0 : ¬t.val % 71 = 0) (h1 : t.val % 71 = 70) :
    outsAt0 m c t.val t.isLt = (out0_C_2 c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) ((hcond0_1 t).mpr h1) (xb0 m c t) (xb1 m c t) (outsAt0 m c (t.val - 1) (Nat.lt_of_le_of_lt (Nat.sub_le _ _) t.isLt)).2.2.1 (outsAt0 m c (t.val - 1) (Nat.lt_of_le_of_lt (Nat.sub_le _ _) t.isLt)).2.2.2, out0_C_3 c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) ((hcond0_1 t).mpr h1) (xb0 m c t) (xb1 m c t) (outsAt0 m c (t.val - 1) (Nat.lt_of_le_of_lt (Nat.sub_le _ _) t.isLt)).2.2.1 (outsAt0 m c (t.val - 1) (Nat.lt_of_le_of_lt (Nat.sub_le _ _) t.isLt)).2.2.2, sout0_C_0 c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) ((hcond0_1 t).mpr h1) (xb0 m c t) (xb1 m c t) (outsAt0 m c (t.val - 1) (Nat.lt_of_le_of_lt (Nat.sub_le _ _) t.isLt)).2.2.1 (outsAt0 m c (t.val - 1) (Nat.lt_of_le_of_lt (Nat.sub_le _ _) t.isLt)).2.2.2, sout0_C_1 c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) ((hcond0_1 t).mpr h1) (xb0 m c t) (xb1 m c t) (outsAt0 m c (t.val - 1) (Nat.lt_of_le_of_lt (Nat.sub_le _ _) t.isLt)).2.2.1 (outsAt0 m c (t.val - 1) (Nat.lt_of_le_of_lt (Nat.sub_le _ _) t.isLt)).2.2.2) := by
  obtain ⟨n, hn⟩ := t
  cases n with
  | zero => exact (by exfalso; (try dsimp only at h0); exact absurd (Nat.zero_mod _) h0)
  | succ n => exact (dif_neg h0).trans ((dif_pos h1).trans rfl)

/-! ## The region's invariant, point by point -/

/-- Before the first point: the two accumulators at anything. Afterwards: each at what the point before left. -/
def PhiS (c : Dev nD) : (n : ℕ) → n ≤ cfg0.N → sProp 𝕄
  | 0, _ => Pipeline.ΦA spec0 c
  | n + 1, hn => iprop(iprop(owns (c : Thread nD τ) scM0_0 fullShare ((outsAt0 m c n hn).2.2.1) ∗ owns (c : Thread nD τ) scM0_1 fullShare ((outsAt0 m c n hn).2.2.2)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM0_0 fullShare ((outsAt0 m c n hn).2.2.1) ∗ owns (c : Thread nD τ) scM0_1 fullShare ((outsAt0 m c n hn).2.2.2)) ∗ (∃ r, prngReg c r)) := rfl

theorem PhiS_pos (c : Dev nD) (n : ℕ) (h : n ≤ cfg0.N) (hz : n ≠ 0) :
    PhiS m c n h = iprop(iprop(owns (c : Thread nD τ) scM0_0 fullShare ((outsAt0 m c (n - 1) (by omega)).2.2.1) ∗ owns (c : Thread nD τ) scM0_1 fullShare ((outsAt0 m c (n - 1) (by omega)).2.2.2)) ∗ (∃ r, prngReg c r)) := by
  cases n with
  | zero => exact absurd rfl hz
  | succ n => rfl

/-! ## The pipeline's proof data -/

/-- The arrays as the region finds them; after the body at point `t` each input's buffer still at its block, the result
    buffers and the accumulators at `outsAt0`; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => xb0 m c t
    | ⟨1, _⟩ => xb1 m c t
    | ⟨2, _⟩ => (outsAt0 m c t.val t.isLt).1
    | ⟨3, _⟩ => (outsAt0 m c t.val t.isLt).2.1
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0_0 (c : Dev nD) (t : Fin cfg0.N) : (dats m 0 c).after 0 t = xb0 m c t := by dsimp only [dats]
theorem after0_1 (c : Dev nD) (t : Fin cfg0.N) : (dats m 0 c).after 1 t = xb1 m c t := by dsimp only [dats]
theorem after0_2 (c : Dev nD) (t : Fin cfg0.N) : (dats m 0 c).after 2 t = (outsAt0 m c t.val t.isLt).1 := by dsimp only [dats]
theorem after0_3 (c : Dev nD) (t : Fin cfg0.N) : (dats m 0 c).after 3 t = (outsAt0 m c t.val t.isLt).2.1 := by dsimp only [dats]

/-- Each input's staging buffer holds its block when the body runs: it is fetched at every point, and the fetch, which no
    array's end cuts, fills the buffer whatever it held. -/
theorem before0_0 (c : Dev nD) (t : Fin cfg0.N) (d) : (dats m 0 c).before 0 t d = xb0 m c t := by
  rw [(dats m 0 c).before_fetched 0 t (fetch0_0 t)]
  unfold Dat.fetched Dat.blockOf xb0 iblk
  rw [A_eq m c 0]
  exact Pipeline.fill_of_clip_none (cfg := cfg0) 0 (grid0.coords t) (clip0_0 t) _ _ _
theorem before0_1 (c : Dev nD) (t : Fin cfg0.N) (d) : (dats m 0 c).before 1 t d = xb1 m c t := by
  rw [(dats m 0 c).before_fetched 1 t (fetch0_1 t)]
  unfold Dat.fetched Dat.blockOf xb1 iblk
  rw [A_eq m c 1]
  exact Pipeline.fill_of_clip_none (cfg := cfg0) 1 (grid0.coords t) (clip0_1 t) _ _ _

/-! ## The body obligation, at a generic point -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t)

set_option maxHeartbeats 4800000 in
/-- The body at any point: the inputs' buffers hold their blocks; the closed forms say which case the point is in; the
    invariant hands the body the accumulators at what the point before left (at anything before the first point) and takes
    them back at this point's contents. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1]
  rw [show (dats m 0 c).owesAt () t.succ = (dats m 0 c).owesAt () t.castSucc from rfl]
  rw [show (dats m 0 c).Φ t.succ = PhiS m c (t.val + 1) t.isLt from rfl, PhiS_succ]
  have hN : t.val < 142 := lt_of_lt_of_eq t.isLt (show cfg0.N = 142 from N_0)
  by_cases h0 : t.val % 71 = 0
  · by_cases h1 : t.val % 71 = 70
    · exfalso; omega
    ·
      rw [show (dats m 0 c).leavesExact 0 t = owns (c : Thread nD τ) (ms0_0 t) fullShare ((dats m 0 c).after 0 t) from by
        unfold Dat.leavesExact; rw [liveAt0_0 t], after0_0]
      rw [show (dats m 0 c).leavesExact 1 t = owns (c : Thread nD τ) (ms0_1 t) fullShare ((dats m 0 c).after 1 t) from by
        unfold Dat.leavesExact; rw [liveAt0_1 t], after0_1]
      rw [Dat.leavesExact_idle (dats m 0 c) 2 t (idleAt0_2 t (fun h => h1 ((hcond0_1 t).mp h))) (noFlush0_2 t (fun h => h1 ((hcond0_1 t).mp h)))]
      rw [Dat.leavesExact_idle (dats m 0 c) 3 t (idleAt0_3 t (fun h => h1 ((hcond0_1 t).mp h))) (noFlush0_3 t (fun h => h1 ((hcond0_1 t).mp h)))]
      rw [outsAt0_A m c t h0 h1]
      unfold sout0_A_0 sout0_A_1; (try dsimp only)
      by_cases hz : t.val = 0
      · rw [PhiS_castSucc m c t, PhiS_zero m c _ _ hz, PhiA0_eq]
        iintro ⟨⟨⟨HS0, HS1⟩, Hg⟩, Ho, ⟨%d0, H0⟩, ⟨%d1, H1⟩, ⟨%d2, H2⟩, ⟨%d3, H3⟩⟩
        iapply ((kernelRun0_A c (grid0.coords t) (ms0_0 t) (hs0_0 t) (ms0_1 t) (hs0_1 t) (ms0_2 t) (hs0_2 t) (ms0_3 t) (hs0_3 t) scM0_0 (Memref.isWhole_whole _) scM0_1 (Memref.isWhole_whole _) ((hcond0_0 t).mpr h0) (fun h => h1 ((hcond0_1 t).mp h)) (xb0 m c t) (xb1 m c t)).2.2 _ _ Set.univ _)
        isplitl [H0]; · iexact H0
        isplitl [H1]; · iexact H1
        isplitl [H2]; · iexact H2
        isplitl [H3]; · iexact H3
        isplitl [HS0]; · iexact HS0
        isplitl [HS1]; · iexact HS1
        iintro ⟨H0, H1, H2, H3, ⟨%es0, HS0⟩, ⟨%es1, HS1⟩⟩
        isplitl [HS0 HS1 Hg]
        · isplitl [HS0 HS1]
          · isplitl [HS0]
            · unfold owns; iexists _; isplitr
              swap; · iexact HS0
              ipureintro; exact View.read_writes_of_cover _ _ _ _ _ (scover0_A_0 c (grid0.coords t) (ms0_0 t) (hs0_0 t) (ms0_1 t) (hs0_1 t) (ms0_2 t) (hs0_2 t) (ms0_3 t) (hs0_3 t) scM0_0 (Memref.isWhole_whole _) scM0_1 (Memref.isWhole_whole _) ((hcond0_0 t).mpr h0) (fun h => h1 ((hcond0_1 t).mp h)) (xb0 m c t) (xb1 m c t))
            · unfold owns; iexists _; isplitr
              swap; · iexact HS1
              ipureintro; exact View.read_writes_of_cover _ _ _ _ _ (scover0_A_1 c (grid0.coords t) (ms0_0 t) (hs0_0 t) (ms0_1 t) (hs0_1 t) (ms0_2 t) (hs0_2 t) (ms0_3 t) (hs0_3 t) scM0_0 (Memref.isWhole_whole _) scM0_1 (Memref.isWhole_whole _) ((hcond0_0 t).mpr h0) (fun h => h1 ((hcond0_1 t).mp h)) (xb0 m c t) (xb1 m c t))
          iexact Hg
        isplitl [Ho]; · iexact Ho
        isplitl [H0]; · iexact H0
        isplitl [H1]; · iexact H1
        isplitl [H2]; · iexists _; iexact H2
        iexists _; iexact H3

      · rw [PhiS_castSucc m c t, PhiS_pos m c _ _ hz]
        iintro ⟨⟨⟨HS0, HS1⟩, Hg⟩, Ho, ⟨%d0, H0⟩, ⟨%d1, H1⟩, ⟨%d2, H2⟩, ⟨%d3, H3⟩⟩
        iapply ((kernelRun0_A c (grid0.coords t) (ms0_0 t) (hs0_0 t) (ms0_1 t) (hs0_1 t) (ms0_2 t) (hs0_2 t) (ms0_3 t) (hs0_3 t) scM0_0 (Memref.isWhole_whole _) scM0_1 (Memref.isWhole_whole _) ((hcond0_0 t).mpr h0) (fun h => h1 ((hcond0_1 t).mp h)) (xb0 m c t) (xb1 m c t)).2.2 _ _ Set.univ _)
        isplitl [H0]; · iexact H0
        isplitl [H1]; · iexact H1
        isplitl [H2]; · iexact H2
        isplitl [H3]; · iexact H3
        isplitl [HS0]; · iexists _; iexact HS0
        isplitl [HS1]; · iexists _; iexact HS1
        iintro ⟨H0, H1, H2, H3, ⟨%es0, HS0⟩, ⟨%es1, HS1⟩⟩
        isplitl [HS0 HS1 Hg]
        · isplitl [HS0 HS1]
          · isplitl [HS0]
            · unfold owns; iexists _; isplitr
              swap; · iexact HS0
              ipureintro; exact View.read_writes_of_cover _ _ _ _ _ (scover0_A_0 c (grid0.coords t) (ms0_0 t) (hs0_0 t) (ms0_1 t) (hs0_1 t) (ms0_2 t) (hs0_2 t) (ms0_3 t) (hs0_3 t) scM0_0 (Memref.isWhole_whole _) scM0_1 (Memref.isWhole_whole _) ((hcond0_0 t).mpr h0) (fun h => h1 ((hcond0_1 t).mp h)) (xb0 m c t) (xb1 m c t))
            · unfold owns; iexists _; isplitr
              swap; · iexact HS1
              ipureintro; exact View.read_writes_of_cover _ _ _ _ _ (scover0_A_1 c (grid0.coords t) (ms0_0 t) (hs0_0 t) (ms0_1 t) (hs0_1 t) (ms0_2 t) (hs0_2 t) (ms0_3 t) (hs0_3 t) scM0_0 (Memref.isWhole_whole _) scM0_1 (Memref.isWhole_whole _) ((hcond0_0 t).mpr h0) (fun h => h1 ((hcond0_1 t).mp h)) (xb0 m c t) (xb1 m c t))
          iexact Hg
        isplitl [Ho]; · iexact Ho
        isplitl [H0]; · iexact H0
        isplitl [H1]; · iexact H1
        isplitl [H2]; · iexists _; iexact H2
        iexists _; iexact H3

  · by_cases h1 : t.val % 71 = 70
    ·
      rw [show (dats m 0 c).leavesExact 0 t = owns (c : Thread nD τ) (ms0_0 t) fullShare ((dats m 0 c).after 0 t) from by
        unfold Dat.leavesExact; rw [liveAt0_0 t], after0_0]
      rw [show (dats m 0 c).leavesExact 1 t = owns (c : Thread nD τ) (ms0_1 t) fullShare ((dats m 0 c).after 1 t) from by
        unfold Dat.leavesExact; rw [liveAt0_1 t], after0_1]
      rw [show (dats m 0 c).leavesExact 2 t = owns (c : Thread nD τ) (ms0_2 t) fullShare ((dats m 0 c).after 2 t) from by
        unfold Dat.leavesExact; rw [liveAt0_2 t ((hcond0_1 t).mpr h1)], after0_2]
      rw [show (dats m 0 c).leavesExact 3 t = owns (c : Thread nD τ) (ms0_3 t) fullShare ((dats m 0 c).after 3 t) from by
        unfold Dat.leavesExact; rw [liveAt0_3 t ((hcond0_1 t).mpr h1)], after0_3]
      rw [outsAt0_C m c t h0 h1]
      unfold out0_C_2 out0_C_3 sout0_C_0 sout0_C_1; (try dsimp only)
      by_cases hz : t.val = 0
      · exfalso; exact h0 (by rw [hz])
      · rw [PhiS_castSucc m c t, PhiS_pos m c _ _ hz]
        iintro ⟨⟨⟨HS0, HS1⟩, Hg⟩, Ho, ⟨%d0, H0⟩, ⟨%d1, H1⟩, ⟨%d2, H2⟩, ⟨%d3, H3⟩⟩
        iapply ((kernelRun0_C c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) ((hcond0_1 t).mpr h1) (xb0 m c t) (xb1 m c t) _ _).2.2.2.2 Set.univ _)
        isplitl [H0]; · iexact H0
        isplitl [H1]; · iexact H1
        isplitl [H2]; · iexists _; iexact H2
        isplitl [H3]; · iexists _; iexact H3
        isplitl [HS0]; · iexact HS0
        isplitl [HS1]; · iexact HS1
        iintro ⟨H0, H1, ⟨%e2, H2⟩, ⟨%e3, H3⟩, ⟨%es0, HS0⟩, ⟨%es1, HS1⟩⟩
        isplitl [HS0 HS1 Hg]
        · isplitl [HS0 HS1]
          · isplitl [HS0]
            · unfold owns; iexists _; isplitr
              swap; · iexact HS0
              ipureintro; exact View.read_writes_of_cover _ _ _ _ _ (scover0_C_0 c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) ((hcond0_1 t).mpr h1) (xb0 m c t) (xb1 m c t) (outsAt0 m c (t.val - 1) (Nat.lt_of_le_of_lt (Nat.sub_le _ _) t.isLt)).2.2.1 (outsAt0 m c (t.val - 1) (Nat.lt_of_le_of_lt (Nat.sub_le _ _) t.isLt)).2.2.2)
            · unfold owns; iexists _; isplitr
              swap; · iexact HS1
              ipureintro; exact View.read_writes_of_cover _ _ _ _ _ (scover0_C_1 c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) ((hcond0_1 t).mpr h1) (xb0 m c t) (xb1 m c t) (outsAt0 m c (t.val - 1) (Nat.lt_of_le_of_lt (Nat.sub_le _ _) t.isLt)).2.2.1 (outsAt0 m c (t.val - 1) (Nat.lt_of_le_of_lt (Nat.sub_le _ _) t.isLt)).2.2.2)
          iexact Hg
        isplitl [Ho]; · iexact Ho
        isplitl [H0]; · iexact H0
        isplitl [H1]; · iexact H1
        isplitl [H2]
        · unfold owns; iexists _; isplitr
          swap; · iexact H2
          ipureintro; exact View.read_writes_of_cover _ _ _ _ _ (cover0_C_2 c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) ((hcond0_1 t).mpr h1) (xb0 m c t) (xb1 m c t) (outsAt0 m c (t.val - 1) (Nat.lt_of_le_of_lt (Nat.sub_le _ _) t.isLt)).2.2.1 (outsAt0 m c (t.val - 1) (Nat.lt_of_le_of_lt (Nat.sub_le _ _) t.isLt)).2.2.2)
        · unfold owns; iexists _; isplitr
          swap; · iexact H3
          ipureintro; exact View.read_writes_of_cover _ _ _ _ _ (cover0_C_3 c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) ((hcond0_1 t).mpr h1) (xb0 m c t) (xb1 m c t) (outsAt0 m c (t.val - 1) (Nat.lt_of_le_of_lt (Nat.sub_le _ _) t.isLt)).2.2.1 (outsAt0 m c (t.val - 1) (Nat.lt_of_le_of_lt (Nat.sub_le _ _) t.isLt)).2.2.2)

    ·
      rw [show (dats m 0 c).leavesExact 0 t = owns (c : Thread nD τ) (ms0_0 t) fullShare ((dats m 0 c).after 0 t) from by
        unfold Dat.leavesExact; rw [liveAt0_0 t], after0_0]
      rw [show (dats m 0 c).leavesExact 1 t = owns (c : Thread nD τ) (ms0_1 t) fullShare ((dats m 0 c).after 1 t) from by
        unfold Dat.leavesExact; rw [liveAt0_1 t], after0_1]
      rw [Dat.leavesExact_idle (dats m 0 c) 2 t (idleAt0_2 t (fun h => h1 ((hcond0_1 t).mp h))) (noFlush0_2 t (fun h => h1 ((hcond0_1 t).mp h)))]
      rw [Dat.leavesExact_idle (dats m 0 c) 3 t (idleAt0_3 t (fun h => h1 ((hcond0_1 t).mp h))) (noFlush0_3 t (fun h => h1 ((hcond0_1 t).mp h)))]
      rw [outsAt0_B m c t h0 h1]
      unfold sout0_B_0 sout0_B_1; (try dsimp only)
      by_cases hz : t.val = 0
      · exfalso; exact h0 (by rw [hz])
      · rw [PhiS_castSucc m c t, PhiS_pos m c _ _ hz]
        iintro ⟨⟨⟨HS0, HS1⟩, Hg⟩, Ho, ⟨%d0, H0⟩, ⟨%d1, H1⟩, ⟨%d2, H2⟩, ⟨%d3, H3⟩⟩
        iapply ((kernelRun0_B c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) (fun h => h1 ((hcond0_1 t).mp h)) (xb0 m c t) (xb1 m c t) _ _).2.2 _ _ Set.univ _)
        isplitl [H0]; · iexact H0
        isplitl [H1]; · iexact H1
        isplitl [H2]; · iexact H2
        isplitl [H3]; · iexact H3
        isplitl [HS0]; · iexact HS0
        isplitl [HS1]; · iexact HS1
        iintro ⟨H0, H1, H2, H3, ⟨%es0, HS0⟩, ⟨%es1, HS1⟩⟩
        isplitl [HS0 HS1 Hg]
        · isplitl [HS0 HS1]
          · isplitl [HS0]
            · unfold owns; iexists _; isplitr
              swap; · iexact HS0
              ipureintro; exact View.read_writes_of_cover _ _ _ _ _ (scover0_B_0 c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) (fun h => h1 ((hcond0_1 t).mp h)) (xb0 m c t) (xb1 m c t) (outsAt0 m c (t.val - 1) (Nat.lt_of_le_of_lt (Nat.sub_le _ _) t.isLt)).2.2.1 (outsAt0 m c (t.val - 1) (Nat.lt_of_le_of_lt (Nat.sub_le _ _) t.isLt)).2.2.2)
            · unfold owns; iexists _; isplitr
              swap; · iexact HS1
              ipureintro; exact View.read_writes_of_cover _ _ _ _ _ (scover0_B_1 c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) (fun h => h1 ((hcond0_1 t).mp h)) (xb0 m c t) (xb1 m c t) (outsAt0 m c (t.val - 1) (Nat.lt_of_le_of_lt (Nat.sub_le _ _) t.isLt)).2.2.1 (outsAt0 m c (t.val - 1) (Nat.lt_of_le_of_lt (Nat.sub_le _ _) t.isLt)).2.2.2)
          iexact Hg
        isplitl [Ho]; · iexact Ho
        isplitl [H0]; · iexact H0
        isplitl [H1]; · iexact H1
        isplitl [H2]; · iexists _; iexact H2
        iexists _; iexact H3

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point the invariant gives the region's back: the accumulators' named contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨⟨HS0, HS1⟩, Hg⟩
  isplitl [HS0 HS1]
  · isplitl [HS0]
    · iexists _; iexact HS0
    · iexists _; iexact HS1
  iexact Hg

theorem hout (c : Dev nD) : (dats m 0 c).Φ (Fin.last cfg0.N) ⊢ Pipeline.ΦA spec0 c :=
  Phi_out m c _ (by rw [Fin.val_last]; have : cfg0.N = 142 := N_0; omega)

/-! ## The run and the frame -/

set_option backward.isDefEq.respectTransparency.types false in
/-- For any values, from any memory with zero counters: every weakly fair execution of the program terminates, and every
    final state has each array of the pipeline at what the proof data compute, every other unscoped buffer as the host
    operations after the call leave it. -/
theorem run_main : θ_run defs (onTc (τ := τ) (main (F := F))) (s₀ m ρ) (Pipeline.FramePost cfgs (dats m) 0 (Pipeline.afterTail₀ cfgs (dats m) 0 (V0 m) [hostOps1, hostOps1_1])) :=
  Pipeline.θ_run_frame_around_track cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1, hostOps1_1]) (hsub := sfx_sub) (hfresh := sfx_fresh) (hkeep := sfx_keeps)
    (hmain := hmain m Variants.none) (hA := A_eq m) (hin := hin m) (hout := hout m)

/-- The program runs to its end without a fault and its two argument arrays end as they were. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_of m ρ (dats m) (A_eq m) (run_main m ρ)

end Cert.KernelIdeal.Body

end
-- ==== Proof.Tail.lean ====
/-
  The last step both programs share.

  Given a numerator array `o` of shape [2048, 64] and a denominator column `s` of shape [2048, 1], both programs finish
  in the same way: entry (b, d) of the result is `o (b, d) / s (b, 0)` where `s (b, 0) > 0`, and `0` elsewhere.
  It is kept as ONE function of `o` and `s`, so that the two programs' results are equal as soon as their numerators
  and their denominators are.
-/
import Idealize.ShloMosaic.PureOps.Ideal

noncomputable section

namespace Cert.Pool

open Idealize.ShloMosaic

/-- The shapes of the pooled output, of the column of row sums, and of a scalar. -/
abbrev SO : Shape := ⟨2, ![2048, 64]⟩
abbrev SS : Shape := ⟨2, ![2048, 1]⟩
abbrev S0 : Shape := ⟨0, ![]⟩

/-- `where(s > 0, o / s, 0)`, the column `s` repeated along the 64 output columns. -/
def tail (h1 : SS.BroadcastsInDim SO (![0, 1] : Fin 2 → Fin SO.rank)) (h2 : S0.BroadcastsInDim SS (![] : Fin 0 → Fin SS.rank))
    (h3 : S0.BroadcastsInDim SO (![] : Fin 0 → Fin SO.rank))
    (o : FVec Ideal SO .f32) (s : FVec Ideal SS .f32) : FVec Ideal SO .f32 :=
  select (broadcastInDim SO ![0, 1] h1 (cmpf .ogt s (broadcastInDim SS ![] h2 (constant (F := Ideal) S0 .f32 0x00000000#32))))
    (Host.divf (F := Ideal) o (broadcastInDim SO ![0, 1] h1 s))
    (broadcastInDim SO ![] h3 (constant (F := Ideal) S0 .f32 0x00000000#32))

end Cert.Pool

end
-- ==== Proof.LibColumnLayout.lean ====
/-
  Column layouts read at an index, and a row sum at the ideal instance.

  A sum over the last axis of an `[a, b]` array taken with the axis kept leaves a column `[a, 1]`. Three re-layings of such a
  column occur around it: the cast of a vector `[a]` to the column `[a, 1]`, the cast of a column `[a, 1]` to the row `[1, a]`
  (the same `a` numbers in the same row-major order), and the broadcast of a column `[a, 1]` along a new second extent to
  `[a, b]`. Each, read at an index, is the operand at the evident index: entry `(i, 0)` of the column is entry `i` of the vector,
  entry `(0, i)` of the row is entry `(i, 0)` of the column, and entry `(p, c)` of the broadcast is entry `(p, 0)` of the column.
  The host's `broadcast_in_dim` of a vector to a column along axis 0 reads the same way.

  On the extended reals a sum along the second axis of an `[a, b]` array, at row `p`, is the sum over `d` of the entries
  `(p, d)` — for a vector reduction and for the host's reduction from an initial value alike.
-/
import Idealize.ShloMosaic.Lib.ValueLayout
import Idealize.ShloMosaic.PureOps.Ideal.Laws

noncomputable section

namespace Cert.LibColumnLayout

open Idealize.ShloMosaic Idealize.ShloMosaic.ValueIdx

variable {α : Type}

/-! ## A vector as a column, a column as a row, a column broadcast along rows -/

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column cast to the row `[1, a]` reads, at `(u, i)`, the column at `(i, 0)`. -/
theorem shapeCast_a1_1a_apply {a : ℕ} (x : (⟨2, ![a, 1]⟩ : Shape).Idx → α) (h : (⟨2, ![a, 1]⟩ : Shape).ShapeCasts ⟨2, ![1, a]⟩)
    (u : Fin 1) (i : Fin a) : shapeCast ⟨2, ![1, a]⟩ x h (ix2 u i) = x (ix2 i (0 : Fin 1)) :=
  shapeCast_apply x h _ _ (by
    have hu : u.val = 0 := by omega
    rw [Shape.rowMajor_val_two, Shape.rowMajor_val_two]
    show i.val * 1 + 0 = u.val * a + i.val
    rw [hu, Nat.zero_mul, Nat.zero_add, Nat.mul_one, Nat.add_zero])

/-- An `[a, 1]` column broadcast to `[a, b]` reads, at `(p, c)`, the column at `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The host's broadcast of an `[a]` array to the column `[a, 1]` along axis 0 reads, at `(i, u)`, the operand at `i`. -/
theorem broadcastInDim_a_a1_apply {a : ℕ} (x : (⟨1, ![a]⟩ : Shape).Idx → α)
    (h : (⟨1, ![a]⟩ : Shape).BroadcastsInDim ⟨2, ![a, 1]⟩ ![0]) (i : Fin a) (u : Fin 1) :
    broadcastInDim ⟨2, ![a, 1]⟩ ![0] h x (ix2 i u) = x (ix1 i) := by
  refine broadcastInDim_apply _ h x (ix2 i u) (ix1 i) fun ax => ?_
  match ax with
  | ⟨0, _⟩ =>
    show i.val = if a = 1 then 0 else i.val
    split
    · have := i.isLt; omega
    · rfl

/-! ## A sum along the second axis, on the extended reals -/

/-- A vector reduction by addition along the second axis of an `[a, b]` array, at row `p`: the sum of that row. -/
theorem multiReduction_add_rows_apply {a b : ℕ} (src : FVec Ideal ⟨2, ![a, b]⟩ .f32) (acc : BitVec 32)
    (h : (⟨2, ![a, b]⟩ : Shape).Reduces [1] ⟨1, ![a]⟩) (hφ : FKind.Formats .f32) (hacc : acc = FKind.add.neutral .f32 hφ)
    (p : Fin a) : multiReduction .add [1] ⟨1, ![a]⟩ src acc h hφ hacc (ix1 p) = ∑ d : Fin b, src (ix2 p d) := by
  refine (Ideal.multiReduction_add_single src acc h hφ hacc (ix1 p)).trans ?_
  refine Finset.sum_congr rfl fun d _ => congrArg src ?_
  funext ax; apply Fin.ext
  match ax with
  | ⟨0, _⟩ => rfl
  | ⟨1, _⟩ => rfl

/-- The host's reduction by addition along the second axis from an initial value, at row `p`: the initial value plus the
    sum of that row. -/
theorem hostReduceAdd_rows_apply {a b : ℕ} (h' : (⟨2, ![a, b]⟩ : Shape).ReducesTo [1] ⟨1, ![a]⟩)
    (h : (⟨2, ![a, b]⟩ : Shape).Reduces [1] ⟨1, ![a]⟩) (x : (⟨2, ![a, b]⟩ : Shape).Idx → EReal) (init : EReal) (p : Fin a) :
    Ideal.hostReduceAdd h' x init (ix1 p) = init + ∑ d : Fin b, x (ix2 p d) := by
  refine (Ideal.hostReduceAdd_single h' h x init (ix1 p)).trans ?_
  refine congrArg (init + ·) (Finset.sum_congr rfl fun d _ => congrArg x ?_)
  funext ax; apply Fin.ext
  match ax with
  | ⟨0, _⟩ => rfl
  | ⟨1, _⟩ => rfl

end Cert.LibColumnLayout

end
-- ==== Proof.RefSide.lean ====
/-
  The reference program read as "numerator, denominator, shared last step".

  The reference computes, for inputs x of shape [2048, 100000] and e of shape [100000, 64], the numerator
  num (b, d) = ∑ k, x (b, k) * e (k, d), the denominator column den (b, 0) = 0 + ∑ k, x (b, k), and then the entry
  (b, d) of its result is num (b, d) / den (b, 0) where den (b, 0) > 0 and 0 elsewhere. This file names the numerator and
  the denominator as functions of the inputs, restates the reference's result as the shared last step applied to them,
  and reads both at an index as plain sums over the 100000 contracted positions.
-/
import proofs.«114592_j12567074308161_1_alg».proof.Defs
import proofs.«114592_j12567074308161_1_alg».proof.Proof.Gen.ReferenceIdeal
import proofs.«114592_j12567074308161_1_alg».proof.Proof.Gen.ReferenceIdeal.Run
import proofs.«114592_j12567074308161_1_alg».proof.Proof.Gen.ReferenceIdeal.Read
import proofs.«114592_j12567074308161_1_alg».proof.Proof.Gen.Pre_finite_inputs
import proofs.«114592_j12567074308161_1_alg».proof.Proof.Tail
import proofs.«114592_j12567074308161_1_alg».proof.Proof.LibColumnLayout
import Idealize.ShloMosaic.Lib.ValueIdx
import Idealize.ShloMosaic.Lib.Pipeline.Value
import Idealize.ShloMosaic.Lib.StableHlo.Run
import Idealize.ShloMosaic.PureOps.Ideal.Laws

noncomputable section

namespace Cert.ReferenceIdeal.RefValue

open Cert.ReferenceIdeal Cert.ReferenceIdeal.Gen Idealize.ShloMosaic Idealize.ShloMosaic.TcCoe Idealize.SL.Sem
  Idealize.ShloMosaic.StableHlo

/-- The numerator: the matrix product of the two inputs. -/
def refNum (x : FVec Ideal S2048x100000 .f32) (e : FVec Ideal S100000x64 .f32) : FVec Ideal S2048x64 .f32 :=
  Host.dotGeneral (F := Ideal) dot_S2048x100000_S100000x64_S2048x64_1_0_0_1_n_n none x e

/-- The denominator: the row sums of the first input from the initial value zero, laid out as a column. -/
def refDen (x : FVec Ideal S2048x100000 .f32) : FVec Ideal S2048x1 .f32 :=
  broadcastInDim S2048x1 ![0] bcast_S2048_S2048x1_0
    (Host.reduceAdd (F := Ideal) x (constant (F := Ideal) S_ .f32 0x00000000#32) reducesTo_S2048x100000_S2048_d1 h_S_)

/-- Every run of the reference ends with its result the shared last step of the numerator and the denominator, and with
    its inputs unchanged. -/
theorem run_tail (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v8)
          = Cert.Pool.tail bcast_S2048x1_S2048x64_0_1 bcast_S_S2048x1 bcast_S_S2048x64
              (refNum (m ((c.tc : Thread nD τ).loc main_arg0)) (m ((c.tc : Thread nD τ).loc main_arg1)))
              (refDen (m ((c.tc : Thread nD τ).loc main_arg0)))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c).1.trans rfl, (h c).2⟩) (Cert.ReferenceIdeal.Value.run (F := Ideal) m ρ)

/-- The numerator at (b, d): the sum over the 100000 contracted positions of the products x (b, k) * e (k, d). -/
theorem refNum_apply (x : FVec Ideal S2048x100000 .f32) (e : FVec Ideal S100000x64 .f32) (b : Fin 2048) (d : Fin 64) :
    refNum x e (ValueIdx.ix2 b d) = ∑ k : Fin 100000, x (ValueIdx.ix2 b k) * e (ValueIdx.ix2 k d) := by
  refine (Cert.ReferenceIdeal.Read.val_main_v0_apply x e (ValueIdx.ix2 b d)).trans ?_
  refine Finset.sum_congr rfl fun k _ => ?_
  -- the product's operand positions at output (b, d) and contracted position k are (b, k) and (k, d)
  have hl : Cert.ReferenceIdeal.Read.lidx_main_v0 (ValueIdx.ix2 b d) k = ValueIdx.ix2 b k :=
    funext fun a => match a with | ⟨0, _⟩ => rfl | ⟨1, _⟩ => rfl
  have hr : Cert.ReferenceIdeal.Read.ridx_main_v0 (ValueIdx.ix2 b d) k = ValueIdx.ix2 k d :=
    funext fun a => match a with | ⟨0, _⟩ => rfl | ⟨1, _⟩ => rfl
  rw [hl, hr]

/-- The denominator at (b, 0): the sum of row b of the first input (the initial value is zero). -/
theorem refDen_apply (x : FVec Ideal S2048x100000 .f32) (b : Fin 2048) (u : Fin 1) :
    refDen x (ValueIdx.ix2 b u) = ∑ k : Fin 100000, x (ValueIdx.ix2 b k) := by
  unfold refDen
  refine (Cert.LibColumnLayout.broadcastInDim_a_a1_apply _ bcast_S2048_S2048x1_0 b u).trans ?_
  show Ideal.hostReduceAdd reducesTo_S2048x100000_S2048_d1 x (Ideal.ofBits .f32 0x00000000#32) (ValueIdx.ix1 b) = _
  refine (Cert.LibColumnLayout.hostReduceAdd_rows_apply reducesTo_S2048x100000_S2048_d1 (by decide) x _ b).trans ?_
  rw [Ideal.ofBits_zero_f32, zero_add]

/-- The reference runs and leaves its inputs unchanged. -/
theorem frame_ri : Cert.frame_ReferenceIdeal := fun m ρ _ =>
  (θ_run Cert.ReferenceIdeal.defs _ _).mono (fun _ h c => (h c).2) (Cert.ReferenceIdeal.Value.run (F := Ideal) m ρ)

end Cert.ReferenceIdeal.RefValue

end
-- ==== Proof.KiPieces.lean ====
/-
  What the kernel's body leaves in the buffers it stores into, as values.

  At a grid point the body's stores each fill a whole buffer, so what a buffer holds afterwards is the value of the last
  store into it. At a first bucket block the accumulators are first set to zero and read back, so they end at the block's
  product added to zero and at the block's row sums added to zero; at a middle or last block they end at the product and the
  row sums added to what they held before. At a last block the two result blocks receive a copy of the accumulators taken
  after that addition, so they hold the same values.
-/
import proofs.«114592_j12567074308161_1_alg».proof.Proof.KiFrame
import Idealize.ShloMosaic.Lib.Pipeline.Value
import Idealize.ShloMosaic.Lib.Tactic

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The two zero offsets of a whole-buffer access, as the constant function. -/
theorem hz00 : (![0, 0] : Fin 2 → Nat) = fun _ => 0 := funext fun a => by fin_cases a <;> rfl

/-! ## First bucket block: the accumulators restart from zero -/

/-- The matrix accumulator ends at the zero block plus the product of the two input blocks. -/
theorem sout0_A_0_eq (c : Dev nD) (i : grid0.Coords) (arg2 : Memref sig .tc .vmem S1024x1408 .f32) (harg2 : arg2.IsWhole) (arg3 : Memref sig .tc .vmem S1408x64 .f32) (harg3 : arg3.IsWhole) (arg4 : Memref sig .tc .vmem S1024x64 .f32) (harg4 : arg4.IsWhole) (arg5 : Memref sig .tc .vmem S1024x1 .f32) (harg5 : arg5.IsWhole) (arg6 : Memref sig .tc .vmem S1024x64 .f32) (harg6 : arg6.IsWhole) (arg7 : Memref sig .tc .vmem S1024x1 .f32) (harg7 : arg7.IsWhole) (hc0 : cond0_0 i) (hc1 : ¬cond0_1 i)
    (x0 : Vec F S1024x1408 .f32) (x1 : Vec F S1408x64 .f32) :
    sout0_A_0 c i arg2 harg2 arg3 harg3 arg4 harg4 arg5 harg5 arg6 harg6 arg7 harg7 hc0 hc1 x0 x1 = Gen.k0_pay3 x0 x1 (Gen.k0_pay1 (F := F)) := by
  unfold sout0_A_0
  rw [View.read_writes_eq_canon _ _ _ (scover0_A_0 c i arg2 harg2 arg3 harg3 arg4 harg4 arg5 harg5 arg6 harg6 arg7 harg7 hc0 hc1 x0 x1)]
  unfold kernelRun0_A
  dsimp only
  sl_unfold_words
  rw [View.canon_cons_unit_zero (S := S1024x64) hz00, View.readCov_unit_zero (S := S1024x64) _ hz00]
  simp only [View.readAt_eq_ld, harg2.read_unread, harg3.read_unread, View.ld_unit_zero (S := S1024x1408) hz00,
    View.ld_unit_zero (S := S1408x64) hz00]

/-- The column accumulator ends at the zero column plus the row sums of the first input block. -/
theorem sout0_A_1_eq (c : Dev nD) (i : grid0.Coords) (arg2 : Memref sig .tc .vmem S1024x1408 .f32) (harg2 : arg2.IsWhole) (arg3 : Memref sig .tc .vmem S1408x64 .f32) (harg3 : arg3.IsWhole) (arg4 : Memref sig .tc .vmem S1024x64 .f32) (harg4 : arg4.IsWhole) (arg5 : Memref sig .tc .vmem S1024x1 .f32) (harg5 : arg5.IsWhole) (arg6 : Memref sig .tc .vmem S1024x64 .f32) (harg6 : arg6.IsWhole) (arg7 : Memref sig .tc .vmem S1024x1 .f32) (harg7 : arg7.IsWhole) (hc0 : cond0_0 i) (hc1 : ¬cond0_1 i)
    (x0 : Vec F S1024x1408 .f32) (x1 : Vec F S1408x64 .f32) :
    sout0_A_1 c i arg2 harg2 arg3 harg3 arg4 harg4 arg5 harg5 arg6 harg6 arg7 harg7 hc0 hc1 x0 x1 = Gen.k0_pay4 x0 (Gen.k0_pay2 (F := F)) := by
  unfold sout0_A_1
  rw [View.read_writes_eq_canon _ _ _ (scover0_A_1 c i arg2 harg2 arg3 harg3 arg4 harg4 arg5 harg5 arg6 harg6 arg7 harg7 hc0 hc1 x0 x1)]
  unfold kernelRun0_A
  dsimp only
  sl_unfold_words
  rw [View.canon_cons_unit_zero (S := S1024x1) hz00, View.readCov_unit_zero (S := S1024x1) _ hz00]
  simp only [View.readAt_eq_ld, harg2.read_unread, View.ld_unit_zero (S := S1024x1408) hz00]

/-! ## Middle bucket block: the accumulators are added to -/

/-- The matrix accumulator ends at its previous contents plus the product of the two input blocks. -/
theorem sout0_B_0_eq (c : Dev nD) (i : grid0.Coords) (arg2 : Memref sig .tc .vmem S1024x1408 .f32) (harg2 : arg2.IsWhole) (arg3 : Memref sig .tc .vmem S1408x64 .f32) (harg3 : arg3.IsWhole) (arg4 : Memref sig .tc .vmem S1024x64 .f32) (harg4 : arg4.IsWhole) (arg5 : Memref sig .tc .vmem S1024x1 .f32) (harg5 : arg5.IsWhole) (arg6 : Memref sig .tc .vmem S1024x64 .f32) (harg6 : arg6.IsWhole) (arg7 : Memref sig .tc .vmem S1024x1 .f32) (harg7 : arg7.IsWhole) (hc0 : ¬cond0_0 i) (hc1 : ¬cond0_1 i)
    (x0 : Vec F S1024x1408 .f32) (x1 : Vec F S1408x64 .f32) (xs0 : Vec F S1024x64 .f32) (xs1 : Vec F S1024x1 .f32) :
    sout0_B_0 c i arg2 harg2 arg3 harg3 arg4 harg4 arg5 harg5 arg6 harg6 arg7 harg7 hc0 hc1 x0 x1 xs0 xs1 = Gen.k0_pay3 x0 x1 xs0 := by
  unfold sout0_B_0
  rw [View.read_writes_eq_canon _ _ _ (scover0_B_0 c i arg2 harg2 arg3 harg3 arg4 harg4 arg5 harg5 arg6 harg6 arg7 harg7 hc0 hc1 x0 x1 xs0 xs1)]
  unfold kernelRun0_B
  dsimp only
  rw [View.canon_unit_zero (S := S1024x64) hz00]
  simp only [View.readAt_eq_ld, harg2.read_unread, harg3.read_unread, harg6.read_unread, View.ld_unit_zero (S := S1024x1408) hz00,
    View.ld_unit_zero (S := S1408x64) hz00, View.ld_unit_zero (S := S1024x64) hz00]

/-- The column accumulator ends at its previous contents plus the row sums of the first input block. -/
theorem sout0_B_1_eq (c : Dev nD) (i : grid0.Coords) (arg2 : Memref sig .tc .vmem S1024x1408 .f32) (harg2 : arg2.IsWhole) (arg3 : Memref sig .tc .vmem S1408x64 .f32) (harg3 : arg3.IsWhole) (arg4 : Memref sig .tc .vmem S1024x64 .f32) (harg4 : arg4.IsWhole) (arg5 : Memref sig .tc .vmem S1024x1 .f32) (harg5 : arg5.IsWhole) (arg6 : Memref sig .tc .vmem S1024x64 .f32) (harg6 : arg6.IsWhole) (arg7 : Memref sig .tc .vmem S1024x1 .f32) (harg7 : arg7.IsWhole) (hc0 : ¬cond0_0 i) (hc1 : ¬cond0_1 i)
    (x0 : Vec F S1024x1408 .f32) (x1 : Vec F S1408x64 .f32) (xs0 : Vec F S1024x64 .f32) (xs1 : Vec F S1024x1 .f32) :
    sout0_B_1 c i arg2 harg2 arg3 harg3 arg4 harg4 arg5 harg5 arg6 harg6 arg7 harg7 hc0 hc1 x0 x1 xs0 xs1 = Gen.k0_pay4 x0 xs1 := by
  unfold sout0_B_1
  rw [View.read_writes_eq_canon _ _ _ (scover0_B_1 c i arg2 harg2 arg3 harg3 arg4 harg4 arg5 harg5 arg6 harg6 arg7 harg7 hc0 hc1 x0 x1 xs0 xs1)]
  unfold kernelRun0_B
  dsimp only
  rw [View.canon_unit_zero (S := S1024x1) hz00]
  simp only [View.readAt_eq_ld, harg2.read_unread, harg7.read_unread, View.ld_unit_zero (S := S1024x1408) hz00,
    View.ld_unit_zero (S := S1024x1) hz00]

/-! ## Last bucket block: the accumulators are added to, then copied to the result blocks -/

/-- The matrix accumulator ends at its previous contents plus the product of the two input blocks. -/
theorem sout0_C_0_eq (c : Dev nD) (i : grid0.Coords) (arg2 : Memref sig .tc .vmem S1024x1408 .f32) (harg2 : arg2.IsWhole) (arg3 : Memref sig .tc .vmem S1408x64 .f32) (harg3 : arg3.IsWhole) (arg4 : Memref sig .tc .vmem S1024x64 .f32) (harg4 : arg4.IsWhole) (arg5 : Memref sig .tc .vmem S1024x1 .f32) (harg5 : arg5.IsWhole) (arg6 : Memref sig .tc .vmem S1024x64 .f32) (harg6 : arg6.IsWhole) (arg7 : Memref sig .tc .vmem S1024x1 .f32) (harg7 : arg7.IsWhole) (hc0 : ¬cond0_0 i) (hc1 : cond0_1 i)
    (x0 : Vec F S1024x1408 .f32) (x1 : Vec F S1408x64 .f32) (xs0 : Vec F S1024x64 .f32) (xs1 : Vec F S1024x1 .f32) :
    sout0_C_0 c i arg2 harg2 arg3 harg3 arg4 harg4 arg5 harg5 arg6 harg6 arg7 harg7 hc0 hc1 x0 x1 xs0 xs1 = Gen.k0_pay3 x0 x1 xs0 := by
  unfold sout0_C_0
  rw [View.read_writes_eq_canon _ _ _ (scover0_C_0 c i arg2 harg2 arg3 harg3 arg4 harg4 arg5 harg5 arg6 harg6 arg7 harg7 hc0 hc1 x0 x1 xs0 xs1)]
  unfold kernelRun0_C
  dsimp only
  sl_unfold_words
  rw [View.canon_unit_zero (S := S1024x64) hz00]
  simp only [View.readAt_eq_ld, harg2.read_unread, harg3.read_unread, harg6.read_unread, View.ld_unit_zero (S := S1024x1408) hz00,
    View.ld_unit_zero (S := S1408x64) hz00, View.ld_unit_zero (S := S1024x64) hz00]

/-- The column accumulator ends at its previous contents plus the row sums of the first input block. -/
theorem sout0_C_1_eq (c : Dev nD) (i : grid0.Coords) (arg2 : Memref sig .tc .vmem S1024x1408 .f32) (harg2 : arg2.IsWhole) (arg3 : Memref sig .tc .vmem S1408x64 .f32) (harg3 : arg3.IsWhole) (arg4 : Memref sig .tc .vmem S1024x64 .f32) (harg4 : arg4.IsWhole) (arg5 : Memref sig .tc .vmem S1024x1 .f32) (harg5 : arg5.IsWhole) (arg6 : Memref sig .tc .vmem S1024x64 .f32) (harg6 : arg6.IsWhole) (arg7 : Memref sig .tc .vmem S1024x1 .f32) (harg7 : arg7.IsWhole) (hc0 : ¬cond0_0 i) (hc1 : cond0_1 i)
    (x0 : Vec F S1024x1408 .f32) (x1 : Vec F S1408x64 .f32) (xs0 : Vec F S1024x64 .f32) (xs1 : Vec F S1024x1 .f32) :
    sout0_C_1 c i arg2 harg2 arg3 harg3 arg4 harg4 arg5 harg5 arg6 harg6 arg7 harg7 hc0 hc1 x0 x1 xs0 xs1 = Gen.k0_pay4 x0 xs1 := by
  unfold sout0_C_1
  rw [View.read_writes_eq_canon _ _ _ (scover0_C_1 c i arg2 harg2 arg3 harg3 arg4 harg4 arg5 harg5 arg6 harg6 arg7 harg7 hc0 hc1 x0 x1 xs0 xs1)]
  unfold kernelRun0_C
  dsimp only
  sl_unfold_words
  rw [View.canon_unit_zero (S := S1024x1) hz00]
  simp only [View.readAt_eq_ld, harg2.read_unread, harg7.read_unread, View.ld_unit_zero (S := S1024x1408) hz00,
    View.ld_unit_zero (S := S1024x1) hz00]

/-- The pooled result's block receives the matrix accumulator's new contents. -/
theorem out0_C_2_eq (c : Dev nD) (i : grid0.Coords) (arg2 : Memref sig .tc .vmem S1024x1408 .f32) (harg2 : arg2.IsWhole) (arg3 : Memref sig .tc .vmem S1408x64 .f32) (harg3 : arg3.IsWhole) (arg4 : Memref sig .tc .vmem S1024x64 .f32) (harg4 : arg4.IsWhole) (arg5 : Memref sig .tc .vmem S1024x1 .f32) (harg5 : arg5.IsWhole) (arg6 : Memref sig .tc .vmem S1024x64 .f32) (harg6 : arg6.IsWhole) (arg7 : Memref sig .tc .vmem S1024x1 .f32) (harg7 : arg7.IsWhole) (hc0 : ¬cond0_0 i) (hc1 : cond0_1 i)
    (x0 : Vec F S1024x1408 .f32) (x1 : Vec F S1408x64 .f32) (xs0 : Vec F S1024x64 .f32) (xs1 : Vec F S1024x1 .f32) :
    out0_C_2 c i arg2 harg2 arg3 harg3 arg4 harg4 arg5 harg5 arg6 harg6 arg7 harg7 hc0 hc1 x0 x1 xs0 xs1 = Gen.k0_pay3 x0 x1 xs0 := by
  unfold out0_C_2
  rw [View.read_writes_eq_canon _ _ _ (cover0_C_2 c i arg2 harg2 arg3 harg3 arg4 harg4 arg5 harg5 arg6 harg6 arg7 harg7 hc0 hc1 x0 x1 xs0 xs1)]
  unfold kernelRun0_C
  dsimp only
  sl_unfold_words
  rw [View.canon_unit_zero (S := S1024x64) hz00, View.readCov_unit_zero (S := S1024x64) _ hz00]
  simp only [View.readAt_eq_ld, harg2.read_unread, harg3.read_unread, harg6.read_unread, View.ld_unit_zero (S := S1024x1408) hz00,
    View.ld_unit_zero (S := S1408x64) hz00, View.ld_unit_zero (S := S1024x64) hz00]

/-- The row sums' block receives the column accumulator's new contents. -/
theorem out0_C_3_eq (c : Dev nD) (i : grid0.Coords) (arg2 : Memref sig .tc .vmem S1024x1408 .f32) (harg2 : arg2.IsWhole) (arg3 : Memref sig .tc .vmem S1408x64 .f32) (harg3 : arg3.IsWhole) (arg4 : Memref sig .tc .vmem S1024x64 .f32) (harg4 : arg4.IsWhole) (arg5 : Memref sig .tc .vmem S1024x1 .f32) (harg5 : arg5.IsWhole) (arg6 : Memref sig .tc .vmem S1024x64 .f32) (harg6 : arg6.IsWhole) (arg7 : Memref sig .tc .vmem S1024x1 .f32) (harg7 : arg7.IsWhole) (hc0 : ¬cond0_0 i) (hc1 : cond0_1 i)
    (x0 : Vec F S1024x1408 .f32) (x1 : Vec F S1408x64 .f32) (xs0 : Vec F S1024x64 .f32) (xs1 : Vec F S1024x1 .f32) :
    out0_C_3 c i arg2 harg2 arg3 harg3 arg4 harg4 arg5 harg5 arg6 harg6 arg7 harg7 hc0 hc1 x0 x1 xs0 xs1 = Gen.k0_pay4 x0 xs1 := by
  unfold out0_C_3
  rw [View.read_writes_eq_canon _ _ _ (cover0_C_3 c i arg2 harg2 arg3 harg3 arg4 harg4 arg5 harg5 arg6 harg6 arg7 harg7 hc0 hc1 x0 x1 xs0 xs1)]
  unfold kernelRun0_C
  dsimp only
  sl_unfold_words
  rw [View.canon_unit_zero (S := S1024x1) hz00, View.readCov_unit_zero (S := S1024x1) _ hz00]
  simp only [View.readAt_eq_ld, harg2.read_unread, harg7.read_unread, View.ld_unit_zero (S := S1024x1408) hz00,
    View.ld_unit_zero (S := S1024x1) hz00]

end Cert.KernelIdeal.Body

end
-- ==== Proof.KiBlocks.lean ====
/-
  The blocks of the pipeline's windows, read index by index.

  The grid is 2 x 71 and point `t` has the coordinates (t / 71, t % 71): the row block and the block of 1408 contracted
  positions. A block's coordinate on an axis is always (block index) x (block extent) + (coordinate inside the block). So
  entry (p, l) of the block of the first argument at point `t` is entry (1024 (t / 71) + p, 1408 (t % 71) + l) of the
  argument, entry (l, q) of the block of the second argument is entry (1408 (t % 71) + l, q), and entry (p, q) of a
  result's block is entry (1024 (t / 71) + p, q) of the result array. No input block reaches past the end of its array,
  so a fetch fills the whole staging buffer with the block. Each result's blocks are written back at the points with
  t % 71 = 70, and the two of them (row blocks 0 and 1) cover the result array: row r is in the block of the point
  71 (r / 1024) + 70.
-/
import proofs.«114592_j12567074308161_1_alg».proof.Proof.KiFrame
import Idealize.ShloMosaic.Lib.ValueIdx
import Idealize.ShloMosaic.Lib.Pipeline.Value

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ)

/-! ## The index maps over the grid -/

/-- The grid has 142 points. -/
theorem lt_N (t : Fin cfg0.N) : t.val < 142 := t.isLt

/-- The first argument's block index at point `t` is (t / 71, t % 71). -/
theorem index_arg0 : ∀ t : Fin cfg0.N, win0_0.index t (0 : Fin 2) = t.val / 71 ∧ win0_0.index t (1 : Fin 2) = t.val % 71 :=
  (by decide +kernel : ∀ t : Fin grid0.N, _)
/-- The second argument's is (t % 71, 0). -/
theorem index_arg1 : ∀ t : Fin cfg0.N, win0_1.index t (0 : Fin 2) = t.val % 71 ∧ win0_1.index t (1 : Fin 2) = 0 :=
  (by decide +kernel : ∀ t : Fin grid0.N, _)
/-- Each result's is (t / 71, 0). -/
theorem index_num : ∀ t : Fin cfg0.N, win0_2.index t (0 : Fin 2) = t.val / 71 ∧ win0_2.index t (1 : Fin 2) = 0 :=
  (by decide +kernel : ∀ t : Fin grid0.N, _)
theorem index_den : ∀ t : Fin cfg0.N, win0_3.index t (0 : Fin 2) = t.val / 71 ∧ win0_3.index t (1 : Fin 2) = 0 :=
  (by decide +kernel : ∀ t : Fin grid0.N, _)

/-! ## The input blocks as the staging buffers hold them -/

/-- A fetch that moves the whole block leaves the block's entry at every index of the buffer. -/
theorem fill_of_moved {G : Pipeline.Grid} (w : Window sig G) {α : Type} (i : G.Coords) (d : w.block.Idx → α)
    (g : (w.xblock i).Idx → α) (j : w.block.Idx) (hm : w.moved i j = true) :
    w.fill i d g j = g fun a => ⟨(j a).val, (w.moved_iff i j).mp hm a⟩ := by
  unfold Window.fill; rw [dif_pos hm]

/-- Entry (p, l) of the first argument's block at point `t`, whatever the buffer held before the fetch. -/
theorem fill_arg0_apply (c : Dev nD) (t : Fin cfg0.N) (d : (cfg0.win 0).block.Idx → Elt F .f32) (p : Fin 1024) (l : Fin 1408) :
    (cfg0.win 0).fill (grid0.coords t) d (iblk m c 0 t) (ValueIdx.ix2 p l)
      = m ((c : Thread nD τ).loc main_arg0) (ValueIdx.ix2 (⟨1024 * (t.val / 71) + p.val, by have := lt_N t; omega⟩ : Fin 2048)
          (⟨1408 * (t.val % 71) + l.val, by have := lt_N t; omega⟩ : Fin 100000)) := by
  have hm : (cfg0.win 0).moved (grid0.coords t) (ValueIdx.ix2 p l) = true :=
    ((cfg0.win 0).moved_iff _ _).mpr fun a => by
      have := (ValueIdx.ix2 p l a).isLt; unfold Window.xsize; rw [clip0_0 t a]; exact this
  refine (fill_of_moved (cfg0.win 0) _ d _ _ hm).trans ?_
  show m ((c : Thread nD τ).loc main_arg0) (((cfg0.win 0).blk t).view.emb _) = _
  refine congrArg (m ((c : Thread nD τ).loc main_arg0)) ?_
  obtain ⟨e0, e1⟩ := index_arg0 t
  funext a; apply Fin.ext
  match a with
  | ⟨0, _⟩ => show win0_0.index t (0 : Fin 2) * 1024 + 1 * p.val = 1024 * (t.val / 71) + p.val; omega
  | ⟨1, _⟩ => show win0_0.index t (1 : Fin 2) * 1408 + 1 * l.val = 1408 * (t.val % 71) + l.val; omega

/-- Entry (l, q) of the second argument's block at point `t`. -/
theorem fill_arg1_apply (c : Dev nD) (t : Fin cfg0.N) (d : (cfg0.win 1).block.Idx → Elt F .f32) (l : Fin 1408) (q : Fin 64) :
    (cfg0.win 1).fill (grid0.coords t) d (iblk m c 1 t) (ValueIdx.ix2 l q)
      = m ((c : Thread nD τ).loc main_arg1) (ValueIdx.ix2 (⟨1408 * (t.val % 71) + l.val, by have := lt_N t; omega⟩ : Fin 100000) q) := by
  have hm : (cfg0.win 1).moved (grid0.coords t) (ValueIdx.ix2 l q) = true :=
    ((cfg0.win 1).moved_iff _ _).mpr fun a => by
      have := (ValueIdx.ix2 l q a).isLt; unfold Window.xsize; rw [clip0_1 t a]; exact this
  refine (fill_of_moved (cfg0.win 1) _ d _ _ hm).trans ?_
  show m ((c : Thread nD τ).loc main_arg1) (((cfg0.win 1).blk t).view.emb _) = _
  refine congrArg (m ((c : Thread nD τ).loc main_arg1)) ?_
  obtain ⟨e0, e1⟩ := index_arg1 t
  funext a; apply Fin.ext
  match a with
  | ⟨0, _⟩ => show win0_1.index t (0 : Fin 2) * 1408 + 1 * l.val = 1408 * (t.val % 71) + l.val; omega
  | ⟨1, _⟩ => show win0_1.index t (1 : Fin 2) * 64 + 1 * q.val = q.val; omega

/-- The first argument's block as point `t` reads it. -/
theorem xb0_apply (c : Dev nD) (t : Fin cfg0.N) (p : Fin 1024) (l : Fin 1408) :
    xb0 m c t (ValueIdx.ix2 p l)
      = m ((c : Thread nD τ).loc main_arg0) (ValueIdx.ix2 (⟨1024 * (t.val / 71) + p.val, by have := lt_N t; omega⟩ : Fin 2048)
          (⟨1408 * (t.val % 71) + l.val, by have := lt_N t; omega⟩ : Fin 100000)) := by
  unfold xb0
  exact fill_arg0_apply m c t _ p l

/-- The second argument's block as point `t` reads it. -/
theorem xb1_apply (c : Dev nD) (t : Fin cfg0.N) (l : Fin 1408) (q : Fin 64) :
    xb1 m c t (ValueIdx.ix2 l q)
      = m ((c : Thread nD τ).loc main_arg1) (ValueIdx.ix2 (⟨1408 * (t.val % 71) + l.val, by have := lt_N t; omega⟩ : Fin 100000) q) := by
  unfold xb1
  exact fill_arg1_apply m c t _ l q

/-! ## The numerator's blocks: read at an index, and covering the array -/

/-- Entry (p, q) of block `t` of an array of the numerator's shape is its entry (1024 (t / 71) + p, q). -/
theorem read_blk2 (G : S2048x64.Idx → Elt F .f32) (t : Fin cfg0.N) (p : Fin 1024) (q : Fin 64) :
    ((cfg0.win 2).blk t).view.read (Elt F) G (ValueIdx.ix2 p q)
      = G (ValueIdx.ix2 (⟨1024 * (t.val / 71) + p.val, by have := lt_N t; omega⟩ : Fin 2048) q) := by
  show G (((cfg0.win 2).blk t).view.emb (ValueIdx.ix2 p q)) = _
  refine congrArg G ?_
  obtain ⟨e0, e1⟩ := index_num t
  funext a; apply Fin.ext
  match a with
  | ⟨0, _⟩ => show win0_2.index t (0 : Fin 2) * 1024 + 1 * p.val = 1024 * (t.val / 71) + p.val; omega
  | ⟨1, _⟩ => show win0_2.index t (1 : Fin 2) * 64 + 1 * q.val = q.val; omega

/-- An index is in block `t` iff each coordinate is in the block's range on its axis. -/
theorem mem_blk2 (t : Fin cfg0.N) (i : S2048x64.Idx) :
    i ∈ ((cfg0.win 2).blk t).view.set ↔ ∀ a : Fin 2, win0_2.index t a * S1024x64.size a ≤ (i a).val ∧ (i a).val < win0_2.index t a * S1024x64.size a + S1024x64.size a := by
  show i ∈ ((View.whole main_v0_0).slice (win0_2.rect t)).set ↔ _
  rw [View.set_slice_whole, Rect.mem_set_unit]
  exact Iff.rfl

/-- Every index of the numerator is in a block that is written back: row r in the block of the point 71 (r / 1024) + 70. -/
theorem cover2 : ∀ i : S2048x64.Idx, ∃ t : Fin cfg0.N, (cfg0.win 2).flush t = true ∧ i ∈ ((cfg0.win 2).blk t).view.set := by
  intro i
  have hi0 : (i 0).val < 2048 := (i 0).isLt
  have hi1 : (i 1).val < 64 := (i 1).isLt
  let t : Fin cfg0.N := ⟨71 * ((i 0).val / 1024) + 70, by show _ < 142; omega⟩
  have ht : t.val = 71 * ((i 0).val / 1024) + 70 := rfl
  refine ⟨t, (flush0_2 t).mpr (by rw [ht]; omega), ?_⟩
  obtain ⟨e0, e1⟩ := index_num t
  rw [mem_blk2]
  intro a
  match a with
  | ⟨0, _⟩ => show win0_2.index t (0 : Fin 2) * 1024 ≤ (i 0).val ∧ (i 0).val < win0_2.index t (0 : Fin 2) * 1024 + 1024; omega
  | ⟨1, _⟩ => show win0_2.index t (1 : Fin 2) * 64 ≤ (i 1).val ∧ (i 1).val < win0_2.index t (1 : Fin 2) * 64 + 64; omega

/-! ## The denominator's blocks -/

/-- Entry (p, u) of block `t` of an array of the denominator's shape is its entry (1024 (t / 71) + p, u). -/
theorem read_blk3 (G : S2048x1.Idx → Elt F .f32) (t : Fin cfg0.N) (p : Fin 1024) (u : Fin 1) :
    ((cfg0.win 3).blk t).view.read (Elt F) G (ValueIdx.ix2 p u)
      = G (ValueIdx.ix2 (⟨1024 * (t.val / 71) + p.val, by have := lt_N t; omega⟩ : Fin 2048) u) := by
  show G (((cfg0.win 3).blk t).view.emb (ValueIdx.ix2 p u)) = _
  refine congrArg G ?_
  obtain ⟨e0, e1⟩ := index_den t
  funext a; apply Fin.ext
  match a with
  | ⟨0, _⟩ => show win0_3.index t (0 : Fin 2) * 1024 + 1 * p.val = 1024 * (t.val / 71) + p.val; omega
  | ⟨1, _⟩ => show win0_3.index t (1 : Fin 2) * 1 + 1 * u.val = u.val; omega

theorem mem_blk3 (t : Fin cfg0.N) (i : S2048x1.Idx) :
    i ∈ ((cfg0.win 3).blk t).view.set ↔ ∀ a : Fin 2, win0_3.index t a * S1024x1.size a ≤ (i a).val ∧ (i a).val < win0_3.index t a * S1024x1.size a + S1024x1.size a := by
  show i ∈ ((View.whole main_v0_1).slice (win0_3.rect t)).set ↔ _
  rw [View.set_slice_whole, Rect.mem_set_unit]
  exact Iff.rfl

/-- Every index of the denominator is in a block that is written back. -/
theorem cover3 : ∀ i : S2048x1.Idx, ∃ t : Fin cfg0.N, (cfg0.win 3).flush t = true ∧ i ∈ ((cfg0.win 3).blk t).view.set := by
  intro i
  have hi0 : (i 0).val < 2048 := (i 0).isLt
  have hi1 : (i 1).val < 1 := (i 1).isLt
  let t : Fin cfg0.N := ⟨71 * ((i 0).val / 1024) + 70, by show _ < 142; omega⟩
  have ht : t.val = 71 * ((i 0).val / 1024) + 70 := rfl
  refine ⟨t, (flush0_3 t).mpr (by rw [ht]; omega), ?_⟩
  obtain ⟨e0, e1⟩ := index_den t
  rw [mem_blk3]
  intro a
  match a with
  | ⟨0, _⟩ => show win0_3.index t (0 : Fin 2) * 1024 ≤ (i 0).val ∧ (i 0).val < win0_3.index t (0 : Fin 2) * 1024 + 1024; omega
  | ⟨1, _⟩ => show win0_3.index t (1 : Fin 2) * 1 ≤ (i 1).val ∧ (i 1).val < win0_3.index t (1 : Fin 2) * 1 + 1; omega

end Cert.KernelIdeal.Body

end
-- ==== Proof.PayIdeal.lean ====
/-
  The arithmetic of one grid step of the pooling kernel, read at an index on the extended reals.

  At the first step along the contraction the two accumulators are filled with zeros. At every step the numerator
  accumulator, an array [1024, 64], gains the product of a block [1024, 1408] of the first input with a block
  [1408, 64] of the second: entry (p, q) gains the sum over l of X0 (p, l) * X1 (l, q) (the narrowing of the factors
  to a shorter format changes nothing on the extended reals). The denominator accumulator, a column [1024, 1],
  gains the row sums of the first block: entry (p, 0) gains the sum over l of X0 (p, l).
-/
import proofs.«114592_j12567074308161_1_alg».proof.Proof.Gen.KernelIdeal.Skeleton
import proofs.«114592_j12567074308161_1_alg».proof.Proof.LibColumnLayout
import Idealize.ShloMosaic.PureOps.Ideal.Laws
import Idealize.ShloMosaic.Lib.ValueIdx
import Idealize.ShloMosaic.Lib.ValueLayout
import Idealize.ShloMosaic.Lib.Pipeline.Value

noncomputable section

namespace Cert.KernelIdeal.PayValue

open Cert.KernelIdeal Idealize.ShloMosaic Idealize.ShloMosaic.ValueIdx

/-- The operand indices of the block product at output index `j` and contracted position `k`: the left operand is read
    at (row of `j`, `k`), the right one at (`k`, column of `j`). -/
theorem lhs_row (j : S1024x64.Idx) (k : dot_S1024x1408_S1408x64_S1024x64_1_0_0_1_n_n.contr.Idx) :
    (dot_S1024x1408_S1408x64_S1024x64_1_0_0_1_n_n.lhsIdx j k 0).val = (j 0).val := by
  unfold DotDims.lhsIdx
  rw [dif_neg (show ¬(0 : Fin S1024x1408.rank) ∈ dot_S1024x1408_S1408x64_S1024x64_1_0_0_1_n_n.lhsBatch by decide),
    dif_pos (show (0 : Fin S1024x1408.rank) ∈ dot_S1024x1408_S1408x64_S1024x64_1_0_0_1_n_n.lhsNonContracting by decide)]
  rfl
theorem lhs_col (j : S1024x64.Idx) (k : dot_S1024x1408_S1408x64_S1024x64_1_0_0_1_n_n.contr.Idx) :
    (dot_S1024x1408_S1408x64_S1024x64_1_0_0_1_n_n.lhsIdx j k 1).val = (k ⟨0, by decide⟩).val :=
  dot_S1024x1408_S1408x64_S1024x64_1_0_0_1_n_n.lhsIdx_val_of_single rfl j k
theorem rhs_row (j : S1024x64.Idx) (k : dot_S1024x1408_S1408x64_S1024x64_1_0_0_1_n_n.contr.Idx) :
    (dot_S1024x1408_S1408x64_S1024x64_1_0_0_1_n_n.rhsIdx j k 0).val = (k ⟨0, by decide⟩).val :=
  dot_S1024x1408_S1408x64_S1024x64_1_0_0_1_n_n.rhsIdx_val_of_single rfl j k
theorem rhs_col (j : S1024x64.Idx) (k : dot_S1024x1408_S1408x64_S1024x64_1_0_0_1_n_n.contr.Idx) :
    (dot_S1024x1408_S1408x64_S1024x64_1_0_0_1_n_n.rhsIdx j k 1).val = (j 1).val := by
  unfold DotDims.rhsIdx
  rw [dif_neg (show ¬(1 : Fin S1408x64.rank) ∈ dot_S1024x1408_S1408x64_S1024x64_1_0_0_1_n_n.rhsBatch by decide),
    dif_pos (show (1 : Fin S1408x64.rank) ∈ dot_S1024x1408_S1408x64_S1024x64_1_0_0_1_n_n.rhsNonContracting by decide)]
  rfl

/-- The contraction of a [1024, 1408] block with a [1408, 64] block into a zero accumulator: entry (p, q) is the sum
    over the 1408 contracted positions of the products. -/
theorem matmul_zero_apply (X0 : FVec Ideal S1024x1408 .bf16) (X1 : FVec Ideal S1408x64 .bf16) (p : Fin 1024) (q : Fin 64) :
    matmul dot_S1024x1408_S1408x64_S1024x64_1_0_0_1_n_n none X0 X1 (constant (F := Ideal) S1024x64 .f32 0x00000000#32) (ix2 p q)
      = ∑ l : Fin 1408, X0 (ix2 p l) * X1 (ix2 l q) := by
  refine (Ideal.matmul_constant_zero_apply dot_S1024x1408_S1408x64_S1024x64_1_0_0_1_n_n none X0 X1 (ix2 p q)).trans ?_
  rw [← Equiv.sum_comp (contrEquiv1 dot_S1024x1408_S1408x64_S1024x64_1_0_0_1_n_n 1408 rfl rfl).symm]
  refine Finset.sum_congr rfl fun l _ => ?_
  have hl := contrEquiv1_symm_val dot_S1024x1408_S1408x64_S1024x64_1_0_0_1_n_n 1408 rfl rfl l
  have el : dot_S1024x1408_S1408x64_S1024x64_1_0_0_1_n_n.lhsIdx (ix2 p q)
      ((contrEquiv1 dot_S1024x1408_S1408x64_S1024x64_1_0_0_1_n_n 1408 rfl rfl).symm l) = ix2 p l :=
    funext fun a => Fin.ext (by
      match a with
      | ⟨0, _⟩ => exact lhs_row _ _
      | ⟨1, _⟩ => exact (lhs_col _ _).trans hl)
  have er : dot_S1024x1408_S1408x64_S1024x64_1_0_0_1_n_n.rhsIdx (ix2 p q)
      ((contrEquiv1 dot_S1024x1408_S1408x64_S1024x64_1_0_0_1_n_n 1408 rfl rfl).symm l) = ix2 l q :=
    funext fun a => Fin.ext (by
      match a with
      | ⟨0, _⟩ => exact (rhs_row _ _).trans hl
      | ⟨1, _⟩ => exact rhs_col _ _)
  rw [el, er]

/-- One step of the numerator: the accumulator plus the block product. -/
theorem pay3_apply (X0 : Vec Ideal S1024x1408 .f32) (X1 : Vec Ideal S1408x64 .f32) (A : Vec Ideal S1024x64 .f32)
    (p : Fin 1024) (q : Fin 64) :
    Gen.k0_pay3 (F := Ideal) X0 X1 A (ix2 p q) = A (ix2 p q) + ∑ l : Fin 1408, X0 (ix2 p l) * X1 (ix2 l q) := by
  unfold Gen.k0_pay3
  rw [shapeCast_self]
  refine (addf_apply _ _ _).trans ?_
  refine congrArg (A (ix2 p q) + ·) ?_
  exact matmul_zero_apply _ _ p q

/-- One step of the denominator: the accumulator plus the row sums of the block, laid as a column. -/
theorem pay4_apply (X0 : Vec Ideal S1024x1408 .f32) (S : Vec Ideal S1024x1 .f32) (p : Fin 1024) (u : Fin 1) :
    Gen.k0_pay4 (F := Ideal) X0 S (ix2 p u) = S (ix2 p u) + ∑ l : Fin 1408, X0 (ix2 p l) := by
  unfold Gen.k0_pay4
  rw [shapeCast_self]
  refine (addf_apply _ _ _).trans ?_
  refine congrArg (S (ix2 p u) + ·) ?_
  refine (Cert.LibColumnLayout.shapeCast_a_a1_apply _ _ p u).trans ?_
  exact Cert.LibColumnLayout.multiReduction_add_rows_apply X0 _ _ _ _ p

/-- The first step's fill of the numerator accumulator is zero everywhere. -/
theorem pay1_apply (i : S1024x64.Idx) : Gen.k0_pay1 (F := Ideal) i = 0 := by
  unfold Gen.k0_pay1
  rw [shapeCast_self]
  exact Ideal.ofBits_zero_f32

/-- The first step's fill of the denominator accumulator is zero everywhere. -/
theorem pay2_apply (i : S1024x1.Idx) : Gen.k0_pay2 (F := Ideal) i = 0 := by
  unfold Gen.k0_pay2
  rw [shapeCast_self]
  exact Ideal.ofBits_zero_f32

end Cert.KernelIdeal.PayValue

end
-- ==== Proof.KiAccum.lean ====
/-
  What the two accumulators hold after each grid point, at the ideal instance: partial sums over bucket blocks.

  Write X(b, k) and E(k, d) for the two argument arrays (extended by 0 outside their index ranges, so that sums over plain
  ranges of naturals can be regrouped without carrying bounds). Point `t` of the 2 x 71 grid works on the rows
  1024·(t/71) … of X and on bucket block t % 71. One bucket block's contribution to entry (p, q) of the matrix accumulator is
      Bnum (t/71) j p q = ∑_{l < 1408} X(1024·(t/71) + p, 1408·j + l) · E(1408·j + l, q),
  and to entry p of the column accumulator, Bden (t/71) j p = ∑_{l < 1408} X(1024·(t/71) + p, 1408·j + l).
  The body resets the accumulators at the first bucket block and adds one block's contribution at every point, so after
  point `t` they hold the sums of the contributions of the blocks 0 … t % 71 (by induction on the point; on the extended
  reals the reset value 0 is neutral and the sum is accumulated in order). At a last bucket block the result blocks receive a copy.
-/
import proofs.«114592_j12567074308161_1_alg».proof.Proof.KiFrame
import proofs.«114592_j12567074308161_1_alg».proof.Proof.KiPieces
import proofs.«114592_j12567074308161_1_alg».proof.Proof.KiBlocks
import proofs.«114592_j12567074308161_1_alg».proof.Proof.PayIdeal

set_option maxRecDepth 16384

noncomputable section

namespace Cert.KernelIdeal.Accum

open Cert.KernelIdeal Cert.KernelIdeal.Gen Cert.KernelIdeal.Body Cert.KernelIdeal.PayValue
open Idealize.ShloMosaic Idealize.ShloMosaic.TcCoe Idealize.ShloMosaic.ValueIdx Idealize.SL.Sem
open Finset

variable (m : (ℓ : Loc nD τ sig) → Buf (Elt Ideal) ℓ)

/-- The first argument as a function of two naturals, 0 outside the array. -/
def Xn (c : Dev nD) (b k : ℕ) : EReal :=
  if h : b < 2048 ∧ k < 100000 then m ((c : Thread nD τ).loc main_arg0) (ix2 (⟨b, h.1⟩ : Fin 2048) (⟨k, h.2⟩ : Fin 100000)) else 0
/-- The second argument likewise. -/
def En (c : Dev nD) (k d : ℕ) : EReal :=
  if h : k < 100000 ∧ d < 64 then m ((c : Thread nD τ).loc main_arg1) (ix2 (⟨k, h.1⟩ : Fin 100000) (⟨d, h.2⟩ : Fin 64)) else 0

/-- Bucket block `j`'s contribution to entry (p, q) of the pooled rows 1024·i …. -/
def Bnum (c : Dev nD) (i j p q : ℕ) : EReal := ∑ l ∈ range 1408, Xn m c (1024 * i + p) (1408 * j + l) * En m c (1408 * j + l) q
/-- Bucket block `j`'s contribution to the row sum of row 1024·i + p. -/
def Bden (c : Dev nD) (i j p : ℕ) : EReal := ∑ l ∈ range 1408, Xn m c (1024 * i + p) (1408 * j + l)

/-- The product of the two blocks point `t` reads, at (p, q), is that point's contribution. -/
theorem blk_num (c : Dev nD) (t : Fin cfg0.N) (p : Fin 1024) (q : Fin 64) :
    ∑ l : Fin 1408, xb0 m c t (ix2 p l) * xb1 m c t (ix2 l q) = Bnum m c (t.val / 71) (t.val % 71) p.val q.val := by
  have ht : t.val < 142 := lt_of_lt_of_eq t.isLt (show cfg0.N = 142 from N_0)
  unfold Bnum
  rw [Finset.sum_range]
  refine Finset.sum_congr rfl fun l _ => ?_
  rw [xb0_apply, xb1_apply]
  unfold Xn En
  rw [dif_pos ⟨by omega, by omega⟩, dif_pos ⟨by omega, q.isLt⟩]

/-- The row sums of the block point `t` reads. -/
theorem blk_den (c : Dev nD) (t : Fin cfg0.N) (p : Fin 1024) :
    ∑ l : Fin 1408, xb0 m c t (ix2 p l) = Bden m c (t.val / 71) (t.val % 71) p.val := by
  have ht : t.val < 142 := lt_of_lt_of_eq t.isLt (show cfg0.N = 142 from N_0)
  unfold Bden
  rw [Finset.sum_range]
  refine Finset.sum_congr rfl fun l _ => ?_
  rw [xb0_apply]
  unfold Xn
  rw [dif_pos ⟨by omega, by omega⟩]

/-- After point `n` the accumulators hold the contributions of the bucket blocks 0 … n % 71 of the point's rows. -/
theorem acc_eq (c : Dev nD) : ∀ (n : ℕ) (hn : n < cfg0.N),
    (∀ (p : Fin 1024) (q : Fin 64), (outsAt0 m c n hn).2.2.1 (ix2 p q) = ∑ j ∈ range (n % 71 + 1), Bnum m c (n / 71) j p.val q.val)
    ∧ (∀ (p : Fin 1024) (u : Fin 1), (outsAt0 m c n hn).2.2.2 (ix2 p u) = ∑ j ∈ range (n % 71 + 1), Bden m c (n / 71) j p.val) := by
  intro n
  induction n with
  | zero =>
    intro hn
    have e := outsAt0_A m c ⟨0, hn⟩ (Nat.zero_mod _) (by show ¬ (0 : ℕ) % 71 = 70; omega)
    refine ⟨fun p q => ?_, fun p u => ?_⟩
    · rw [show outsAt0 m c 0 hn = _ from e]; dsimp only
      rw [sout0_A_0_eq, pay3_apply, pay1_apply, zero_add, blk_num]
      simp only [Nat.zero_mod, Nat.zero_div, zero_add, Finset.sum_range_one]
    · rw [show outsAt0 m c 0 hn = _ from e]; dsimp only
      rw [sout0_A_1_eq, pay4_apply, pay2_apply, zero_add, blk_den]
      simp only [Nat.zero_mod, Nat.zero_div, zero_add, Finset.sum_range_one]
  | succ n ih =>
    intro hn
    have hprev := ih (Nat.lt_of_succ_lt hn)
    by_cases h0 : (n + 1) % 71 = 0
    · have h1 : ¬(n + 1) % 71 = 70 := by omega
      have e := outsAt0_A m c ⟨n + 1, hn⟩ h0 h1
      refine ⟨fun p q => ?_, fun p u => ?_⟩
      · rw [show outsAt0 m c (n + 1) hn = _ from e]; dsimp only
        rw [sout0_A_0_eq, pay3_apply, pay1_apply, zero_add, blk_num]
        simp only [h0, zero_add, Finset.sum_range_one]
      · rw [show outsAt0 m c (n + 1) hn = _ from e]; dsimp only
        rw [sout0_A_1_eq, pay4_apply, pay2_apply, zero_add, blk_den]
        simp only [h0, zero_add, Finset.sum_range_one]
    · have e1 : (n + 1) % 71 = n % 71 + 1 := by omega
      have e2 : (n + 1) / 71 = n / 71 := by omega
      by_cases h1 : (n + 1) % 71 = 70
      · have e := outsAt0_C m c ⟨n + 1, hn⟩ h0 h1
        refine ⟨fun p q => ?_, fun p u => ?_⟩
        · rw [show outsAt0 m c (n + 1) hn = _ from e]; dsimp only
          rw [sout0_C_0_eq, pay3_apply, blk_num]
          rw [show (outsAt0 m c (n + 1 - 1) _).2.2.1 (ix2 p q) = _ from hprev.1 p q]
          simp only [e1, e2, Finset.sum_range_succ (fun j => Bnum m c (n / 71) j p.val q.val) (n % 71 + 1)]
        · rw [show outsAt0 m c (n + 1) hn = _ from e]; dsimp only
          rw [sout0_C_1_eq, pay4_apply, blk_den]
          rw [show (outsAt0 m c (n + 1 - 1) _).2.2.2 (ix2 p u) = _ from hprev.2 p u]
          simp only [e1, e2, Finset.sum_range_succ (fun j => Bden m c (n / 71) j p.val) (n % 71 + 1)]
      · have e := outsAt0_B m c ⟨n + 1, hn⟩ h0 h1
        refine ⟨fun p q => ?_, fun p u => ?_⟩
        · rw [show outsAt0 m c (n + 1) hn = _ from e]; dsimp only
          rw [sout0_B_0_eq, pay3_apply, blk_num]
          rw [show (outsAt0 m c (n + 1 - 1) _).2.2.1 (ix2 p q) = _ from hprev.1 p q]
          simp only [e1, e2, Finset.sum_range_succ (fun j => Bnum m c (n / 71) j p.val q.val) (n % 71 + 1)]
        · rw [show outsAt0 m c (n + 1) hn = _ from e]; dsimp only
          rw [sout0_B_1_eq, pay4_apply, blk_den]
          rw [show (outsAt0 m c (n + 1 - 1) _).2.2.2 (ix2 p u) = _ from hprev.2 p u]
          simp only [e1, e2, Finset.sum_range_succ (fun j => Bden m c (n / 71) j p.val) (n % 71 + 1)]

/-- At a last bucket block the two result blocks receive the accumulators: all 71 contributions of the point's rows. -/
theorem out_eq (c : Dev nD) (t : Fin cfg0.N) (h1 : t.val % 71 = 70) :
    (∀ (p : Fin 1024) (q : Fin 64), (outsAt0 m c t.val t.isLt).1 (ix2 p q) = ∑ j ∈ range 71, Bnum m c (t.val / 71) j p.val q.val)
    ∧ (∀ (p : Fin 1024) (u : Fin 1), (outsAt0 m c t.val t.isLt).2.1 (ix2 p u) = ∑ j ∈ range 71, Bden m c (t.val / 71) j p.val) := by
  have h0 : ¬t.val % 71 = 0 := by omega
  have e := outsAt0_C m c t h0 h1
  have hs := acc_eq m c t.val t.isLt
  rw [e] at hs ⊢
  dsimp only at hs ⊢
  rw [sout0_C_0_eq, sout0_C_1_eq] at hs
  rw [out0_C_2_eq, out0_C_3_eq]
  rw [h1] at hs
  exact hs

end Cert.KernelIdeal.Accum

end
-- ==== Proof.TailIdeal.lean ====
/-
  The host operations that follow the kernel call, as one function of the kernel's two outputs and the two inputs.

  The kernel leaves a numerator array N [2048, 64] and a denominator column D [2048, 1] that cover the first 99968 of the
  100000 contracted positions. The host then takes the last 32 columns of x and the last 32 rows of e, forms their
  product (the rest of the numerator) and the row sums of those columns laid as a column (the rest of the denominator),
  adds each to the kernel's output, and finishes with the shared last step where(s > 0, o / s, 0).
  Entry (b, d) of the rest of the numerator is the sum over r < 32 of x (b, 99968 + r) * e (99968 + r, d);
  entry (b, 0) of the rest of the denominator is the sum over r < 32 of x (b, 99968 + r).
-/
import proofs.«114592_j12567074308161_1_alg».proof.Proof.Gen.KernelIdeal.Launch
import proofs.«114592_j12567074308161_1_alg».proof.Proof.Tail
import proofs.«114592_j12567074308161_1_alg».proof.Proof.LibColumnLayout
import Idealize.ShloMosaic.Lib.StableHlo.Run
import Idealize.ShloMosaic.PureOps.Ideal.Laws
import Idealize.ShloMosaic.Lib.ValueIdx
import Idealize.ShloMosaic.Lib.Pipeline.Value

noncomputable section

namespace Cert.KernelIdeal.HostTail

open Cert.KernelIdeal Cert.KernelIdeal.Gen
open Idealize.ShloMosaic Idealize.ShloMosaic.TcCoe Idealize.SL.Sem Idealize.ShloMosaic.StableHlo

/-- The part of the numerator the kernel does not cover: the last 32 columns of `x` times the last 32 rows of `e`. -/
def remNum (x : FVec Ideal S2048x100000 .f32) (e : FVec Ideal S100000x64 .f32) : FVec Ideal S2048x64 .f32 :=
  Host.dotGeneral (F := Ideal) dot_S2048x32_S32x64_S2048x64_1_0_0_1_n_n none
    (extractStridedSlice S2048x32 ![0, 99968] x slices_S2048x100000_S2048x32_0_99968)
    (extractStridedSlice S32x64 ![99968, 0] e slices_S100000x64_S32x64_99968_0)

/-- The part of the denominator the kernel does not cover: the row sums of the last 32 columns of `x`, as a column. -/
def remDen (x : FVec Ideal S2048x100000 .f32) : FVec Ideal S2048x1 .f32 :=
  broadcastInDim S2048x1 ![0] bcast_S2048_S2048x1_0
    (Host.reduceAdd (F := Ideal) (extractStridedSlice S2048x32 ![0, 99968] x slices_S2048x100000_S2048x32_0_99968)
      (constant (F := Ideal) S_ .f32 0x00000000#32) reducesTo_S2048x32_S2048_d1 h_S_)

/-- What the output buffer holds after the host operations, from any contents `W` of the buffers before them. -/
theorem after_tail (W : Valuation τ sig (Elt Ideal)) :
    StableHlo.after (List.flatten [hostOps1 (F := Ideal), hostOps1_1 (F := Ideal)]) W (Proc.devRef .tc main_v13)
      = Cert.Pool.tail bcast_S2048x1_S2048x64_0_1 bcast_S_S2048x1 bcast_S_S2048x64
          (addf (W (Proc.devRef .tc main_v0_0)) (remNum (W (Proc.devRef .tc main_arg0)) (W (Proc.devRef .tc main_arg1))))
          (addf (W (Proc.devRef .tc main_v0_1)) (remDen (W (Proc.devRef .tc main_arg0)))) := by
  simp only [hostOps1, hostOps1_1, List.flatten_cons, List.flatten_nil, List.append_nil, List.cons_append, List.nil_append]
  after_results
  rfl

/-! ## The two remainders read at an index -/

open Idealize.ShloMosaic.ValueIdx

/-- The last 32 columns of `x`: entry (b, r) of the slice is entry (b, 99968 + r) of `x`. -/
theorem slice_x_apply (x : FVec Ideal S2048x100000 .f32) (b : Fin 2048) (r : Fin 32) :
    extractStridedSlice S2048x32 ![0, 99968] x slices_S2048x100000_S2048x32_0_99968 (ix2 b r)
      = x (ix2 b ⟨99968 + r.val, by omega⟩) :=
  extractStridedSlice_apply _ x slices_S2048x100000_S2048x32_0_99968 (ix2 b r) (ix2 b ⟨99968 + r.val, by omega⟩) fun a => by
    match a with
    | ⟨0, _⟩ => exact (Nat.zero_add b.val).symm
    | ⟨1, _⟩ => rfl

/-- The last 32 rows of `e`: entry (r, d) of the slice is entry (99968 + r, d) of `e`. -/
theorem slice_e_apply (e : FVec Ideal S100000x64 .f32) (r : Fin 32) (d : Fin 64) :
    extractStridedSlice S32x64 ![99968, 0] e slices_S100000x64_S32x64_99968_0 (ix2 r d)
      = e (ix2 ⟨99968 + r.val, by omega⟩ d) :=
  extractStridedSlice_apply _ e slices_S100000x64_S32x64_99968_0 (ix2 r d) (ix2 ⟨99968 + r.val, by omega⟩ d) fun a => by
    match a with
    | ⟨0, _⟩ => rfl
    | ⟨1, _⟩ => exact (Nat.zero_add d.val).symm

/-- The operand indices of the [2048, 32] by [32, 64] product at output index `j` and contracted position `k`. -/
theorem lhs_row (j : S2048x64.Idx) (k : dot_S2048x32_S32x64_S2048x64_1_0_0_1_n_n.contr.Idx) :
    (dot_S2048x32_S32x64_S2048x64_1_0_0_1_n_n.lhsIdx j k 0).val = (j 0).val := by
  unfold DotDims.lhsIdx
  rw [dif_neg (show ¬(0 : Fin S2048x32.rank) ∈ dot_S2048x32_S32x64_S2048x64_1_0_0_1_n_n.lhsBatch by decide),
    dif_pos (show (0 : Fin S2048x32.rank) ∈ dot_S2048x32_S32x64_S2048x64_1_0_0_1_n_n.lhsNonContracting by decide)]
  rfl
theorem lhs_col (j : S2048x64.Idx) (k : dot_S2048x32_S32x64_S2048x64_1_0_0_1_n_n.contr.Idx) :
    (dot_S2048x32_S32x64_S2048x64_1_0_0_1_n_n.lhsIdx j k 1).val = (k ⟨0, by decide⟩).val :=
  dot_S2048x32_S32x64_S2048x64_1_0_0_1_n_n.lhsIdx_val_of_single rfl j k
theorem rhs_row (j : S2048x64.Idx) (k : dot_S2048x32_S32x64_S2048x64_1_0_0_1_n_n.contr.Idx) :
    (dot_S2048x32_S32x64_S2048x64_1_0_0_1_n_n.rhsIdx j k 0).val = (k ⟨0, by decide⟩).val :=
  dot_S2048x32_S32x64_S2048x64_1_0_0_1_n_n.rhsIdx_val_of_single rfl j k
theorem rhs_col (j : S2048x64.Idx) (k : dot_S2048x32_S32x64_S2048x64_1_0_0_1_n_n.contr.Idx) :
    (dot_S2048x32_S32x64_S2048x64_1_0_0_1_n_n.rhsIdx j k 1).val = (j 1).val := by
  unfold DotDims.rhsIdx
  rw [dif_neg (show ¬(1 : Fin S32x64.rank) ∈ dot_S2048x32_S32x64_S2048x64_1_0_0_1_n_n.rhsBatch by decide),
    dif_pos (show (1 : Fin S32x64.rank) ∈ dot_S2048x32_S32x64_S2048x64_1_0_0_1_n_n.rhsNonContracting by decide)]
  rfl

/-- Entry (b, d) of the rest of the numerator: the products over the last 32 contracted positions, summed. -/
theorem remNum_apply (x : FVec Ideal S2048x100000 .f32) (e : FVec Ideal S100000x64 .f32) (b : Fin 2048) (d : Fin 64) :
    remNum x e (ix2 b d)
      = ∑ r : Fin 32, x (ix2 b ⟨99968 + r.val, by omega⟩) * e (ix2 ⟨99968 + r.val, by omega⟩ d) := by
  unfold remNum
  simp only [Host.dotGeneral]
  rw [Ideal.dotGeneral_apply, ← Equiv.sum_comp (contrEquiv1 dot_S2048x32_S32x64_S2048x64_1_0_0_1_n_n 32 rfl rfl).symm]
  refine Finset.sum_congr rfl fun r _ => ?_
  have hr := contrEquiv1_symm_val dot_S2048x32_S32x64_S2048x64_1_0_0_1_n_n 32 rfl rfl r
  have el : dot_S2048x32_S32x64_S2048x64_1_0_0_1_n_n.lhsIdx (ix2 b d)
      ((contrEquiv1 dot_S2048x32_S32x64_S2048x64_1_0_0_1_n_n 32 rfl rfl).symm r) = ix2 b r :=
    funext fun a => Fin.ext (by
      match a with
      | ⟨0, _⟩ => exact lhs_row _ _
      | ⟨1, _⟩ => exact (lhs_col _ _).trans hr)
  have er : dot_S2048x32_S32x64_S2048x64_1_0_0_1_n_n.rhsIdx (ix2 b d)
      ((contrEquiv1 dot_S2048x32_S32x64_S2048x64_1_0_0_1_n_n 32 rfl rfl).symm r) = ix2 r d :=
    funext fun a => Fin.ext (by
      match a with
      | ⟨0, _⟩ => exact (rhs_row _ _).trans hr
      | ⟨1, _⟩ => exact rhs_col _ _)
  rw [el, er, slice_x_apply, slice_e_apply]

/-- Entry (b, 0) of the rest of the denominator: the last 32 entries of row `b` of `x`, summed. -/
theorem remDen_apply (x : FVec Ideal S2048x100000 .f32) (b : Fin 2048) (u : Fin 1) :
    remDen x (ix2 b u) = ∑ r : Fin 32, x (ix2 b ⟨99968 + r.val, by omega⟩) := by
  unfold remDen
  refine (Cert.LibColumnLayout.broadcastInDim_a_a1_apply _ bcast_S2048_S2048x1_0 b u).trans ?_
  simp only [Host.reduceAdd, Ideal.hostReduceAdd_def]
  refine (Cert.LibColumnLayout.hostReduceAdd_rows_apply reducesTo_S2048x32_S2048_d1 (by decide) _ _ b).trans ?_
  refine (congrArg (· + _) ((constant_apply _ _).trans Ideal.ofBits_zero_f32)).trans ?_
  rw [zero_add]
  exact Finset.sum_congr rfl fun r _ => slice_x_apply x b r

end Cert.KernelIdeal.HostTail

end
-- ==== Proof.KiFinal.lean ====
/-
  The kernel program's result at the ideal instance, as one function of its two argument arrays.

  The two result arrays of the Pallas call are written back block by block, one block of 1024 rows per last bucket block,
  and those blocks tile them; so after the call entry (b, d) of the first holds the 71 bucket blocks' contributions
      G2 (b, d) = ∑_{j < 71} ∑_{l < 1408} X(b, 1408·j + l) · E(1408·j + l, d)
  and entry (b, 0) of the second the row sums G3 (b, 0) = ∑_{j < 71} ∑_{l < 1408} X(b, 1408·j + l) over the same 99968
  columns. The host operations after the call add the last 32 columns' share to each and finish with the step both
  programs share.
-/
import proofs.«114592_j12567074308161_1_alg».proof.Proof.KiAccum
import proofs.«114592_j12567074308161_1_alg».proof.Proof.TailIdeal
import Idealize.ShloMosaic.Lib.Pipeline.Value

set_option maxRecDepth 16384

noncomputable section

namespace Cert.KernelIdeal.Final

open Cert.KernelIdeal Cert.KernelIdeal.Gen Cert.KernelIdeal.Body Cert.KernelIdeal.Accum Cert.KernelIdeal.HostTail
open Idealize.ShloMosaic Idealize.ShloMosaic.TcCoe Idealize.ShloMosaic.ValueIdx Idealize.SL.Sem
open Idealize.ShloMosaic.Pipeline (Dat)
open Finset

variable (m : (ℓ : Loc nD τ sig) → Buf (Elt Ideal) ℓ) (ρ : Dev nD → PrngReg)

/-- The pooled sums over the first 99968 bucket columns. -/
def G2 (c : Dev nD) : S2048x64.Idx → EReal := fun i =>
  ∑ j ∈ range 71, ∑ l ∈ range 1408, Xn m c (i 0).val (1408 * j + l) * En m c (1408 * j + l) (i 1).val
/-- The row sums over the first 99968 bucket columns. -/
def G3 (c : Dev nD) : S2048x1.Idx → EReal := fun i =>
  ∑ j ∈ range 71, ∑ l ∈ range 1408, Xn m c (i 0).val (1408 * j + l)

/-- What a last bucket block writes back to the pooled result is the block of `G2` at the point's rows. -/
theorem flushed2_eq (c : Dev nD) (t : Fin cfg0.N) (hf : (cfg0.win 2).flush t = true) :
    (dats m 0 c).flushed 2 t = ((cfg0.win 2).blk t).view.read (Elt Ideal) (G2 m c) := by
  have h1 : t.val % 71 = 70 := (flush0_2 t).mp hf
  funext y
  obtain ⟨p, q, rfl⟩ : ∃ (p : Fin 1024) (q : Fin 64), y = ix2 p q := ⟨y 0, y 1, eq_ix2 y⟩
  rw [read_blk2]
  show (dats m 0 c).after 2 t (ix2 p q) = _
  rw [after0_2, (out_eq m c t h1).1 p q]
  rfl

/-- And to the row sums, the block of `G3`. -/
theorem flushed3_eq (c : Dev nD) (t : Fin cfg0.N) (hf : (cfg0.win 3).flush t = true) :
    (dats m 0 c).flushed 3 t = ((cfg0.win 3).blk t).view.read (Elt Ideal) (G3 m c) := by
  have h1 : t.val % 71 = 70 := (flush0_3 t).mp hf
  funext y
  obtain ⟨p, u, rfl⟩ : ∃ (p : Fin 1024) (u : Fin 1), y = ix2 p u := ⟨y 0, y 1, eq_ix2 y⟩
  rw [read_blk3]
  show (dats m 0 c).after 3 t (ix2 p u) = _
  rw [after0_3, (out_eq m c t h1).2 p u]
  rfl

/-- The two result arrays after the call. -/
theorem final2 (c : Dev nD) : (dats m 0 c).arrAt 2 cfg0.N = G2 m c :=
  (dats m 0 c).arrAt_eq_of_cover 2 (G2 m c) (fun t hf => flushed2_eq m c t hf) cover2
theorem final3 (c : Dev nD) : (dats m 0 c).arrAt 3 cfg0.N = G3 m c :=
  (dats m 0 c).arrAt_eq_of_cover 3 (G3 m c) (fun t hf => flushed3_eq m c t hf) cover3

/-- The result buffer is a buffer that bypasses the call: unscoped, and no window's array. -/
theorem v13_rest : main_v13 ∈ Pipeline.restRefs sig spec0 :=
  Pipeline.mem_restRefs_of main_v13 rfl (fun w => by fin_cases w <;> decide)

/-- Every weakly fair execution of the kernel program terminates, with its result at the shared last step applied to the
    call's two result arrays plus the last 32 columns' share, and its arguments unchanged. -/
theorem run_value : θ_run defs (onTc (τ := τ) (main (F := Ideal))) ⟨m, fun _ => 0, ρ⟩ (fun r => ∀ c : Dev nD,
      r.2.mem ((c.tc : Thread nD τ).loc main_v13)
        = Cert.Pool.tail bcast_S2048x1_S2048x64_0_1 bcast_S_S2048x1 bcast_S_S2048x64
            (addf (G2 m c) (remNum (m ((c.tc : Thread nD τ).loc main_arg0)) (m ((c.tc : Thread nD τ).loc main_arg1))))
            (addf (G3 m c) (remDen (m ((c.tc : Thread nD τ).loc main_arg0))))
      ∧ r.2.mem ((c.tc : Thread nD τ).loc main_arg0) = m ((c.tc : Thread nD τ).loc main_arg0)
      ∧ r.2.mem ((c.tc : Thread nD τ).loc main_arg1) = m ((c.tc : Thread nD τ).loc main_arg1)) := by
  refine (θ_run defs _ _).mono (fun r h c => ?_) (run_main (F := Ideal) m ρ)
  have hA0 : (dats m 0 c).arrAt 0 cfg0.N = m ((c.tc : Thread nD τ).loc main_arg0) :=
    ((dats m 0 c).arrAt_in 0 rfl _).trans ((A_eq m c 0).trans (V_main_arg0 m c))
  have hA1 : (dats m 0 c).arrAt 1 cfg0.N = m ((c.tc : Thread nD τ).loc main_arg1) :=
    ((dats m 0 c).arrAt_in 1 rfl _).trans ((A_eq m c 1).trans (V_main_arg1 m c))
  refine ⟨?_, ((h c).1 0).trans hA0, ((h c).1 1).trans hA1⟩
  refine ((h c).2 main_v13 v13_rest).trans ?_
  unfold Pipeline.afterTail₀
  rw [after_tail]
  rw [show Pipeline.withArrays spec0 c (V0 m c) (fun w => (dats m 0 c).arrAt w cfg0.N) (Proc.devRef .tc main_v0_0) = (dats m 0 c).arrAt 2 cfg0.N from
        Pipeline.withArrays_arr spec0 launch0.win.arr_inj c _ _ 2,
      show Pipeline.withArrays spec0 c (V0 m c) (fun w => (dats m 0 c).arrAt w cfg0.N) (Proc.devRef .tc main_v0_1) = (dats m 0 c).arrAt 3 cfg0.N from
        Pipeline.withArrays_arr spec0 launch0.win.arr_inj c _ _ 3,
      show Pipeline.withArrays spec0 c (V0 m c) (fun w => (dats m 0 c).arrAt w cfg0.N) (Proc.devRef .tc main_arg0) = (dats m 0 c).arrAt 0 cfg0.N from
        Pipeline.withArrays_arr spec0 launch0.win.arr_inj c _ _ 0,
      show Pipeline.withArrays spec0 c (V0 m c) (fun w => (dats m 0 c).arrAt w cfg0.N) (Proc.devRef .tc main_arg1) = (dats m 0 c).arrAt 1 cfg0.N from
        Pipeline.withArrays_arr spec0 launch0.win.arr_inj c _ _ 1,
      final2, final3, hA0, hA1]

end Cert.KernelIdeal.Final

end
-- ==== Proof.LibSumBlocks.lean ====
/-
  A finite sum cut into equal blocks and a remainder.

  A sum over the first `n * m + r` natural numbers is the sum over `n` consecutive blocks of length `m` — block `j` holds the
  positions `m * j + l`, `l < m` — followed by the sum over the last `r` positions `n * m + q`, `q < r`. This holds in
  any commutative additive monoid, so it needs no subtraction and no finiteness of the terms. The same statement is given for a
  function on `Fin N` with `N = n * m + r`, where each position carries the proof that it lies below `N`.
-/
import Mathlib.Algebra.BigOperators.Fin
import Mathlib.Algebra.BigOperators.Intervals

namespace Cert.LibSumBlocks

open Finset

/-- Position `l` of block `j` lies below `n * m` when `j < n` and `l < m`. -/
theorem block_index_lt_mul {n m j l : ℕ} (hj : j < n) (hl : l < m) : m * j + l < n * m :=
  calc m * j + l < m * j + m := Nat.add_lt_add_left hl _
    _ = m * (j + 1) := (Nat.mul_succ m j).symm
    _ ≤ m * n := Nat.mul_le_mul_left m hj
    _ = n * m := Nat.mul_comm m n

/-- Position `l` of block `j` lies below `N = n * m + r`. -/
theorem block_index_lt {N n m r j l : ℕ} (hN : N = n * m + r) (hj : j < n) (hl : l < m) : m * j + l < N :=
  hN ▸ Nat.lt_of_lt_of_le (block_index_lt_mul hj hl) (Nat.le_add_right _ _)

/-- Position `q` of the remainder lies below `N = n * m + r`. -/
theorem rest_index_lt {N n m r q : ℕ} (hN : N = n * m + r) (hq : q < r) : n * m + q < N :=
  hN ▸ Nat.add_lt_add_left hq _

/-- A sum over the first `n * m` natural numbers is the sum over `n` blocks of length `m`. -/
theorem sum_range_mul_blocks {M : Type*} [AddCommMonoid M] (f : ℕ → M) (n m : ℕ) :
    ∑ k ∈ range (n * m), f k = ∑ j ∈ range n, ∑ l ∈ range m, f (m * j + l) := by
  induction n with
  | zero => rw [Nat.zero_mul, range_zero, sum_empty, sum_empty]
  | succ n ih => rw [Nat.succ_mul, sum_range_add, sum_range_succ (fun j => ∑ l ∈ range m, f (m * j + l)), ih, Nat.mul_comm n m]

/-- A sum over the first `n * m + r` natural numbers is the sum over `n` blocks of length `m` plus the sum over the last `r`
    positions. -/
theorem sum_range_blocks {M : Type*} [AddCommMonoid M] (f : ℕ → M) (n m r : ℕ) :
    ∑ k ∈ range (n * m + r), f k
      = (∑ j ∈ range n, ∑ l ∈ range m, f (m * j + l)) + ∑ q ∈ range r, f (n * m + q) := by
  rw [sum_range_add, sum_range_mul_blocks]

/-- A sum over `Fin N`, `N = n * m + r`, is the sum over `n` blocks of length `m` plus the sum over the last `r` positions. -/
theorem sum_fin_blocks {M : Type*} [AddCommMonoid M] {N : ℕ} (n m r : ℕ) (hN : N = n * m + r) (f : Fin N → M) :
    ∑ k : Fin N, f k
      = (∑ j : Fin n, ∑ l : Fin m, f ⟨m * j.val + l.val, block_index_lt hN j.isLt l.isLt⟩)
        + ∑ q : Fin r, f ⟨n * m + q.val, rest_index_lt hN q.isLt⟩ := by
  -- extend `f` by zero to all natural numbers, cut the sum over the initial segment, and read the pieces back over `Fin`
  let g : ℕ → M := fun k => if h : k < N then f ⟨k, h⟩ else 0
  have hg : ∀ (k : ℕ) (h : k < N), g k = f ⟨k, h⟩ := fun k h => dif_pos h
  calc ∑ k : Fin N, f k = ∑ k : Fin N, g k.val := sum_congr rfl fun k _ => (hg k.val k.isLt).symm
    _ = ∑ k ∈ range N, g k := Fin.sum_univ_eq_sum_range g N
    _ = ∑ k ∈ range (n * m + r), g k := by rw [hN]
    _ = (∑ j ∈ range n, ∑ l ∈ range m, g (m * j + l)) + ∑ q ∈ range r, g (n * m + q) := sum_range_blocks g n m r
    _ = (∑ j : Fin n, ∑ l : Fin m, g (m * j.val + l.val)) + ∑ q : Fin r, g (n * m + q.val) := by
      rw [← Fin.sum_univ_eq_sum_range (fun j => ∑ l ∈ range m, g (m * j + l)) n,
        ← Fin.sum_univ_eq_sum_range (fun q => g (n * m + q)) r]
      refine congrArg (· + _) (sum_congr rfl fun j _ => ?_)
      exact (Fin.sum_univ_eq_sum_range (fun l => g (m * j.val + l)) m).symm
    _ = _ := by
      refine congrArg₂ (· + ·) (sum_congr rfl fun j _ => sum_congr rfl fun l _ => hg _ _) (sum_congr rfl fun q _ => hg _ _)

end Cert.LibSumBlocks
-- ==== Proof.Bridge.lean ====
/-
  The two programs' numerators, and their denominators, are the same numbers.

  For a row b and an output column d, the kernel program's numerator is the 71 bucket blocks' contributions plus the share
  of the last 32 bucket columns; the reference's is the sum over all 100000 bucket columns. Since 100000 = 71·1408 + 32
  and addition of extended reals is associative and commutative, the second is the first regrouped; likewise for the row
  sums. No finiteness of the inputs is used. With equal numerators and denominators the shared last step gives equal results.
-/
import proofs.«114592_j12567074308161_1_alg».proof.Proof.KiFinal
import proofs.«114592_j12567074308161_1_alg».proof.Proof.RefSide
import proofs.«114592_j12567074308161_1_alg».proof.Proof.LibSumBlocks

set_option maxRecDepth 16384

noncomputable section

namespace Cert.Pool.Bridge

open Cert.KernelIdeal Cert.KernelIdeal.Gen Cert.KernelIdeal.Body Cert.KernelIdeal.Accum Cert.KernelIdeal.HostTail Cert.KernelIdeal.Final
open Idealize.ShloMosaic Idealize.ShloMosaic.TcCoe Idealize.ShloMosaic.ValueIdx Idealize.SL.Sem
open Finset

variable (m : (ℓ : Loc nD τ sig) → Buf (Elt Ideal) ℓ)

/-- The kernel program's two argument arrays on core `c`, as arrays of extended reals. -/
abbrev Xa (c : Dev nD) : FVec Ideal S2048x100000 .f32 := m ((c.tc : Thread nD τ).loc main_arg0)
abbrev Ea (c : Dev nD) : FVec Ideal S100000x64 .f32 := m ((c.tc : Thread nD τ).loc main_arg1)

/-- The 71 blocks' contributions and the last 32 columns' share add up to the sum over all bucket columns. -/
theorem num_eq (c : Dev nD) (b : Fin 2048) (d : Fin 64) :
    G2 m c (ix2 b d)
        + ∑ r : Fin 32, Xa m c (ix2 b (⟨99968 + r.val, by omega⟩ : Fin 100000))
            * Ea m c (ix2 (⟨99968 + r.val, by omega⟩ : Fin 100000) d)
      = ∑ k : Fin 100000, Xa m c (ix2 b k) * Ea m c (ix2 k d) := by
  have hf : ∀ k : Fin 100000, Xa m c (ix2 b k) * Ea m c (ix2 k d)
      = Xn m c b.val k.val * En m c k.val d.val := fun k => by
    unfold Xn En; rw [dif_pos ⟨b.isLt, k.isLt⟩, dif_pos ⟨k.isLt, d.isLt⟩]
  rw [Finset.sum_congr rfl (fun k _ => hf k), ← Finset.sum_range (fun k => Xn m c b.val k * En m c k d.val)]
  refine Eq.trans ?_ (Cert.LibSumBlocks.sum_range_blocks (fun k => Xn m c b.val k * En m c k d.val) 71 1408 32).symm
  refine congrArg₂ (· + ·) rfl ?_
  rw [Finset.sum_range]
  refine Finset.sum_congr rfl fun r _ => ?_
  have hr := r.isLt
  unfold Xn En; rw [dif_pos ⟨b.isLt, by omega⟩, dif_pos ⟨by omega, d.isLt⟩]

/-- The same for the row sums. -/
theorem den_eq (c : Dev nD) (b : Fin 2048) :
    G3 m c (ix2 b (0 : Fin 1))
        + ∑ r : Fin 32, Xa m c (ix2 b (⟨99968 + r.val, by omega⟩ : Fin 100000))
      = ∑ k : Fin 100000, Xa m c (ix2 b k) := by
  have hf : ∀ k : Fin 100000, Xa m c (ix2 b k) = Xn m c b.val k.val := fun k => by
    unfold Xn; rw [dif_pos ⟨b.isLt, k.isLt⟩]
  rw [Finset.sum_congr rfl (fun k _ => hf k), ← Finset.sum_range (fun k => Xn m c b.val k)]
  refine Eq.trans ?_ (Cert.LibSumBlocks.sum_range_blocks (fun k => Xn m c b.val k) 71 1408 32).symm
  refine congrArg₂ (· + ·) rfl ?_
  rw [Finset.sum_range]
  refine Finset.sum_congr rfl fun r _ => ?_
  have hr := r.isLt
  unfold Xn; rw [dif_pos ⟨b.isLt, by omega⟩]

/-- The kernel program's numerator array is the reference's. -/
theorem numerator_eq (c : Dev nD) :
    addf (G2 m c) (remNum (m ((c.tc : Thread nD τ).loc main_arg0)) (m ((c.tc : Thread nD τ).loc main_arg1)))
      = Cert.ReferenceIdeal.RefValue.refNum (m ((c.tc : Thread nD τ).loc main_arg0)) (m ((c.tc : Thread nD τ).loc main_arg1)) := by
  funext i
  obtain ⟨b, d, rfl⟩ : ∃ (b : Fin 2048) (d : Fin 64), i = ix2 b d := ⟨i 0, i 1, eq_ix2 i⟩
  show FloatOps.addf (G2 m c (ix2 b d)) (remNum _ _ (ix2 b d)) = _
  rw [Ideal.addf_def, remNum_apply, Cert.ReferenceIdeal.RefValue.refNum_apply]
  exact num_eq m c b d

/-- The kernel program's denominator column is the reference's. -/
theorem denominator_eq (c : Dev nD) :
    addf (G3 m c) (remDen (m ((c.tc : Thread nD τ).loc main_arg0)))
      = Cert.ReferenceIdeal.RefValue.refDen (m ((c.tc : Thread nD τ).loc main_arg0)) := by
  funext i
  obtain ⟨b, u, rfl⟩ : ∃ (b : Fin 2048) (u : Fin 1), i = ix2 b u := ⟨i 0, i 1, eq_ix2 i⟩
  obtain rfl : u = 0 := Subsingleton.elim _ _
  show FloatOps.addf (G3 m c (ix2 b 0)) (remDen _ (ix2 b 0)) = _
  rw [Ideal.addf_def, remDen_apply, Cert.ReferenceIdeal.RefValue.refDen_apply]
  exact den_eq m c b

end Cert.Pool.Bridge

end
-- ==== Proof.lean ====
/-
  The certificate: a multi-hot embedding pooling kernel against its jnp reference.

  Both programs compute, for each of 2048 rows b and 64 output columns d,
      out (b, d) = (∑_k x (b, k) · e (k, d)) / (∑_k x (b, k))   where the row sum is positive, and 0 elsewhere,
  k ranging over 100000 buckets. The reference takes one matrix product and one row sum. The kernel program runs a Pallas
  call over a 2 x 71 grid that accumulates, for each block of 1024 rows, the products and the row sums of 71 blocks of
  1408 bucket columns (its matrix operands narrowed to bf16, which changes nothing on the extended reals), adds on the host
  the share of the remaining 32 columns, and finishes like the reference. On the extended reals addition is associative and
  commutative, so the regrouped sums are the same numbers and the two results agree; the inputs' finiteness is not needed.

  The three frames: each program runs to its end, faults nowhere and leaves its arguments unchanged — for the two kernel
  programs through the pipeline's launch theorem with the body's run at each of its three kinds of grid point (first,
  middle, last bucket block), for the reference from its run. The idealization rewrote nothing, so its soundness is trivial.
-/
import proofs.«114592_j12567074308161_1_alg».proof.Defs
import proofs.«114592_j12567074308161_1_alg».proof.Proof.Gen.Kernel
import proofs.«114592_j12567074308161_1_alg».proof.Proof.Gen.KernelIdeal
import proofs.«114592_j12567074308161_1_alg».proof.Proof.Gen.ReferenceIdeal
import proofs.«114592_j12567074308161_1_alg».proof.Proof.Gen.Pre_finite_inputs
import proofs.«114592_j12567074308161_1_alg».proof.Proof.KbFrame
import proofs.«114592_j12567074308161_1_alg».proof.Proof.KiFrame
import proofs.«114592_j12567074308161_1_alg».proof.Proof.RefSide
import proofs.«114592_j12567074308161_1_alg».proof.Proof.Bridge
import Idealize.ShloMosaic.Adequacy
import Idealize.ShloMosaic.Init

noncomputable section

namespace Cert.Proof

open Idealize.ShloMosaic Idealize.SL.Sem

theorem frame_p : @Cert.frame_Kernel Cert.Kernel.Gen.facts Cert.Pre_finite_inputs.Gen.facts :=
  fun m ρ _ => Cert.Kernel.Body.frame m ρ
theorem frame_pi : @Cert.frame_KernelIdeal Cert.KernelIdeal.Gen.facts Cert.Pre_finite_inputs.Gen.facts :=
  fun m ρ _ => Cert.KernelIdeal.Body.frame m ρ

/-- From memories that agree on the arguments both idealized programs run, and end with equal results: each result is the
    shared last step applied to a numerator and a denominator, and those are equal (the regrouped sums). -/
theorem algebraic : @Cert.algebraic_KernelIdeal_ReferenceIdeal Cert.KernelIdeal.Gen.facts Cert.ReferenceIdeal.Gen.facts Cert.Pre_finite_inputs.Gen.facts := by
  intro m ρ m' ρ' _ hagree
  refine ⟨_, Cert.KernelIdeal.Final.run_value m ρ, ?_⟩
  refine (θ_run Cert.ReferenceIdeal.defs _ _).mono (fun _ h c => ⟨(h c).1.trans ?_, (h c).2⟩)
    (Cert.ReferenceIdeal.RefValue.run_tail m' ρ')
  rw [(hagree c).1, (hagree c).2, Cert.Pool.Bridge.numerator_eq m c, Cert.Pool.Bridge.denominator_eq m c]

theorem claim : Cert.Claim := ⟨Cert.Kernel.Gen.facts, Cert.KernelIdeal.Gen.facts, Cert.ReferenceIdeal.Gen.facts, Cert.Pre_finite_inputs.Gen.facts,
  frame_p, frame_pi, Cert.ReferenceIdeal.RefValue.frame_ri, trivial, algebraic⟩

end Cert.Proof

end
